-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩
abbrev S5000 : Shape := ⟨1, ![5000]⟩

abbrev nBuf : Space → Nat
  | .hbm => 92
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S_, .f32⟩
  | .hbm, ⟨31, _⟩ => ⟨S800000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S50000x40, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x40, .f32⟩
  | .hbm, ⟨86, _⟩ => ⟨S_, .f32⟩
  | .hbm, ⟨87, _⟩ => ⟨S50000x40, .f32⟩
  | .hbm, ⟨88, _⟩ => ⟨S800000x1, .i32⟩
  | .hbm, ⟨89, _⟩ => ⟨S50000x40, .f32⟩
  | .hbm, ⟨90, _⟩ => ⟨S1x40, .f32⟩
  | .hbm, ⟨91, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x40, .f32⟩
  | .local _ .vmem, ⟨33, _⟩ => ⟨S5000x40, .f32⟩
  | .local _ .vmem, ⟨34, _⟩ => ⟨S5000x40, .f32⟩
  | .local _ .vmem, ⟨35, _⟩ => ⟨S5000x40, .f32⟩
  | .local _ .vmem, ⟨36, _⟩ => ⟨S5000x40, .f32⟩
  | .local _ .vmem, ⟨37, _⟩ => ⟨S5000x40, .f32⟩
  | .local _ .vmem, ⟨38, _⟩ => ⟨S5000x40, .f32⟩
  | .local _ .vmem, ⟨39, _⟩ => ⟨S5000x1, .f32⟩
  | .local _ .vmem, ⟨40, _⟩ => ⟨S5000x1, .f32⟩
  | .local _ .vmem, ⟨41, _⟩ => ⟨S1x40, .f32⟩
  | .local _ .vmem, ⟨42, _⟩ => ⟨S5000x40, .f32⟩
  | .local _ .vmem, ⟨43, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem4_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x40 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x40 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x40.size a ≤ S128x40.size a
  hwx2_8 : ∀ i : grid2.Coords, EltTy.bits .f32 = 32 ∨ (Rect.block (s := S128x40) S128x40.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x40.size a ≤ S50000x40.size a
  hwx2_9 : ∀ i : grid2.Coords, EltTy.bits .f32 = 32 ∨ (Rect.block (s := S50000x40) S5000x40.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S50000x40.size a
  hwx3_1 : ∀ i : grid3.Coords, EltTy.bits .f32 = 32 ∨ (Rect.block (s := S50000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S50000x40.size a
  hwx3_4 : ∀ i : grid3.Coords, EltTy.bits .f32 = 32 ∨ (Rect.block (s := S50000x40) S5000x40.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg4) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S128x40.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v49) S5000x40.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 262
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S50000x128, .f32⟩
  | 21 => ⟨S_, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S_, .f32⟩
  | 32 => ⟨S800000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S_, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S_, .f32⟩
  | 114 => ⟨S800000, .f32⟩
  | 115 => ⟨S50000, .f32⟩
  | 116 => ⟨S_, .f32⟩
  | 117 => ⟨S50000, .f32⟩
  | 118 => ⟨S50000, .f32⟩
  | 119 => ⟨S50000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x40, .f32⟩
  | 57 => ⟨S_, .f32⟩
  | 58 => ⟨S50000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S_, .f32⟩
  | 68 => ⟨S800000, .f32⟩
  | 69 => ⟨S50000, .f32⟩
  | 70 => ⟨S_, .f32⟩
  | 71 => ⟨S50000, .f32⟩
  | 72 => ⟨S50000, .f32⟩
  | 73 => ⟨S50000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x40, .f32⟩
  | 102 => ⟨S800000x1, .f32⟩
  | 103 => ⟨S800000x40, .f32⟩
  | 104 => ⟨S800000x40, .f32⟩
  | 105 => ⟨S_, .f32⟩
  | 106 => ⟨S50000x40, .f32⟩
  | 107 => ⟨S800000x1, .i32⟩
  | 108 => ⟨S50000x40, .f32⟩
  | 109 => ⟨S_, .f32⟩
  | 110 => ⟨S50000, .f32⟩
  | 111 => ⟨S50000, .f32⟩
  | 112 => ⟨S50000x1, .f32⟩
  | 113 => ⟨S50000x40, .f32⟩
  | 114 => ⟨S50000x40, .f32⟩
  | 115 => ⟨S50000x40, .f32⟩
  | 116 => ⟨S1x40, .f32⟩
  | 117 => ⟨S50000x40, .f32⟩
  | 118 => ⟨S50000x40, .f32⟩
  | 119 => ⟨S_, .f32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x40, .f32⟩
  | 126 => ⟨S50000x40, .f32⟩
  | 127 => ⟨S50000x40, .f32⟩
  | _ => ⟨S50000x128, .f32⟩

abbrev hbmTy0_2 (i : Nat) : BufTy := match i % 128 with
  | 0 => ⟨S_, .f32⟩
  | 1 => ⟨S50000, .f32⟩
  | 2 => ⟨S50000x1, .f32⟩
  | 3 => ⟨S50000x1, .f32⟩
  | 4 => ⟨S50000x40, .f32⟩
  | 5 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call0_cst : Ref sig .tc := ⟨.hbm, 99, rfl⟩
abbrev main_call0_v0 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_19 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_21 : Ref sig .tc := ⟨.hbm, 139, rfl⟩
abbrev main_v98 : Ref sig .tc := ⟨.hbm, 140, rfl⟩
abbrev main_v99 : Ref sig .tc := ⟨.hbm, 141, rfl⟩
abbrev main_c_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_23 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_24 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_25 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_call1_cst : Ref sig .tc := ⟨.hbm, 181, rfl⟩
abbrev main_call1_v0 : Ref sig .tc := ⟨.hbm, 182, rfl⟩
abbrev main_v135 : Ref sig .tc := ⟨.hbm, 183, rfl⟩
abbrev main_v136 : Ref sig .tc := ⟨.hbm, 184, rfl⟩
abbrev main_cst_26 : Ref sig .tc := ⟨.hbm, 185, rfl⟩
abbrev main_v137 : Ref sig .tc := ⟨.hbm, 186, rfl⟩
abbrev main_c_27 : Ref sig .tc := ⟨.hbm, 187, rfl⟩
abbrev main_v138 : Ref sig .tc := ⟨.hbm, 188, rfl⟩
abbrev main_v139 : Ref sig .tc := ⟨.hbm, 189, rfl⟩
abbrev main_c_28 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_29 : Ref sig .tc := ⟨.hbm, 195, rfl⟩
abbrev main_v144 : Ref sig .tc := ⟨.hbm, 196, rfl⟩
abbrev main_v145 : Ref sig .tc := ⟨.hbm, 197, rfl⟩
abbrev main_cst_30 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_31 : Ref sig .tc := ⟨.hbm, 202, rfl⟩
abbrev main_v149 : Ref sig .tc := ⟨.hbm, 203, rfl⟩
abbrev main_v150 : Ref sig .tc := ⟨.hbm, 204, rfl⟩
abbrev main_c_32 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_c_33 : Ref sig .tc := ⟨.hbm, 211, rfl⟩
abbrev main_v156 : Ref sig .tc := ⟨.hbm, 212, rfl⟩
abbrev main_v157 : Ref sig .tc := ⟨.hbm, 213, rfl⟩
abbrev main_c_34 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_c_35 : Ref sig .tc := ⟨.hbm, 221, rfl⟩
abbrev main_v164 : Ref sig .tc := ⟨.hbm, 222, rfl⟩
abbrev main_v165 : Ref sig .tc := ⟨.hbm, 223, rfl⟩
abbrev main_c_36 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_37 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_38 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_call2_cst : Ref sig .tc := ⟨.hbm, 247, rfl⟩
abbrev main_call2_v0 : Ref sig .tc := ⟨.hbm, 248, rfl⟩
abbrev main_call2_cst_0 : Ref sig .tc := ⟨.hbm, 249, rfl⟩
abbrev main_call2_v1 : Ref sig .tc := ⟨.hbm, 250, rfl⟩
abbrev main_call2_v2 : Ref sig .tc := ⟨.hbm, 251, rfl⟩
abbrev main_call2_v3 : Ref sig .tc := ⟨.hbm, 252, rfl⟩
abbrev main_call2_v4 : Ref sig .tc := ⟨.hbm, 253, rfl⟩
abbrev main_call2_v5 : Ref sig .tc := ⟨.hbm, 254, rfl⟩
abbrev main_call2_v6 : Ref sig .tc := ⟨.hbm, 255, rfl⟩
abbrev main_call2_cst_1 : Ref sig .tc := ⟨.hbm, 256, rfl⟩
abbrev main_call2_v7 : Ref sig .tc := ⟨.hbm, 257, rfl⟩
abbrev main_call2_v8 : Ref sig .tc := ⟨.hbm, 258, rfl⟩
abbrev main_call2_v9 : Ref sig .tc := ⟨.hbm, 259, rfl⟩
abbrev main_call2_v10 : Ref sig .tc := ⟨.hbm, 260, rfl⟩
abbrev main_v186 : Ref sig .tc := ⟨.hbm, 261, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The idealized kernel's run, with its result named.

  @main is four launches among stretches of host operations. Every weakly fair execution ends, nothing faulting, in a
  state where each buffer that outlives the launches holds what the chain of segments leaves in it: the fold `W8` of
  the host operations and of the launches' write-backs over the launch memory. Read at the result buffer this names the
  result; read at an argument it is the argument as launched.
-/
import proofs.«151626_j17386027614906_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the segments' fold and the arguments as
    launched: the launch over the eight segments, the last thread state read against the final state. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Result

end
-- ==== Proof.Spec.lean ====
/-
  The functions this certificate is about, index by index on the extended reals.

  A three-layer graph convolution on 50000 nodes. Per layer the dense part is a matrix product, and the sparse part adds,
  into each node's row, the rows of the edges that end at it. The kernel carries the rows ALREADY scaled by the node's
  inverse-square-root degree (`hs = h · dis`), sums the gathered rows unscaled and multiplies the sum by `dis` once;
  the reference scales each gathered row by `dis[src] · dis[dst]` and adds the self loop as `h / deg`. Between the
  layers both apply the same batch normalisation with running statistics and a rectifier; at the end both take a row-wise
  log-softmax.

  Here: the scalar functions the two programs share, and what each of the kernel's four launches writes, as one function
  of whole arrays.
-/
import Idealize.ShloMosaic.PureOps.Ideal
import Idealize.ShloMosaic.Lib.ValueIdx

noncomputable section

open scoped BigOperators

namespace Cert.Spec

open Idealize.ShloMosaic Idealize.ShloMosaic.ValueIdx

abbrev TNxH : Shape := ⟨2, ![50000, 128]⟩
abbrev TNxO : Shape := ⟨2, ![50000, 40]⟩
abbrev TNx1 : Shape := ⟨2, ![50000, 1]⟩
abbrev THxH : Shape := ⟨2, ![128, 128]⟩
abbrev THxO : Shape := ⟨2, ![128, 40]⟩
abbrev T1xH : Shape := ⟨2, ![1, 128]⟩
abbrev T1xO : Shape := ⟨2, ![1, 40]⟩

/-- The batch normalisation's epsilon, the f32 nearest 1e-5, as both programs spell it. -/
def epsBN : EReal := Ideal.ofBits .f32 0x3727C5AC#32
/-- The rectifier's threshold, the f32 zero. -/
def zeroF : EReal := Ideal.ofBits .f32 0x00000000#32
/-- The row maximum's starting value, the f32 minus infinity. -/
def negInfF : EReal := Ideal.ofBits .f32 0xFF800000#32

/-- Batch normalisation with running mean `mm`, variance `vv`, scale `gg`, shift `bb`, then the rectifier. -/
def bnrelu (a mm vv gg bb : EReal) : EReal := max ((a - mm) * Ideal.rsqrt (vv + epsBN) * gg + bb) zeroF

/-- The kernel's aggregate of one entry: `dis · (sum of gathered rows + own scaled row) + bias`. -/
def aggK (d s hs b : EReal) : EReal := d * (s + hs) + b

/-- The maximum of a row of 40 entries, folded from minus infinity. -/
def rowMax (a : Fin 40 → EReal) : EReal := (Finset.univ : Finset (Fin 40)).fold max negInfF a

/-- Row-wise log-softmax of 40 entries, shifted by the row maximum. -/
def lsm (a : Fin 40 → EReal) (q : Fin 40) : EReal :=
  (a q - rowMax a) - Ideal.log (∑ k : Fin 40, Ideal.exp (a k - rowMax a))

/-- Launch 0: `(x · w) · dis`, row by row. -/
def R0w (x : TNxH.Idx → EReal) (w : THxH.Idx → EReal) (d2 : TNx1.Idx → EReal) : TNxH.Idx → EReal :=
  fun j => (∑ k : Fin 128, x (ix2 (j 0) k) * w (ix2 k (j 1))) * d2 (ix2 (j 0) 0)

/-- The hidden activation entering the next layer's product, at row `p`, column `k`. -/
def hid (s hs : TNxH.Idx → EReal) (d2 : TNx1.Idx → EReal) (b g be mm vv : T1xH.Idx → EReal) (p : Fin 50000) (k : Fin 128) : EReal :=
  bnrelu (aggK (d2 (ix2 p 0)) (s (ix2 p k)) (hs (ix2 p k)) (b (ix2 0 k))) (mm (ix2 0 k)) (vv (ix2 0 k)) (g (ix2 0 k)) (be (ix2 0 k))

/-- Launch 1: the aggregate, normalised and rectified, times the next weight matrix, times `dis`. -/
def R1w (s hs : TNxH.Idx → EReal) (d2 : TNx1.Idx → EReal) (b g be mm vv : T1xH.Idx → EReal) (w : THxH.Idx → EReal) :
    TNxH.Idx → EReal :=
  fun j => (∑ k : Fin 128, hid s hs d2 b g be mm vv (j 0) k * w (ix2 k (j 1))) * d2 (ix2 (j 0) 0)

/-- Launch 2: the same into 40 columns. -/
def R2w (s hs : TNxH.Idx → EReal) (d2 : TNx1.Idx → EReal) (b g be mm vv : T1xH.Idx → EReal) (w : THxO.Idx → EReal) :
    TNxO.Idx → EReal :=
  fun j => (∑ k : Fin 128, hid s hs d2 b g be mm vv (j 0) k * w (ix2 k (j 1))) * d2 (ix2 (j 0) 0)

/-- Launch 3: the last aggregate's row-wise log-softmax. -/
def R3w (s hs : TNxO.Idx → EReal) (d2 : TNx1.Idx → EReal) (b : T1xO.Idx → EReal) : TNxO.Idx → EReal :=
  fun j => lsm (fun k => aggK (d2 (ix2 (j 0) 0)) (s (ix2 (j 0) k)) (hs (ix2 (j 0) k)) (b (ix2 0 k))) (j 1)

end Cert.Spec

end
-- ==== Proof.KernelTerms.lean ====
/-
  The idealized kernel's host operations and its result, named as functions of arrays.

  The host stretch before the first launch cuts the edge list into its source and destination rows, counts each node's
  incoming edges (an accumulating scatter of ones), adds the self loop, and takes the inverse square root: the column
  `dis`. Each later stretch gathers the previous launch's rows at the edges' sources and adds them into the rows of
  the edges' destinations, and reshapes the next launch's vectors of parameters into rows. The result is the last
  launch's function of the three before it.
-/
import proofs.«151626_j17386027614906_2_alg».proof.Proof.Gen.KernelIdeal
import proofs.«151626_j17386027614906_2_alg».proof.Proof.Spec
import Idealize.ShloMosaic.PureOps.Ideal

noncomputable section

namespace Cert.KernelIdeal.Fold

open Cert.KernelIdeal Cert.KernelIdeal.Gen Idealize.ShloMosaic Idealize.ShloMosaic.TcCoe Idealize.SL.Sem

/-! ## The host stretches' operations, named -/

abbrev IV : Type := (⟨S800000, .i32⟩ : BufTy).Contents (Elt Ideal)
abbrev IV1 : Type := (⟨S800000x1, .i32⟩ : BufTy).Contents (Elt Ideal)
abbrev A128 : Type := (⟨S50000x128, .f32⟩ : BufTy).Contents (Elt Ideal)
abbrev A40 : Type := (⟨S50000x40, .f32⟩ : BufTy).Contents (Elt Ideal)

/-- The edges' start indices for a gather: a negative index counted from the end, then one index per edge as a column. -/
def normIdx (v : IV) : IV1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The edges' start indices for the row scatter: as given, one per edge as a column. -/
def rawIdx (v : IV) : IV1 := broadcastInDim S800000x1 ![0] bcast_S800000_S800000x1_0 v

/-- The edge list's row of sources. -/
def srcV (ei : (⟨S2x800000, .i32⟩ : BufTy).Contents (Elt Ideal)) : IV :=
  shapeCast S800000 (extractStridedSlice S1x800000 ![0, 0] ei slices_S2x800000_S1x800000_0_0) shapeCasts_S1x800000_S800000

/-- The edge list's row of destinations. -/
def dstV (ei : (⟨S2x800000, .i32⟩ : BufTy).Contents (Elt Ideal)) : IV :=
  shapeCast S800000 (extractStridedSlice S1x800000 ![1, 0] ei slices_S2x800000_S1x800000_1_0) shapeCasts_S1x800000_S800000

/-- Each node's degree with its self loop: the number of edges ending at it, plus one. -/
def degV (ei : (⟨S2x800000, .i32⟩ : BufTy).Contents (Elt Ideal)) : FVec Ideal S50000 .f32 :=
  addf (F := Ideal) (Host.scatterAdd (F := Ideal) scatter_S50000_S800000x1_S800000_n_0_0_1
      (broadcastInDim S50000 ![] bcast_S_S50000 (constant (F := Ideal) S_ .f32 0x00000000#32)) (normIdx (dstV ei))
      (broadcastInDim S800000 ![] bcast_S_S800000 (constant (F := Ideal) S_ .f32 0x3F800000#32)))
    (broadcastInDim S50000 ![] bcast_S_S50000 (constant (F := Ideal) S_ .f32 0x3F800000#32))

/-- The inverse square root of the degree, as a column. -/
def dis2V (ei : (⟨S2x800000, .i32⟩ : BufTy).Contents (Elt Ideal)) : (⟨S50000x1, .f32⟩ : BufTy).Contents (Elt Ideal) :=
  shapeCast S50000x1 (Host.rsqrt (F := Ideal) (degV ei)) shapeCasts_S50000_S50000x1

/-- The sparse aggregation of 128-wide rows: gather at the sources, add into the destinations' rows. -/
def aggr128 (hs : A128) (src dst : IV) : A128 :=
  Host.scatterAdd (F := Ideal) scatter_S50000x128_S800000x1_S800000x128_1_0_0_1
    (broadcastInDim S50000x128 ![] bcast_S_S50000x128 (constant (F := Ideal) S_ .f32 0x00000000#32)) (rawIdx dst)
    (Host.gather gather_S50000x128_S800000x1_S800000x128_1_0_n_n_0_1_1128 hs (normIdx src))

/-- The same for 40-wide rows. -/
def aggr40 (hs : A40) (src dst : IV) : A40 :=
  Host.scatterAdd (F := Ideal) scatter_S50000x40_S800000x1_S800000x40_1_0_0_1
    (broadcastInDim S50000x40 ![] bcast_S_S50000x40 (constant (F := Ideal) S_ .f32 0x00000000#32)) (rawIdx dst)
    (Host.gather gather_S50000x40_S800000x1_S800000x40_1_0_n_n_0_1_140 hs (normIdx src))

/-- A vector of 128 parameters as a row. -/
def row128 (v : (⟨S128, .f32⟩ : BufTy).Contents (Elt Ideal)) : (⟨S1x128, .f32⟩ : BufTy).Contents (Elt Ideal) :=
  shapeCast S1x128 v shapeCasts_S128_S1x128

/-- A vector of 40 parameters as a row. -/
def row40 (v : (⟨S40, .f32⟩ : BufTy).Contents (Elt Ideal)) : (⟨S1x40, .f32⟩ : BufTy).Contents (Elt Ideal) :=
  shapeCast S1x40 v shapeCasts_S40_S1x40

/-! ## The kernel's result as one function of the argument arrays -/

/-- The first launch's rows: `(x · W1) · dis`. -/
def hs1 (x0 : A128) (x1 : (⟨S2x800000, .i32⟩ : BufTy).Contents (Elt Ideal)) (x2 : (⟨S128x128, .f32⟩ : BufTy).Contents (Elt Ideal)) : A128 :=
  Cert.Spec.R0w x0 x2 (dis2V x1)

/-- The second launch's rows. -/
def hs2 (x0 : A128) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x8 x9 x10 x11 : (⟨S128, .f32⟩ : BufTy).Contents (Elt Ideal)) : A128 :=
  Cert.Spec.R1w (aggr128 (hs1 x0 x1 x2) (srcV x1) (dstV x1)) (hs1 x0 x1 x2) (dis2V x1)
    (row128 x3) (row128 x8) (row128 x9) (row128 x10) (row128 x11) x4

/-- The third launch's rows, 40 wide. -/
def hs3 (x0 : A128) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S128x40, .f32⟩ : BufTy).Contents (Elt Ideal)) (x8 x9 x10 x11 x12 x13 x14 x15 : (⟨S128, .f32⟩ : BufTy).Contents (Elt Ideal)) : A40 :=
  Cert.Spec.R2w (aggr128 (hs2 x0 x1 x2 x3 x4 x8 x9 x10 x11) (srcV x1) (dstV x1)) (hs2 x0 x1 x2 x3 x4 x8 x9 x10 x11) (dis2V x1)
    (row128 x5) (row128 x12) (row128 x13) (row128 x14) (row128 x15) x6

/-- The kernel's result. -/
def kernelValue (x0 : A128) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal))
    (x8 x9 x10 x11 x12 x13 x14 x15 : (⟨S128, .f32⟩ : BufTy).Contents (Elt Ideal)) : A40 :=
  Cert.Spec.R3w (aggr40 (hs3 x0 x1 x2 x3 x4 x5 x6 x8 x9 x10 x11 x12 x13 x14 x15) (srcV x1) (dstV x1))
    (hs3 x0 x1 x2 x3 x4 x5 x6 x8 x9 x10 x11 x12 x13 x14 x15) (dis2V x1) (row40 x7)

end Cert.KernelIdeal.Fold

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibBroadcast2.lean ====
/-
  Two keep-dims broadcasts of small matrices read at an index: a column `[a, 1]` broadcast along the lanes to
  `[a, b]` reads, at `(p, c)`, the column's element `p`; a single element `[1, 1]` broadcast to `[a, b]` reads that
  element everywhere. (The row form `[1, b] → [a, b]` is the library's.)
-/
import Idealize.ShloMosaic.Lib.Pipeline.Value
import Idealize.ShloMosaic.Lib.ValueIdx

noncomputable section

namespace LibBroadcast2

open Idealize.ShloMosaic Idealize.ShloMosaic.ValueIdx

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end LibBroadcast2

end
-- ==== Proof.Region0.lean ====
/-
  Launch 0 as a function of whole arrays: every row block of the output is the matrix product of the same row
  block of x with the whole weight matrix, each row scaled by its entry of the column; the ten row blocks tile
  the array, so the array ends holding that function of the entry arrays, index by index.
-/
import proofs.«151626_j17386027614906_2_alg».proof.Proof.Gen.KernelIdeal.Frame
import proofs.«151626_j17386027614906_2_alg».proof.Proof.Spec
import proofs.«151626_j17386027614906_2_alg».proof.Proof.LibMatmulNN
import proofs.«151626_j17386027614906_2_alg».proof.Proof.LibBroadcast2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx

theorem dot_plain : dot_S5000x128_S128x128_S5000x128_1_0_0_1_n_n = DotDims.plain 5000 128 128 := rfl

/-- Entry (p, q) of the payload: the row of x against the column of w, times the row's scale. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p 0) := by
  unfold k0_pay1
  rw [mulf_apply, shapeCast_self, dot_plain]
  refine congrArg₂ (· * ·) ?_ ?_
  · exact LibMatmulNN.matmul_zero_apply 5000 128 128 none _ _ p q
  · exact LibBroadcast2.broadcastTo_a1_ab_apply _ _ p q

theorem hz : (![0, 0] : Fin 2 → Nat) = fun _ => 0 := funext fun a => by fin_cases a <;> rfl

/-- The index maps at every grid point t: the row-blocked windows sit at block (t, 0), the weight at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 10 := lt_of_lt_of_eq t.isLt N_0

/-- Row p of block t is row t * 5000 + p of the array. -/
def row (t : Fin cfg0.N) (p : Fin 5000) : Fin 50000 :=
  ⟨t.val * 5000 + p.val, by have := t_lt t; have := p.isLt; omega⟩

variable (V : (c : Dev nD) → (b : Ref sig .tc) → Buf (Elt Ideal) ((c : Thread nD τ).loc b))

/-- The output block's entry (p, q) is the array's entry (t * 5000 + p, q). -/
theorem emb3 (t : Fin cfg0.N) (p : Fin 5000) (q : Fin 128) :
    ((cfg0.win 3).blk t).view.emb (ix2 p q) = ix2 (row t p) q := by
  obtain ⟨e0, e1, e2, e3, e4, e5, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- Window 0's block: entry (p, k) is the array's entry (t * 5000 + p, k). -/
theorem blk0 (c : Dev nD) (t : Fin cfg0.N) (p : Fin 5000) (k : Fin 128) :
    Gen.iblk0 (F := Ideal) V c 0 t (ix2 p k) = V c main_arg0 (ix2 (row t p) k) := by
  obtain ⟨e0, e1, e2, e3, e4, e5, e6, e7⟩ := idx_facts t
  show V c main_arg0 (((cfg0.win 0).blk t).view.emb (ix2 p k)) = _
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1's block is the whole weight matrix. -/
theorem blk1 (c : Dev nD) (t : Fin cfg0.N) (k : Fin 128) (q : Fin 128) :
    Gen.iblk0 (F := Ideal) V c 1 t (ix2 k q) = V c main_arg2 (ix2 k q) := by
  obtain ⟨e0, e1, e2, e3, e4, e5, e6, e7⟩ := idx_facts t
  show V c main_arg2 (((cfg0.win 1).blk t).view.emb (ix2 k q)) = _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Window 2's block: entry (p, 0) is the column's entry (t * 5000 + p, 0). -/
theorem blk2 (c : Dev nD) (t : Fin cfg0.N) (p : Fin 5000) :
    Gen.iblk0 (F := Ideal) V c 2 t (ix2 p (0 : Fin 1)) = V c main_v16 (ix2 (row t p) (0 : Fin 1)) := by
  obtain ⟨e0, e1, e2, e3, e4, e5, e6, e7⟩ := idx_facts t
  show V c main_v16 (((cfg0.win 2).blk t).view.emb (ix2 p (0 : Fin 1))) = _
  congr 1
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- What point t writes back is block t of the launch's function of the arrays. -/
theorem flushed_eq (c : Dev nD) (t : Fin cfg0.N) :
    (Gen.dat0 (F := Ideal) V c).flushed 3 t
      = ((cfg0.win 3).blk t).view.read (Elt Ideal) (Cert.Spec.R0w (V c main_arg0) (V c main_arg2) (V c main_v16)) := by
  show (cfg0.win 3).cut (grid0.coords t) ((Gen.dat0 (F := Ideal) V c).after 3 t) = _
  rw [Gen.after0_3]
  unfold Gen.out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.Spec.R0w (V c main_arg0) (V c main_arg2) (V c main_v16) (((cfg0.win 3).blk t).view.emb (ix2 p q))
  rw [pay_apply, emb3, blk2]
  simp only [blk0, blk1]
  rfl

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every index of the array lies in the block of the point its row falls in. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The launch's output array, whole: the product of x and w, each row scaled by its entry of the column. -/
theorem arr (c : Dev nD) :
    (Gen.dat0 (F := Ideal) V c).arrAt 3 cfg0.N
      = Cert.Spec.R0w (V c main_arg0) (V c main_arg2) (V c main_v16) :=
  (Gen.dat0 (F := Ideal) V c).arrAt_eq_of_cover 3 (Cert.Spec.R0w (V c main_arg0) (V c main_arg2) (V c main_v16))
    (fun t _ => flushed_eq V c t) cover

end Cert.KernelIdeal.Region0

end
-- ==== Proof.Region1.lean ====
/-
  Launch 1 as one function of whole arrays. The launch runs ten points; point `t` reads rows `t * 5000 …` of the
  row-blocked operands and the whole of the small ones, and writes back one block of 5000 rows. Entry by entry the
  block it writes is the aggregate, normalised and rectified, times the next weight matrix, times the inverse-square-root
  degree; the ten blocks tile the output array, so the array ends holding that function of the entry arrays.
-/
import proofs.«151626_j17386027614906_2_alg».proof.Proof.Gen.KernelIdeal.Frame
import proofs.«151626_j17386027614906_2_alg».proof.Proof.Spec
import proofs.«151626_j17386027614906_2_alg».proof.Proof.LibMatmulNN
import proofs.«151626_j17386027614906_2_alg».proof.Proof.LibBroadcast2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx

/-- Entry (p, q) of the matrix product of a block against the weight, accumulated into zero. -/
theorem mm_apply (a : FVec Ideal S5000x128 .f32) (w : Vec Ideal S128x128 .f32) (p : Fin 5000) (q : Fin 128) :
    matmul dot_S5000x128_S128x128_S5000x128_1_0_0_1_n_n none (truncf .bf16 a bitsLt_bf16_f32) (truncf .bf16 w bitsLt_bf16_f32)
        (constant S5000x128 .f32 0x00000000#32) (ix2 p q)
      = ∑ k : Fin 128, a (ix2 p k) * w (ix2 k q) :=
  LibMatmulNN.matmul_zero_apply 5000 128 128 none _ _ p q

theorem pay_apply (x0 x1 : Vec Ideal S5000x128 .f32) (x2 : Vec Ideal S5000x1 .f32) (x3 x4 x5 x6 x7 : Vec Ideal S1x128 .f32)
    (x8 : Vec Ideal S128x128 .f32) (p : Fin 5000) (q : Fin 128) :
    k1_pay1 (k1_pay2 x2 x0 x1 x3 x7 x6 x4 x5 x8) x2 (ix2 p q)
      = (∑ k : Fin 128, Cert.Spec.bnrelu (Cert.Spec.aggK (x2 (ix2 p 0)) (x0 (ix2 p k)) (x1 (ix2 p k)) (x3 (ix2 0 k)))
            (x6 (ix2 0 k)) (x7 (ix2 0 k)) (x4 (ix2 0 k)) (x5 (ix2 0 k)) * x8 (ix2 k q)) * x2 (ix2 p 0) := by
  unfold k1_pay1
  show k1_pay2 x2 x0 x1 x3 x7 x6 x4 x5 x8 (ix2 p q) * broadcastTo S5000x128 (shapeCast S5000x1 x2 shapeCasts_S5000x1_S5000x1) broadcasts_S5000x1_S5000x128 (ix2 p q) = _
  rw [shapeCast_self, LibBroadcast2.broadcastTo_a1_ab_apply]
  refine congrArg (· * x2 (ix2 p 0)) ?_
  unfold k1_pay2
  refine (mm_apply _ _ p q).trans ?_
  refine Finset.sum_congr rfl fun k _ => ?_
  refine congrArg (· * x8 (ix2 k q)) ?_
  simp only [maximumf_apply, addf_apply, mulf_apply, subf_apply, broadcast_apply, shapeCast_self,
    broadcastTo_1b_ab_apply, LibBroadcast2.broadcastTo_a1_ab_apply]
  rfl

/-! ## From blocks to the array -/

theorem hz : (![0, 0] : Fin 2 → Nat) = fun _ => 0 := funext fun a => by fin_cases a <;> rfl

/-- The printed index maps, decided over the grid: a row-blocked window's block index at point `t` is `(t, 0)`, a
    whole-array window's is `(0, 0)`; and the grid has ten points. -/
theorem idx_facts : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem t_lt (t : Fin cfg1.N) : t.val < 10 := (idx_facts t).1

/-- Row `p` of point `t`'s block is row `t * 5000 + p` of the array. -/
def row (t : Fin cfg1.N) (p : Fin 5000) : Fin 50000 := ⟨t.val * 5000 + p.val, by have := t_lt t; have := p.isLt; omega⟩

section
variable (V : (c : Dev nD) → (b : Ref sig .tc) → Buf (Elt Ideal) ((c : Thread nD τ).loc b)) (c : Dev nD) (t : Fin cfg1.N)

/-! One read lemma per input window: a row-blocked window's block entry `(p, k)` is the array's entry
    `(t * 5000 + p, k)`; a whole-array window's block is the array. -/

theorem rd0 (p : Fin 5000) (k : Fin 128) : Gen.iblk1 (F := Ideal) V c 0 t (ix2 p k) = V c main_v27 (ix2 (row t p) k) := by
  show V c main_v27 (((cfg1.win 0).blk t).view.emb (ix2 p k)) = _
  refine congrArg (V c main_v27) ?_
  have ht := t_lt t
  have e0 : win1_0.index t (0 : Fin 2) = t.val := (idx_facts t).2.1
  have e1 : win1_0.index t (1 : Fin 2) = 0 := (idx_facts t).2.2.1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem rd1 (p : Fin 5000) (k : Fin 128) : Gen.iblk1 (F := Ideal) V c 1 t (ix2 p k) = V c main_v17 (ix2 (row t p) k) := by
  show V c main_v17 (((cfg1.win 1).blk t).view.emb (ix2 p k)) = _
  refine congrArg (V c main_v17) ?_
  have ht := t_lt t
  have e0 : win1_1.index t (0 : Fin 2) = t.val := (idx_facts t).2.2.2.1
  have e1 : win1_1.index t (1 : Fin 2) = 0 := (idx_facts t).2.2.2.2.1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem rd2 (p : Fin 5000) (k : Fin 1) : Gen.iblk1 (F := Ideal) V c 2 t (ix2 p k) = V c main_v16 (ix2 (row t p) k) := by
  show V c main_v16 (((cfg1.win 2).blk t).view.emb (ix2 p k)) = _
  refine congrArg (V c main_v16) ?_
  have ht := t_lt t
  have e0 : win1_2.index t (0 : Fin 2) = t.val := (idx_facts t).2.2.2.2.2.1
  have e1 : win1_2.index t (1 : Fin 2) = 0 := (idx_facts t).2.2.2.2.2.2.1
  funext a; apply Fin.ext
  match a with
  | ⟨0, _⟩ => show win1_2.index t (0 : Fin 2) * 5000 + 1 * p.val = t.val * 5000 + p.val; omega
  | ⟨1, _⟩ => show win1_2.index t (1 : Fin 2) * 1 + 1 * k.val = k.val; omega

theorem rd3 (a' : Fin 1) (k : Fin 128) : Gen.iblk1 (F := Ideal) V c 3 t (ix2 a' k) = V c main_v28 (ix2 a' k) := by
  show V c main_v28 (((cfg1.win 3).blk t).view.emb (ix2 a' k)) = _
  refine congrArg (V c main_v28) ?_
  have e0 : win1_3.index t (0 : Fin 2) = 0 := (idx_facts t).2.2.2.2.2.2.2.1
  have e1 : win1_3.index t (1 : Fin 2) = 0 := (idx_facts t).2.2.2.2.2.2.2.2.1
  funext a; apply Fin.ext
  match a with
  | ⟨0, _⟩ => show win1_3.index t (0 : Fin 2) * 1 + 1 * a'.val = a'.val; omega
  | ⟨1, _⟩ => show win1_3.index t (1 : Fin 2) * 128 + 1 * k.val = k.val; omega

theorem rd4 (a' : Fin 1) (k : Fin 128) : Gen.iblk1 (F := Ideal) V c 4 t (ix2 a' k) = V c main_v29 (ix2 a' k) := by
  show V c main_v29 (((cfg1.win 4).blk t).view.emb (ix2 a' k)) = _
  refine congrArg (V c main_v29) ?_
  have e0 : win1_4.index t (0 : Fin 2) = 0 := (idx_facts t).2.2.2.2.2.2.2.2.2.1
  have e1 : win1_4.index t (1 : Fin 2) = 0 := (idx_facts t).2.2.2.2.2.2.2.2.2.2.1
  funext a; apply Fin.ext
  match a with
  | ⟨0, _⟩ => show win1_4.index t (0 : Fin 2) * 1 + 1 * a'.val = a'.val; omega
  | ⟨1, _⟩ => show win1_4.index t (1 : Fin 2) * 128 + 1 * k.val = k.val; omega

theorem rd5 (a' : Fin 1) (k : Fin 128) : Gen.iblk1 (F := Ideal) V c 5 t (ix2 a' k) = V c main_v30 (ix2 a' k) := by
  show V c main_v30 (((cfg1.win 5).blk t).view.emb (ix2 a' k)) = _
  refine congrArg (V c main_v30) ?_
  have e0 : win1_5.index t (0 : Fin 2) = 0 := (idx_facts t).2.2.2.2.2.2.2.2.2.2.2.1
  have e1 : win1_5.index t (1 : Fin 2) = 0 := (idx_facts t).2.2.2.2.2.2.2.2.2.2.2.2.1
  funext a; apply Fin.ext
  match a with
  | ⟨0, _⟩ => show win1_5.index t (0 : Fin 2) * 1 + 1 * a'.val = a'.val; omega
  | ⟨1, _⟩ => show win1_5.index t (1 : Fin 2) * 128 + 1 * k.val = k.val; omega

theorem rd6 (a' : Fin 1) (k : Fin 128) : Gen.iblk1 (F := Ideal) V c 6 t (ix2 a' k) = V c main_v31 (ix2 a' k) := by
  show V c main_v31 (((cfg1.win 6).blk t).view.emb (ix2 a' k)) = _
  refine congrArg (V c main_v31) ?_
  have e0 : win1_6.index t (0 : Fin 2) = 0 := (idx_facts t).2.2.2.2.2.2.2.2.2.2.2.2.2.1
  have e1 : win1_6.index t (1 : Fin 2) = 0 := (idx_facts t).2.2.2.2.2.2.2.2.2.2.2.2.2.2.1
  funext a; apply Fin.ext
  match a with
  | ⟨0, _⟩ => show win1_6.index t (0 : Fin 2) * 1 + 1 * a'.val = a'.val; omega
  | ⟨1, _⟩ => show win1_6.index t (1 : Fin 2) * 128 + 1 * k.val = k.val; omega

theorem rd7 (a' : Fin 1) (k : Fin 128) : Gen.iblk1 (F := Ideal) V c 7 t (ix2 a' k) = V c main_v32 (ix2 a' k) := by
  show V c main_v32 (((cfg1.win 7).blk t).view.emb (ix2 a' k)) = _
  refine congrArg (V c main_v32) ?_
  have e0 : win1_7.index t (0 : Fin 2) = 0 := (idx_facts t).2.2.2.2.2.2.2.2.2.2.2.2.2.2.2.1
  have e1 : win1_7.index t (1 : Fin 2) = 0 := (idx_facts t).2.2.2.2.2.2.2.2.2.2.2.2.2.2.2.2.1
  funext a; apply Fin.ext
  match a with
  | ⟨0, _⟩ => show win1_7.index t (0 : Fin 2) * 1 + 1 * a'.val = a'.val; omega
  | ⟨1, _⟩ => show win1_7.index t (1 : Fin 2) * 128 + 1 * k.val = k.val; omega

theorem rd8 (a' : Fin 128) (k : Fin 128) : Gen.iblk1 (F := Ideal) V c 8 t (ix2 a' k) = V c main_arg4 (ix2 a' k) := by
  show V c main_arg4 (((cfg1.win 8).blk t).view.emb (ix2 a' k)) = _
  refine congrArg (V c main_arg4) ?_
  have e0 : win1_8.index t (0 : Fin 2) = 0 := (idx_facts t).2.2.2.2.2.2.2.2.2.2.2.2.2.2.2.2.2.1
  have e1 : win1_8.index t (1 : Fin 2) = 0 := (idx_facts t).2.2.2.2.2.2.2.2.2.2.2.2.2.2.2.2.2.2.1
  funext a; apply Fin.ext
  match a with
  | ⟨0, _⟩ => show win1_8.index t (0 : Fin 2) * 128 + 1 * a'.val = a'.val; omega
  | ⟨1, _⟩ => show win1_8.index t (1 : Fin 2) * 128 + 1 * k.val = k.val; omega

/-- Entry `(p, q)` of the output window's block at point `t` sits in the array at `(t * 5000 + p, q)`. -/
theorem emb9 (p : Fin 5000) (q : Fin 128) : ((cfg1.win 9).blk t).view.emb (ix2 p q) = ix2 (row t p) q := by
  have ht := t_lt t
  have e0 : win1_9.index t (0 : Fin 2) = t.val := (idx_facts t).2.2.2.2.2.2.2.2.2.2.2.2.2.2.2.2.2.2.2.1
  have e1 : win1_9.index t (1 : Fin 2) = 0 := (idx_facts t).2.2.2.2.2.2.2.2.2.2.2.2.2.2.2.2.2.2.2.2
  funext a; apply Fin.ext
  match a with
  | ⟨0, _⟩ => show win1_9.index t (0 : Fin 2) * 5000 + 1 * p.val = t.val * 5000 + p.val; omega
  | ⟨1, _⟩ => show win1_9.index t (1 : Fin 2) * 128 + 1 * q.val = q.val; omega

/-- What point `t` writes back is block `t` of the launch's whole-array function of the entry arrays. -/
theorem flushed_eq :
    (Gen.dat1 (F := Ideal) V c).flushed 9 t = ((cfg1.win 9).blk t).view.read (Elt Ideal)
      (Cert.Spec.R1w (V c main_v27) (V c main_v17) (V c main_v16) (V c main_v28) (V c main_v29) (V c main_v30) (V c main_v31) (V c main_v32) (V c main_arg4)) := by
  show (cfg1.win 9).cut (grid1.coords t) ((Gen.dat1 V c).after 9 t) = _
  rw [Gen.after1_9]
  unfold Gen.out1_9
  rw [View.canon_unit_zero hz]
  simp only [View.ld_unit_zero (S := S5000x128) hz, View.ld_unit_zero (S := S5000x1) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 (n0 := 5000) (n1 := 128) j⟩
  refine (pay_apply (Gen.iblk1 V c 0 t) (Gen.iblk1 V c 1 t) (Gen.iblk1 V c 2 t) (Gen.iblk1 V c 3 t) (Gen.iblk1 V c 4 t)
    (Gen.iblk1 V c 5 t) (Gen.iblk1 V c 6 t) (Gen.iblk1 V c 7 t) (Gen.iblk1 V c 8 t) p q).trans ?_
  show _ = Cert.Spec.R1w (V c main_v27) (V c main_v17) (V c main_v16) (V c main_v28) (V c main_v29) (V c main_v30) (V c main_v31) (V c main_v32) (V c main_arg4)
    (((cfg1.win 9).blk t).view.emb (ix2 p q))
  rw [emb9]
  show _ = (∑ k : Fin 128, Cert.Spec.bnrelu (Cert.Spec.aggK (V c main_v16 (ix2 (row t p) 0)) (V c main_v27 (ix2 (row t p) k)) (V c main_v17 (ix2 (row t p) k)) (V c main_v28 (ix2 0 k)))
            (V c main_v31 (ix2 0 k)) (V c main_v32 (ix2 0 k)) (V c main_v29 (ix2 0 k)) (V c main_v30 (ix2 0 k)) * V c main_arg4 (ix2 k q)) * V c main_v16 (ix2 (row t p) 0)
  simp only [rd0, rd1, rd2, rd3, rd4, rd5, rd6, rd7, rd8]

end

/-- An index of the array is in point `t`'s block iff each coordinate is in the block's range on its axis. -/
theorem mem_blk (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v33).slice (win1_9.rect t)).set ↔ _
  rw [View.set_slice_whole, Rect.mem_set_unit]
  exact Iff.rfl

/-- The ten row blocks tile the array: row `r` lies in the block of point `r / 5000`, and every point writes back. -/
theorem cover (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_9 _, ?_⟩
  rw [mem_blk]
  have e0 : win1_9.index ⟨(i 0).val / 5000, hN⟩ (0 : Fin 2) = (i 0).val / 5000 := (idx_facts ⟨(i 0).val / 5000, hN⟩).2.2.2.2.2.2.2.2.2.2.2.2.2.2.2.2.2.2.2.1
  have e1 : win1_9.index ⟨(i 0).val / 5000, hN⟩ (1 : Fin 2) = 0 := (idx_facts ⟨(i 0).val / 5000, hN⟩).2.2.2.2.2.2.2.2.2.2.2.2.2.2.2.2.2.2.2.2
  intro a
  match a with
  | ⟨0, _⟩ =>
    show win1_9.index ⟨(i 0).val / 5000, hN⟩ (0 : Fin 2) * 5000 ≤ (i 0).val
      ∧ (i 0).val < win1_9.index ⟨(i 0).val / 5000, hN⟩ (0 : Fin 2) * 5000 + 5000
    omega
  | ⟨1, _⟩ =>
    show win1_9.index ⟨(i 0).val / 5000, hN⟩ (1 : Fin 2) * 128 ≤ (i 1).val
      ∧ (i 1).val < win1_9.index ⟨(i 0).val / 5000, hN⟩ (1 : Fin 2) * 128 + 128
    omega

/-- The launch as one function of whole arrays: after its ten points the output array holds `R1w` of the entry arrays. -/
theorem arr (V : (c : Dev nD) → (b : Ref sig .tc) → Buf (Elt Ideal) ((c : Thread nD τ).loc b)) (c : Dev nD) :
    (Gen.dat1 (F := Ideal) V c).arrAt 9 cfg1.N
      = Cert.Spec.R1w (V c main_v27) (V c main_v17) (V c main_v16) (V c main_v28) (V c main_v29) (V c main_v30) (V c main_v31) (V c main_v32) (V c main_arg4) :=
  (Gen.dat1 (F := Ideal) V c).arrAt_eq_of_cover 9
    (Cert.Spec.R1w (V c main_v27) (V c main_v17) (V c main_v16) (V c main_v28) (V c main_v29) (V c main_v30) (V c main_v31) (V c main_v32) (V c main_arg4))
    (fun t _ => flushed_eq V c t) cover

end Cert.KernelIdeal.Region1

end
-- ==== Proof.Region2.lean ====
/-
  Launch 2 as one function of whole arrays. The launch runs ten points; point `t` reads rows `t * 5000 …` of the
  row-blocked operands and the whole of the small ones, and writes back one block of 5000 rows. Entry by entry the
  block it writes is the aggregate, normalised and rectified, times the last weight matrix (forty columns), times the inverse-square-root
  degree; the ten blocks tile the output array, so the array ends holding that function of the entry arrays.
-/
import proofs.«151626_j17386027614906_2_alg».proof.Proof.Gen.KernelIdeal.Frame
import proofs.«151626_j17386027614906_2_alg».proof.Proof.Spec
import proofs.«151626_j17386027614906_2_alg».proof.Proof.LibMatmulNN
import proofs.«151626_j17386027614906_2_alg».proof.Proof.LibBroadcast2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx

/-- Entry (p, q) of the matrix product of a block against the weight, accumulated into zero. -/
theorem mm_apply (a : FVec Ideal S5000x128 .f32) (w : Vec Ideal S128x40 .f32) (p : Fin 5000) (q : Fin 40) :
    matmul dot_S5000x128_S128x40_S5000x40_1_0_0_1_n_n none (truncf .bf16 a bitsLt_bf16_f32) (truncf .bf16 w bitsLt_bf16_f32)
        (constant S5000x40 .f32 0x00000000#32) (ix2 p q)
      = ∑ k : Fin 128, a (ix2 p k) * w (ix2 k q) :=
  LibMatmulNN.matmul_zero_apply 5000 128 40 none _ _ p q

theorem pay_apply (x0 x1 : Vec Ideal S5000x128 .f32) (x2 : Vec Ideal S5000x1 .f32) (x3 x4 x5 x6 x7 : Vec Ideal S1x128 .f32)
    (x8 : Vec Ideal S128x40 .f32) (p : Fin 5000) (q : Fin 40) :
    k2_pay1 (k2_pay2 x2 x0 x1 x3 x7 x6 x4 x5 x8) x2 (ix2 p q)
      = (∑ k : Fin 128, Cert.Spec.bnrelu (Cert.Spec.aggK (x2 (ix2 p 0)) (x0 (ix2 p k)) (x1 (ix2 p k)) (x3 (ix2 0 k)))
            (x6 (ix2 0 k)) (x7 (ix2 0 k)) (x4 (ix2 0 k)) (x5 (ix2 0 k)) * x8 (ix2 k q)) * x2 (ix2 p 0) := by
  unfold k2_pay1
  show k2_pay2 x2 x0 x1 x3 x7 x6 x4 x5 x8 (ix2 p q) * broadcastTo S5000x40 (shapeCast S5000x1 x2 shapeCasts_S5000x1_S5000x1) broadcasts_S5000x1_S5000x40 (ix2 p q) = _
  rw [shapeCast_self, LibBroadcast2.broadcastTo_a1_ab_apply]
  refine congrArg (· * x2 (ix2 p 0)) ?_
  unfold k2_pay2
  refine (mm_apply _ _ p q).trans ?_
  refine Finset.sum_congr rfl fun k _ => ?_
  refine congrArg (· * x8 (ix2 k q)) ?_
  simp only [maximumf_apply, addf_apply, mulf_apply, subf_apply, broadcast_apply, shapeCast_self,
    broadcastTo_1b_ab_apply, LibBroadcast2.broadcastTo_a1_ab_apply]
  rfl

/-! ## From blocks to the array -/

theorem hz : (![0, 0] : Fin 2 → Nat) = fun _ => 0 := funext fun a => by fin_cases a <;> rfl

/-- The printed index maps, decided over the grid: a row-blocked window's block index at point `t` is `(t, 0)`, a
    whole-array window's is `(0, 0)`; and the grid has ten points. -/
theorem idx_facts : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

theorem t_lt (t : Fin cfg2.N) : t.val < 10 := (idx_facts t).1

/-- Row `p` of point `t`'s block is row `t * 5000 + p` of the array. -/
def row (t : Fin cfg2.N) (p : Fin 5000) : Fin 50000 := ⟨t.val * 5000 + p.val, by have := t_lt t; have := p.isLt; omega⟩

section
variable (V : (c : Dev nD) → (b : Ref sig .tc) → Buf (Elt Ideal) ((c : Thread nD τ).loc b)) (c : Dev nD) (t : Fin cfg2.N)

/-! One read lemma per input window: a row-blocked window's block entry `(p, k)` is the array's entry
    `(t * 5000 + p, k)`; a whole-array window's block is the array. -/

theorem rd0 (p : Fin 5000) (k : Fin 128) : Gen.iblk2 (F := Ideal) V c 0 t (ix2 p k) = V c main_v43 (ix2 (row t p) k) := by
  show V c main_v43 (((cfg2.win 0).blk t).view.emb (ix2 p k)) = _
  refine congrArg (V c main_v43) ?_
  have ht := t_lt t
  have e0 : win2_0.index t (0 : Fin 2) = t.val := (idx_facts t).2.1
  have e1 : win2_0.index t (1 : Fin 2) = 0 := (idx_facts t).2.2.1
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem rd1 (p : Fin 5000) (k : Fin 128) : Gen.iblk2 (F := Ideal) V c 1 t (ix2 p k) = V c main_v33 (ix2 (row t p) k) := by
  show V c main_v33 (((cfg2.win 1).blk t).view.emb (ix2 p k)) = _
  refine congrArg (V c main_v33) ?_
  have ht := t_lt t
  have e0 : win2_1.index t (0 : Fin 2) = t.val := (idx_facts t).2.2.2.1
  have e1 : win2_1.index t (1 : Fin 2) = 0 := (idx_facts t).2.2.2.2.1
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

theorem rd2 (p : Fin 5000) (k : Fin 1) : Gen.iblk2 (F := Ideal) V c 2 t (ix2 p k) = V c main_v16 (ix2 (row t p) k) := by
  show V c main_v16 (((cfg2.win 2).blk t).view.emb (ix2 p k)) = _
  refine congrArg (V c main_v16) ?_
  have ht := t_lt t
  have e0 : win2_2.index t (0 : Fin 2) = t.val := (idx_facts t).2.2.2.2.2.1
  have e1 : win2_2.index t (1 : Fin 2) = 0 := (idx_facts t).2.2.2.2.2.2.1
  funext a; apply Fin.ext
  match a with
  | ⟨0, _⟩ => show win2_2.index t (0 : Fin 2) * 5000 + 1 * p.val = t.val * 5000 + p.val; omega
  | ⟨1, _⟩ => show win2_2.index t (1 : Fin 2) * 1 + 1 * k.val = k.val; omega

theorem rd3 (a' : Fin 1) (k : Fin 128) : Gen.iblk2 (F := Ideal) V c 3 t (ix2 a' k) = V c main_v44 (ix2 a' k) := by
  show V c main_v44 (((cfg2.win 3).blk t).view.emb (ix2 a' k)) = _
  refine congrArg (V c main_v44) ?_
  have e0 : win2_3.index t (0 : Fin 2) = 0 := (idx_facts t).2.2.2.2.2.2.2.1
  have e1 : win2_3.index t (1 : Fin 2) = 0 := (idx_facts t).2.2.2.2.2.2.2.2.1
  funext a; apply Fin.ext
  match a with
  | ⟨0, _⟩ => show win2_3.index t (0 : Fin 2) * 1 + 1 * a'.val = a'.val; omega
  | ⟨1, _⟩ => show win2_3.index t (1 : Fin 2) * 128 + 1 * k.val = k.val; omega

theorem rd4 (a' : Fin 1) (k : Fin 128) : Gen.iblk2 (F := Ideal) V c 4 t (ix2 a' k) = V c main_v45 (ix2 a' k) := by
  show V c main_v45 (((cfg2.win 4).blk t).view.emb (ix2 a' k)) = _
  refine congrArg (V c main_v45) ?_
  have e0 : win2_4.index t (0 : Fin 2) = 0 := (idx_facts t).2.2.2.2.2.2.2.2.2.1
  have e1 : win2_4.index t (1 : Fin 2) = 0 := (idx_facts t).2.2.2.2.2.2.2.2.2.2.1
  funext a; apply Fin.ext
  match a with
  | ⟨0, _⟩ => show win2_4.index t (0 : Fin 2) * 1 + 1 * a'.val = a'.val; omega
  | ⟨1, _⟩ => show win2_4.index t (1 : Fin 2) * 128 + 1 * k.val = k.val; omega

theorem rd5 (a' : Fin 1) (k : Fin 128) : Gen.iblk2 (F := Ideal) V c 5 t (ix2 a' k) = V c main_v46 (ix2 a' k) := by
  show V c main_v46 (((cfg2.win 5).blk t).view.emb (ix2 a' k)) = _
  refine congrArg (V c main_v46) ?_
  have e0 : win2_5.index t (0 : Fin 2) = 0 := (idx_facts t).2.2.2.2.2.2.2.2.2.2.2.1
  have e1 : win2_5.index t (1 : Fin 2) = 0 := (idx_facts t).2.2.2.2.2.2.2.2.2.2.2.2.1
  funext a; apply Fin.ext
  match a with
  | ⟨0, _⟩ => show win2_5.index t (0 : Fin 2) * 1 + 1 * a'.val = a'.val; omega
  | ⟨1, _⟩ => show win2_5.index t (1 : Fin 2) * 128 + 1 * k.val = k.val; omega

theorem rd6 (a' : Fin 1) (k : Fin 128) : Gen.iblk2 (F := Ideal) V c 6 t (ix2 a' k) = V c main_v47 (ix2 a' k) := by
  show V c main_v47 (((cfg2.win 6).blk t).view.emb (ix2 a' k)) = _
  refine congrArg (V c main_v47) ?_
  have e0 : win2_6.index t (0 : Fin 2) = 0 := (idx_facts t).2.2.2.2.2.2.2.2.2.2.2.2.2.1
  have e1 : win2_6.index t (1 : Fin 2) = 0 := (idx_facts t).2.2.2.2.2.2.2.2.2.2.2.2.2.2.1
  funext a; apply Fin.ext
  match a with
  | ⟨0, _⟩ => show win2_6.index t (0 : Fin 2) * 1 + 1 * a'.val = a'.val; omega
  | ⟨1, _⟩ => show win2_6.index t (1 : Fin 2) * 128 + 1 * k.val = k.val; omega

theorem rd7 (a' : Fin 1) (k : Fin 128) : Gen.iblk2 (F := Ideal) V c 7 t (ix2 a' k) = V c main_v48 (ix2 a' k) := by
  show V c main_v48 (((cfg2.win 7).blk t).view.emb (ix2 a' k)) = _
  refine congrArg (V c main_v48) ?_
  have e0 : win2_7.index t (0 : Fin 2) = 0 := (idx_facts t).2.2.2.2.2.2.2.2.2.2.2.2.2.2.2.1
  have e1 : win2_7.index t (1 : Fin 2) = 0 := (idx_facts t).2.2.2.2.2.2.2.2.2.2.2.2.2.2.2.2.1
  funext a; apply Fin.ext
  match a with
  | ⟨0, _⟩ => show win2_7.index t (0 : Fin 2) * 1 + 1 * a'.val = a'.val; omega
  | ⟨1, _⟩ => show win2_7.index t (1 : Fin 2) * 128 + 1 * k.val = k.val; omega

theorem rd8 (a' : Fin 128) (k : Fin 40) : Gen.iblk2 (F := Ideal) V c 8 t (ix2 a' k) = V c main_arg6 (ix2 a' k) := by
  show V c main_arg6 (((cfg2.win 8).blk t).view.emb (ix2 a' k)) = _
  refine congrArg (V c main_arg6) ?_
  have e0 : win2_8.index t (0 : Fin 2) = 0 := (idx_facts t).2.2.2.2.2.2.2.2.2.2.2.2.2.2.2.2.2.1
  have e1 : win2_8.index t (1 : Fin 2) = 0 := (idx_facts t).2.2.2.2.2.2.2.2.2.2.2.2.2.2.2.2.2.2.1
  funext a; apply Fin.ext
  match a with
  | ⟨0, _⟩ => show win2_8.index t (0 : Fin 2) * 128 + 1 * a'.val = a'.val; omega
  | ⟨1, _⟩ => show win2_8.index t (1 : Fin 2) * 40 + 1 * k.val = k.val; omega

/-- Entry `(p, q)` of the output window's block at point `t` sits in the array at `(t * 5000 + p, q)`. -/
theorem emb9 (p : Fin 5000) (q : Fin 40) : ((cfg2.win 9).blk t).view.emb (ix2 p q) = ix2 (row t p) q := by
  have ht := t_lt t
  have e0 : win2_9.index t (0 : Fin 2) = t.val := (idx_facts t).2.2.2.2.2.2.2.2.2.2.2.2.2.2.2.2.2.2.2.1
  have e1 : win2_9.index t (1 : Fin 2) = 0 := (idx_facts t).2.2.2.2.2.2.2.2.2.2.2.2.2.2.2.2.2.2.2.2
  funext a; apply Fin.ext
  match a with
  | ⟨0, _⟩ => show win2_9.index t (0 : Fin 2) * 5000 + 1 * p.val = t.val * 5000 + p.val; omega
  | ⟨1, _⟩ => show win2_9.index t (1 : Fin 2) * 40 + 1 * q.val = q.val; omega

/-- What point `t` writes back is block `t` of the launch's whole-array function of the entry arrays. -/
theorem flushed_eq :
    (Gen.dat2 (F := Ideal) V c).flushed 9 t = ((cfg2.win 9).blk t).view.read (Elt Ideal)
      (Cert.Spec.R2w (V c main_v43) (V c main_v33) (V c main_v16) (V c main_v44) (V c main_v45) (V c main_v46) (V c main_v47) (V c main_v48) (V c main_arg6)) := by
  show (cfg2.win 9).cut (grid2.coords t) ((Gen.dat2 V c).after 9 t) = _
  rw [Gen.after2_9]
  unfold Gen.out2_9
  rw [View.canon_unit_zero hz]
  simp only [View.ld_unit_zero (S := S5000x128) hz, View.ld_unit_zero (S := S5000x1) hz, View.ld_unit_zero (S := S1x128) hz,
    View.ld_unit_zero (S := S128x40) hz]
  funext j
  obtain ⟨p, q, rfl⟩ : ∃ (p : Fin 5000) (q : Fin 40), j = ix2 p q := ⟨j 0, j 1, eq_ix2 (n0 := 5000) (n1 := 40) j⟩
  refine (pay_apply (Gen.iblk2 V c 0 t) (Gen.iblk2 V c 1 t) (Gen.iblk2 V c 2 t) (Gen.iblk2 V c 3 t) (Gen.iblk2 V c 4 t)
    (Gen.iblk2 V c 5 t) (Gen.iblk2 V c 6 t) (Gen.iblk2 V c 7 t) (Gen.iblk2 V c 8 t) p q).trans ?_
  show _ = Cert.Spec.R2w (V c main_v43) (V c main_v33) (V c main_v16) (V c main_v44) (V c main_v45) (V c main_v46) (V c main_v47) (V c main_v48) (V c main_arg6)
    (((cfg2.win 9).blk t).view.emb (ix2 p q))
  rw [emb9]
  show _ = (∑ k : Fin 128, Cert.Spec.bnrelu (Cert.Spec.aggK (V c main_v16 (ix2 (row t p) 0)) (V c main_v43 (ix2 (row t p) k)) (V c main_v33 (ix2 (row t p) k)) (V c main_v44 (ix2 0 k)))
            (V c main_v47 (ix2 0 k)) (V c main_v48 (ix2 0 k)) (V c main_v45 (ix2 0 k)) (V c main_v46 (ix2 0 k)) * V c main_arg6 (ix2 k q)) * V c main_v16 (ix2 (row t p) 0)
  simp only [rd0, rd1, rd2, rd3, rd4, rd5, rd6, rd7, rd8]

end

/-- An index of the array is in point `t`'s block iff each coordinate is in the block's range on its axis. -/
theorem mem_blk (t : Fin cfg2.N) (i : S50000x40.Idx) :
    i ∈ ((cfg2.win 9).blk t).view.set ↔ ∀ a : Fin 2, win2_9.index t a * S5000x40.size a ≤ (i a).val
      ∧ (i a).val < win2_9.index t a * S5000x40.size a + S5000x40.size a := by
  show i ∈ ((View.whole main_v49).slice (win2_9.rect t)).set ↔ _
  rw [View.set_slice_whole, Rect.mem_set_unit]
  exact Iff.rfl

/-- The ten row blocks tile the array: row `r` lies in the block of point `r / 5000`, and every point writes back. -/
theorem cover (i : S50000x40.Idx) : ∃ t : Fin cfg2.N, (cfg2.win 9).flush t = true ∧ i ∈ ((cfg2.win 9).blk t).view.set := by
  have hi0 : (i 0).val < 50000 := (i 0).isLt
  have hi1 : (i 1).val < 40 := (i 1).isLt
  have hN : (i 0).val / 5000 < cfg2.N := by show _ < grid2.N; rw [N_2]; omega
  refine ⟨⟨(i 0).val / 5000, hN⟩, flush2_9 _, ?_⟩
  rw [mem_blk]
  have e0 : win2_9.index ⟨(i 0).val / 5000, hN⟩ (0 : Fin 2) = (i 0).val / 5000 := (idx_facts ⟨(i 0).val / 5000, hN⟩).2.2.2.2.2.2.2.2.2.2.2.2.2.2.2.2.2.2.2.1
  have e1 : win2_9.index ⟨(i 0).val / 5000, hN⟩ (1 : Fin 2) = 0 := (idx_facts ⟨(i 0).val / 5000, hN⟩).2.2.2.2.2.2.2.2.2.2.2.2.2.2.2.2.2.2.2.2
  intro a
  match a with
  | ⟨0, _⟩ =>
    show win2_9.index ⟨(i 0).val / 5000, hN⟩ (0 : Fin 2) * 5000 ≤ (i 0).val
      ∧ (i 0).val < win2_9.index ⟨(i 0).val / 5000, hN⟩ (0 : Fin 2) * 5000 + 5000
    omega
  | ⟨1, _⟩ =>
    show win2_9.index ⟨(i 0).val / 5000, hN⟩ (1 : Fin 2) * 40 ≤ (i 1).val
      ∧ (i 1).val < win2_9.index ⟨(i 0).val / 5000, hN⟩ (1 : Fin 2) * 40 + 40
    omega

/-- The launch as one function of whole arrays: after its ten points the output array holds `R2w` of the entry arrays. -/
theorem arr (V : (c : Dev nD) → (b : Ref sig .tc) → Buf (Elt Ideal) ((c : Thread nD τ).loc b)) (c : Dev nD) :
    (Gen.dat2 (F := Ideal) V c).arrAt 9 cfg2.N
      = Cert.Spec.R2w (V c main_v43) (V c main_v33) (V c main_v16) (V c main_v44) (V c main_v45) (V c main_v46) (V c main_v47) (V c main_v48) (V c main_arg6) :=
  (Gen.dat2 (F := Ideal) V c).arrAt_eq_of_cover 9
    (Cert.Spec.R2w (V c main_v43) (V c main_v33) (V c main_v16) (V c main_v44) (V c main_v45) (V c main_v46) (V c main_v47) (V c main_v48) (V c main_arg6))
    (fun t _ => flushed_eq V c t) cover

end Cert.KernelIdeal.Region2

end
-- ==== Proof.Region3.lean ====
/-
  Launch 3 as a function of whole arrays: every row block of the output is the row-wise log-softmax of the
  aggregate (the scale column times the sum of the two row blocks, plus the bias row) of the same row blocks;
  the ten row blocks tile the array, so the array ends holding that function of the entry arrays, index by index.
-/
import proofs.«151626_j17386027614906_2_alg».proof.Proof.Gen.KernelIdeal.Frame
import proofs.«151626_j17386027614906_2_alg».proof.Proof.Spec
import proofs.«151626_j17386027614906_2_alg».proof.Proof.LibMatmulNN
import proofs.«151626_j17386027614906_2_alg».proof.Proof.LibBroadcast2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx

/-- The source index over row p whose lane coordinate is k is (p, k). -/
theorem lift_eq (h : S5000x40.Reduces [1] S5000) (p : Fin 5000) (k : Fin 40) : h.lift (ix1 p) k = ix2 p k := by
  funext a; apply Fin.ext
  match a with
  | ⟨0, _⟩ => rfl
  | ⟨1, _⟩ => rfl

/-- The lane maximum of a [5000, 40] block at row p is the maximum of the row's 40 entries, from minus infinity. -/
theorem rowmax_apply (v : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p) = Cert.Spec.rowMax fun k => v (ix2 p k) := by
  rw [Ideal.multiReduction_maximumf_single]
  have e : (v ∘ h.lift (ix1 p) : Fin 40 → EReal) = fun k => v (ix2 p k) := funext fun k => congrArg v (lift_eq h p k)
  exact congrArg (fun f : Fin 40 → EReal => (Finset.univ : Finset (Fin 40)).fold max (Ideal.ofBits .f32 0xFF800000#32) f) e

/-- The lane sum of a [5000, 40] block at row p is the sum of the row's 40 entries. -/
theorem rowsum_apply (v : FVec Ideal S5000x40 .f32) (h : S5000x40.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ k : Fin 40, v (ix2 p k) := by
  rw [Ideal.multiReduction_add_single]
  exact Finset.sum_congr rfl fun k _ => congrArg v (lift_eq h p k)

/-- A [5000] vector cast to a [5000, 1] column reads, at (p, 0), the vector at p. -/
theorem cast_col {α : Type} (x : S5000.Idx → α) (h : S5000.ShapeCasts S5000x1) (p : Fin 5000) :
    shapeCast S5000x1 x h (ix2 p (0 : Fin 1)) = x (ix1 p) :=
  shapeCast_apply x h _ _ (by
    rw [Shape.rowMajor_val_two, Shape.rowMajor_val_one]
    show p.val = p.val * 1 + 0
    omega)

/-- The aggregate block: the scale column times the sum of the two row blocks, plus the bias row. -/
def aggV (x0 x1 : Vec Ideal S5000x40 .f32) (x2 : Vec Ideal S5000x1 .f32) (x3 : Vec Ideal S1x40 .f32)
    (hc : S5000x1.Broadcasts S5000x40) (hr : S1x40.Broadcasts S5000x40) : FVec Ideal S5000x40 .f32 :=
  addf (mulf (broadcastTo S5000x40 x2 hc) (addf x0 x1)) (broadcastTo S5000x40 x3 hr)

theorem aggV_apply (x0 x1 : Vec Ideal S5000x40 .f32) (x2 : Vec Ideal S5000x1 .f32) (x3 : Vec Ideal S1x40 .f32)
    (hc : S5000x1.Broadcasts S5000x40) (hr : S1x40.Broadcasts S5000x40) (p : Fin 5000) (k : Fin 40) :
    aggV x0 x1 x2 x3 hc hr (ix2 p k)
      = Cert.Spec.aggK (x2 (ix2 p 0)) (x0 (ix2 p k)) (x1 (ix2 p k)) (x3 (ix2 0 k)) := by
  unfold aggV Cert.Spec.aggK
  rw [addf_apply, mulf_apply, addf_apply, LibBroadcast2.broadcastTo_a1_ab_apply, broadcastTo_1b_ab_apply]

/-- A block shifted by its row maxima. -/
def shV (A : FVec Ideal S5000x40 .f32) (h : S5000x40.Reduces [1] S5000) (hφ : FKind.Formats .f32)
    (hacc : (0xFF800000#32 : BitVec 32) = FKind.maximumf.neutral .f32 hφ) (hs : S5000.ShapeCasts S5000x1)
    (hc : S5000x1.Broadcasts S5000x40) : FVec Ideal S5000x40 .f32 :=
  subf A (broadcastTo S5000x40 (shapeCast S5000x1 (multiReduction .maximumf [1] S5000 A 0xFF800000#32 h hφ hacc) hs) hc)

theorem shV_apply (A : FVec Ideal S5000x40 .f32) (h : S5000x40.Reduces [1] S5000) (hφ : FKind.Formats .f32)
    (hacc : (0xFF800000#32 : BitVec 32) = FKind.maximumf.neutral .f32 hφ) (hs : S5000.ShapeCasts S5000x1)
    (hc : S5000x1.Broadcasts S5000x40) (p : Fin 5000) (q : Fin 40) :
    shV A h hφ hacc hs hc (ix2 p q) = A (ix2 p q) - Cert.Spec.rowMax fun k => A (ix2 p k) := by
  unfold shV
  rw [subf_apply, LibBroadcast2.broadcastTo_a1_ab_apply, cast_col, rowmax_apply]

/-- A block minus the logarithm of its rows' sums of exponentials. -/
def outV (B : FVec Ideal S5000x40 .f32) (h : S5000x40.Reduces [1] S5000) (hφ : FKind.Formats .f32)
    (hacc : (0x00000000#32 : BitVec 32) = FKind.add.neutral .f32 hφ) (hs : S5000.ShapeCasts S5000x1)
    (hc : S5000x1.Broadcasts S5000x40) : FVec Ideal S5000x40 .f32 :=
  subf B (broadcastTo S5000x40 (log (shapeCast S5000x1 (multiReduction .add [1] S5000 (exp B) 0x00000000#32 h hφ hacc) hs)) hc)

theorem outV_apply (B : FVec Ideal S5000x40 .f32) (h : S5000x40.Reduces [1] S5000) (hφ : FKind.Formats .f32)
    (hacc : (0x00000000#32 : BitVec 32) = FKind.add.neutral .f32 hφ) (hs : S5000.ShapeCasts S5000x1)
    (hc : S5000x1.Broadcasts S5000x40) (p : Fin 5000) (q : Fin 40) :
    outV B h hφ hacc hs hc (ix2 p q) = B (ix2 p q) - Ideal.log (∑ k : Fin 40, Ideal.exp (B (ix2 p k))) := by
  unfold outV
  rw [subf_apply, LibBroadcast2.broadcastTo_a1_ab_apply]
  show _ - Ideal.log (shapeCast S5000x1 (multiReduction .add [1] S5000 (exp B) 0x00000000#32 h hφ hacc) hs (ix2 p 0)) = _
  rw [cast_col, rowsum_apply]
  rfl

/-- A block that is, entry by entry, a function a of the row, shifted by its row maxima and then by the logarithm of
    its rows' sums of exponentials, is the row-wise log-softmax of a. -/
theorem lsm_of (A B O : FVec Ideal S5000x40 .f32) (a : Fin 5000 → Fin 40 → EReal)
    (hA : ∀ p k, A (ix2 p k) = a p k)
    (hB : ∀ p q, B (ix2 p q) = A (ix2 p q) - Cert.Spec.rowMax fun k => A (ix2 p k))
    (hO : ∀ p q, O (ix2 p q) = B (ix2 p q) - Ideal.log (∑ k : Fin 40, Ideal.exp (B (ix2 p k))))
    (p : Fin 5000) (q : Fin 40) : O (ix2 p q) = Cert.Spec.lsm (a p) q := by
  have eA : (fun k => A (ix2 p k)) = a p := funext fun k => hA p k
  rw [hO, hB]
  simp only [hB, eA, hA]
  rfl

/-- Entry (p, q) of the payload: the log-softmax of row p of the aggregate, at lane q. -/
theorem pay_apply (x0 x1 : Vec Ideal S5000x40 .f32) (x2 : Vec Ideal S5000x1 .f32) (x3 : Vec Ideal S1x40 .f32)
    (p : Fin 5000) (q : Fin 40) :
    k3_pay1 (F := Ideal) x2 x0 x1 x3 (ix2 p q)
      = Cert.Spec.lsm (fun k => Cert.Spec.aggK (x2 (ix2 p 0)) (x0 (ix2 p k)) (x1 (ix2 p k)) (x3 (ix2 0 k))) q := by
  have e : k3_pay1 (F := Ideal) x2 x0 x1 x3
      = outV (shV (aggV x0 x1 x2 x3 broadcasts_S5000x1_S5000x40 broadcasts_S1x40_S5000x40)
          reduces_S5000x40_S5000 (.inl rfl) rfl shapeCasts_S5000_S5000x1 broadcasts_S5000x1_S5000x40)
          reduces_S5000x40_S5000 (.inl rfl) rfl shapeCasts_S5000_S5000x1 broadcasts_S5000x1_S5000x40 := by
    unfold k3_pay1 outV shV aggV
    simp only [shapeCast_self]
  rw [e]
  exact lsm_of _ _ _ _ (fun p q => aggV_apply _ _ _ _ _ _ p q) (fun p q => shV_apply _ _ _ _ _ _ p q)
    (fun p q => outV_apply _ _ _ _ _ _ p q) p q

theorem hz : (![0, 0] : Fin 2 → Nat) = fun _ => 0 := funext fun a => by fin_cases a <;> rfl

/-- The index maps at every grid point t: the row-blocked windows sit at block (t, 0), the bias row at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem t_lt (t : Fin cfg3.N) : t.val < 10 := lt_of_lt_of_eq t.isLt N_3

/-- Row p of block t is row t * 5000 + p of the array. -/
def row (t : Fin cfg3.N) (p : Fin 5000) : Fin 50000 :=
  ⟨t.val * 5000 + p.val, by have := t_lt t; have := p.isLt; omega⟩

variable (V : (c : Dev nD) → (b : Ref sig .tc) → Buf (Elt Ideal) ((c : Thread nD τ).loc b))

/-- The output block's entry (p, q) is the array's entry (t * 5000 + p, q). -/
theorem emb4 (t : Fin cfg3.N) (p : Fin 5000) (q : Fin 40) :
    ((cfg3.win 4).blk t).view.emb (ix2 p q) = ix2 (row t p) q := by
  obtain ⟨e0, e1, e2, e3, e4, e5, e6, e7, e8, e9⟩ := idx_facts t
  funext a; apply Fin.ext
  match a with
  | ⟨0, _⟩ => show win3_4.index t (0 : Fin 2) * 5000 + 1 * p.val = t.val * 5000 + p.val; omega
  | ⟨1, _⟩ => show win3_4.index t (1 : Fin 2) * 40 + 1 * q.val = q.val; omega

/-- Window 0's block: entry (p, k) is the array's entry (t * 5000 + p, k). -/
theorem blk0 (c : Dev nD) (t : Fin cfg3.N) (p : Fin 5000) (k : Fin 40) :
    Gen.iblk3 (F := Ideal) V c 0 t (ix2 p k) = V c main_v59 (ix2 (row t p) k) := by
  obtain ⟨e0, e1, e2, e3, e4, e5, e6, e7, e8, e9⟩ := idx_facts t
  show V c main_v59 (((cfg3.win 0).blk t).view.emb (ix2 p k)) = _
  congr 1
  funext a; apply Fin.ext
  match a with
  | ⟨0, _⟩ => show win3_0.index t (0 : Fin 2) * 5000 + 1 * p.val = t.val * 5000 + p.val; omega
  | ⟨1, _⟩ => show win3_0.index t (1 : Fin 2) * 40 + 1 * k.val = k.val; omega

/-- Window 1's block: entry (p, k) is the array's entry (t * 5000 + p, k). -/
theorem blk1 (c : Dev nD) (t : Fin cfg3.N) (p : Fin 5000) (k : Fin 40) :
    Gen.iblk3 (F := Ideal) V c 1 t (ix2 p k) = V c main_v49 (ix2 (row t p) k) := by
  obtain ⟨e0, e1, e2, e3, e4, e5, e6, e7, e8, e9⟩ := idx_facts t
  show V c main_v49 (((cfg3.win 1).blk t).view.emb (ix2 p k)) = _
  congr 1
  funext a; apply Fin.ext
  match a with
  | ⟨0, _⟩ => show win3_1.index t (0 : Fin 2) * 5000 + 1 * p.val = t.val * 5000 + p.val; omega
  | ⟨1, _⟩ => show win3_1.index t (1 : Fin 2) * 40 + 1 * k.val = k.val; omega

/-- Window 2's block: entry (p, 0) is the column's entry (t * 5000 + p, 0). -/
theorem blk2 (c : Dev nD) (t : Fin cfg3.N) (p : Fin 5000) :
    Gen.iblk3 (F := Ideal) V c 2 t (ix2 p (0 : Fin 1)) = V c main_v16 (ix2 (row t p) (0 : Fin 1)) := by
  obtain ⟨e0, e1, e2, e3, e4, e5, e6, e7, e8, e9⟩ := idx_facts t
  show V c main_v16 (((cfg3.win 2).blk t).view.emb (ix2 p (0 : Fin 1))) = _
  congr 1
  funext a; apply Fin.ext
  match a with
  | ⟨0, _⟩ => show win3_2.index t (0 : Fin 2) * 5000 + 1 * p.val = t.val * 5000 + p.val; omega
  | ⟨1, _⟩ => show win3_2.index t (1 : Fin 2) * 1 + 1 * 0 = 0; omega

/-- Window 3's block is the whole bias row. -/
theorem blk3 (c : Dev nD) (t : Fin cfg3.N) (k : Fin 40) :
    Gen.iblk3 (F := Ideal) V c 3 t (ix2 (0 : Fin 1) k) = V c main_v60 (ix2 (0 : Fin 1) k) := by
  obtain ⟨e0, e1, e2, e3, e4, e5, e6, e7, e8, e9⟩ := idx_facts t
  show V c main_v60 (((cfg3.win 3).blk t).view.emb (ix2 (0 : Fin 1) k)) = _
  congr 1
  funext a; apply Fin.ext
  match a with
  | ⟨0, _⟩ => show win3_3.index t (0 : Fin 2) * 1 + 1 * 0 = 0; omega
  | ⟨1, _⟩ => show win3_3.index t (1 : Fin 2) * 40 + 1 * k.val = k.val; omega

/-- What point t writes back is block t of the launch's function of the arrays. -/
theorem flushed_eq (c : Dev nD) (t : Fin cfg3.N) :
    (Gen.dat3 (F := Ideal) V c).flushed 4 t
      = ((cfg3.win 4).blk t).view.read (Elt Ideal) (Cert.Spec.R3w (V c main_v59) (V c main_v49) (V c main_v16) (V c main_v60)) := by
  show (cfg3.win 4).cut (grid3.coords t) ((Gen.dat3 (F := Ideal) V c).after 4 t) = _
  rw [Gen.after3_4]
  unfold Gen.out3_4
  rw [View.canon_unit_zero hz]
  simp only [View.ld_unit_zero (S := S5000x40) hz, View.ld_unit_zero (S := S1x40) hz, View.ld_unit_zero (S := S5000x1) hz]
  funext j
  obtain ⟨p, q, rfl⟩ : ∃ (p : Fin 5000) (q : Fin 40), j = ix2 p q := ⟨j 0, j 1, eq_ix2 j⟩
  show k3_pay1 (F := Ideal) (iblk3 V c 2 t) (iblk3 V c 0 t) (iblk3 V c 1 t) (iblk3 V c 3 t) (ix2 p q)
    = Cert.Spec.R3w (V c main_v59) (V c main_v49) (V c main_v16) (V c main_v60) (((cfg3.win 4).blk t).view.emb (ix2 p q))
  rw [pay_apply, emb4]
  simp only [blk0, blk1, blk2, blk3]
  rfl

/-- An index of the array is in point t's block iff each coordinate is in the block's range on its axis. -/
theorem mem_blk (t : Fin cfg3.N) (i : S50000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v61).slice (win3_4.rect t)).set ↔ _
  rw [View.set_slice_whole, Rect.mem_set_unit]
  exact Iff.rfl

/-- Every index of the array lies in the block of the point its row falls in. -/
theorem cover (i : S50000x40.Idx) :
    ∃ t : Fin cfg3.N, (cfg3.win 4).flush t = true ∧ i ∈ ((cfg3.win 4).blk t).view.set := by
  have hi0 : (i 0).val < 50000 := (i 0).isLt
  have hi1 : (i 1).val < 40 := (i 1).isLt
  let t : Fin cfg3.N := ⟨(i 0).val / 5000, lt_of_lt_of_eq (by omega : (i 0).val / 5000 < 10) N_3.symm⟩
  obtain ⟨e0, e1, e2, e3, e4, e5, e6, e7, e8, e9⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 40 ≤ (i 1).val ∧ (i 1).val < win3_4.index t (1 : Fin 2) * 40 + 40; omega

/-- The launch's output array, whole: the row-wise log-softmax of the aggregate of the entry arrays. -/
theorem arr (c : Dev nD) :
    (Gen.dat3 (F := Ideal) V c).arrAt 4 cfg3.N
      = Cert.Spec.R3w (V c main_v59) (V c main_v49) (V c main_v16) (V c main_v60) :=
  (Gen.dat3 (F := Ideal) V c).arrAt_eq_of_cover 4 (Cert.Spec.R3w (V c main_v59) (V c main_v49) (V c main_v16) (V c main_v60))
    (fun t _ => flushed_eq V c t) cover

end Cert.KernelIdeal.Region3

end
-- ==== Proof.Fold.lean ====
/-
  What the idealized kernel's buffers hold at each boundary between its host stretches and its four launches, and so
  what its result is, as ONE function of the argument arrays.

  The host stretch before the first launch cuts the edge list into its source and destination rows, counts each node's
  incoming edges (an accumulating scatter of ones), adds the self loop, and takes the inverse square root: the column
  `dis`. Each later stretch gathers the previous launch's rows at the edges' sources and adds them into the rows of
  the edges' destinations, and reshapes the next launch's vectors of parameters into rows. A launch leaves, in its output
  array, the whole-array function of its input arrays that its module proves; every other buffer passes through a
  launch, and through a host stretch that does not write it, unchanged.
-/
import proofs.«151626_j17386027614906_2_alg».proof.Proof.Gen.KernelIdeal.Frame
import proofs.«151626_j17386027614906_2_alg».proof.Proof.Spec
import proofs.«151626_j17386027614906_2_alg».proof.Proof.KernelTerms
import proofs.«151626_j17386027614906_2_alg».proof.Proof.Region0
import proofs.«151626_j17386027614906_2_alg».proof.Proof.Region1
import proofs.«151626_j17386027614906_2_alg».proof.Proof.Region2
import proofs.«151626_j17386027614906_2_alg».proof.Proof.Region3
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The boundaries, one buffer at a time: each needed buffer at each boundary, as a function of the argument arrays -/

/-! ### After the first host stretch: the arguments as launched, the edge rows and the degree column -/

set_option maxHeartbeats 4000000 in
theorem w1_arg0 : W1 m ρ c (Proc.devRef .tc main_arg0) = (m ((c.tc : Thread nD τ).loc main_arg0)) := by
  show StableHlo.after (hostOps0 (F := Ideal)) (W0 m ρ c) (Proc.devRef .tc main_arg0) = _
  after_results_simp <;> rfl

set_option maxHeartbeats 4000000 in
theorem w1_arg2 : W1 m ρ c (Proc.devRef .tc main_arg2) = (m ((c.tc : Thread nD τ).loc main_arg2)) := by
  show StableHlo.after (hostOps0 (F := Ideal)) (W0 m ρ c) (Proc.devRef .tc main_arg2) = _
  after_results_simp <;> rfl

set_option maxHeartbeats 4000000 in
theorem w1_arg3 : W1 m ρ c (Proc.devRef .tc main_arg3) = (m ((c.tc : Thread nD τ).loc main_arg3)) := by
  show StableHlo.after (hostOps0 (F := Ideal)) (W0 m ρ c) (Proc.devRef .tc main_arg3) = _
  after_results_simp <;> rfl

set_option maxHeartbeats 4000000 in
theorem w1_arg4 : W1 m ρ c (Proc.devRef .tc main_arg4) = (m ((c.tc : Thread nD τ).loc main_arg4)) := by
  show StableHlo.after (hostOps0 (F := Ideal)) (W0 m ρ c) (Proc.devRef .tc main_arg4) = _
  after_results_simp <;> rfl

set_option maxHeartbeats 4000000 in
theorem w1_arg5 : W1 m ρ c (Proc.devRef .tc main_arg5) = (m ((c.tc : Thread nD τ).loc main_arg5)) := by
  show StableHlo.after (hostOps0 (F := Ideal)) (W0 m ρ c) (Proc.devRef .tc main_arg5) = _
  after_results_simp <;> rfl

set_option maxHeartbeats 4000000 in
theorem w1_arg6 : W1 m ρ c (Proc.devRef .tc main_arg6) = (m ((c.tc : Thread nD τ).loc main_arg6)) := by
  show StableHlo.after (hostOps0 (F := Ideal)) (W0 m ρ c) (Proc.devRef .tc main_arg6) = _
  after_results_simp <;> rfl

set_option maxHeartbeats 4000000 in
theorem w1_arg7 : W1 m ρ c (Proc.devRef .tc main_arg7) = (m ((c.tc : Thread nD τ).loc main_arg7)) := by
  show StableHlo.after (hostOps0 (F := Ideal)) (W0 m ρ c) (Proc.devRef .tc main_arg7) = _
  after_results_simp <;> rfl

set_option maxHeartbeats 4000000 in
theorem w1_arg8 : W1 m ρ c (Proc.devRef .tc main_arg8) = (m ((c.tc : Thread nD τ).loc main_arg8)) := by
  show StableHlo.after (hostOps0 (F := Ideal)) (W0 m ρ c) (Proc.devRef .tc main_arg8) = _
  after_results_simp <;> rfl

set_option maxHeartbeats 4000000 in
theorem w1_arg9 : W1 m ρ c (Proc.devRef .tc main_arg9) = (m ((c.tc : Thread nD τ).loc main_arg9)) := by
  show StableHlo.after (hostOps0 (F := Ideal)) (W0 m ρ c) (Proc.devRef .tc main_arg9) = _
  after_results_simp <;> rfl

set_option maxHeartbeats 4000000 in
theorem w1_arg10 : W1 m ρ c (Proc.devRef .tc main_arg10) = (m ((c.tc : Thread nD τ).loc main_arg10)) := by
  show StableHlo.after (hostOps0 (F := Ideal)) (W0 m ρ c) (Proc.devRef .tc main_arg10) = _
  after_results_simp <;> rfl

set_option maxHeartbeats 4000000 in
theorem w1_arg11 : W1 m ρ c (Proc.devRef .tc main_arg11) = (m ((c.tc : Thread nD τ).loc main_arg11)) := by
  show StableHlo.after (hostOps0 (F := Ideal)) (W0 m ρ c) (Proc.devRef .tc main_arg11) = _
  after_results_simp <;> rfl

set_option maxHeartbeats 4000000 in
theorem w1_arg12 : W1 m ρ c (Proc.devRef .tc main_arg12) = (m ((c.tc : Thread nD τ).loc main_arg12)) := by
  show StableHlo.after (hostOps0 (F := Ideal)) (W0 m ρ c) (Proc.devRef .tc main_arg12) = _
  after_results_simp <;> rfl

set_option maxHeartbeats 4000000 in
theorem w1_arg13 : W1 m ρ c (Proc.devRef .tc main_arg13) = (m ((c.tc : Thread nD τ).loc main_arg13)) := by
  show StableHlo.after (hostOps0 (F := Ideal)) (W0 m ρ c) (Proc.devRef .tc main_arg13) = _
  after_results_simp <;> rfl

set_option maxHeartbeats 4000000 in
theorem w1_arg14 : W1 m ρ c (Proc.devRef .tc main_arg14) = (m ((c.tc : Thread nD τ).loc main_arg14)) := by
  show StableHlo.after (hostOps0 (F := Ideal)) (W0 m ρ c) (Proc.devRef .tc main_arg14) = _
  after_results_simp <;> rfl

set_option maxHeartbeats 4000000 in
theorem w1_arg15 : W1 m ρ c (Proc.devRef .tc main_arg15) = (m ((c.tc : Thread nD τ).loc main_arg15)) := by
  show StableHlo.after (hostOps0 (F := Ideal)) (W0 m ρ c) (Proc.devRef .tc main_arg15) = _
  after_results_simp <;> rfl

set_option maxHeartbeats 4000000 in
theorem w1_v1 : W1 m ρ c (Proc.devRef .tc main_v1) = (srcV (m ((c.tc : Thread nD τ).loc main_arg1))) := by
  show StableHlo.after (hostOps0 (F := Ideal)) (W0 m ρ c) (Proc.devRef .tc main_v1) = _
  after_results_simp <;> rfl

set_option maxHeartbeats 4000000 in
theorem w1_v3 : W1 m ρ c (Proc.devRef .tc main_v3) = (dstV (m ((c.tc : Thread nD τ).loc main_arg1))) := by
  show StableHlo.after (hostOps0 (F := Ideal)) (W0 m ρ c) (Proc.devRef .tc main_v3) = _
  after_results_simp <;> rfl

set_option maxHeartbeats 4000000 in
theorem w1_v16 : W1 m ρ c (Proc.devRef .tc main_v16) = (dis2V (m ((c.tc : Thread nD τ).loc main_arg1))) := by
  show StableHlo.after (hostOps0 (F := Ideal)) (W0 m ρ c) (Proc.devRef .tc main_v16) = _
  after_results_simp <;> rfl

/-! ### After launch 0 -/

theorem w2_v17 : W2 m ρ c (Proc.devRef .tc main_v17) = (hs1 (m ((c.tc : Thread nD τ).loc main_arg0)) (m ((c.tc : Thread nD τ).loc main_arg1)) (m ((c.tc : Thread nD τ).loc main_arg2))) := by
  refine (W2_arr m ρ c 3).trans ((Cert.KernelIdeal.Region0.arr (V1 m ρ) c).trans ?_)
  show Cert.Spec.R0w (W1 m ρ c (Proc.devRef .tc main_arg0)) (W1 m ρ c (Proc.devRef .tc main_arg2)) (W1 m ρ c (Proc.devRef .tc main_v16)) = _
  rw [w1_arg0 m ρ c, w1_arg2 m ρ c, w1_v16 m ρ c]
  unfold hs1
  with_reducible rfl

theorem w2_v1 : W2 m ρ c (Proc.devRef .tc main_v1) = (srcV (m ((c.tc : Thread nD τ).loc main_arg1))) :=
  (W2_of_ne m ρ c main_v1 (by decide)).trans (w1_v1 m ρ c)

theorem w2_v3 : W2 m ρ c (Proc.devRef .tc main_v3) = (dstV (m ((c.tc : Thread nD τ).loc main_arg1))) :=
  (W2_of_ne m ρ c main_v3 (by decide)).trans (w1_v3 m ρ c)

theorem w2_v16 : W2 m ρ c (Proc.devRef .tc main_v16) = (dis2V (m ((c.tc : Thread nD τ).loc main_arg1))) :=
  ((W2_arr m ρ c 2).trans (((dat0 (V1 m ρ) c).arrAt_in 2 rfl _).trans (A_eq0 (V1 m ρ) c 2))).trans (w1_v16 m ρ c)

theorem w2_arg3 : W2 m ρ c (Proc.devRef .tc main_arg3) = (m ((c.tc : Thread nD τ).loc main_arg3)) :=
  (W2_of_ne m ρ c main_arg3 (by decide)).trans (w1_arg3 m ρ c)

theorem w2_arg4 : W2 m ρ c (Proc.devRef .tc main_arg4) = (m ((c.tc : Thread nD τ).loc main_arg4)) :=
  (W2_of_ne m ρ c main_arg4 (by decide)).trans (w1_arg4 m ρ c)

theorem w2_arg5 : W2 m ρ c (Proc.devRef .tc main_arg5) = (m ((c.tc : Thread nD τ).loc main_arg5)) :=
  (W2_of_ne m ρ c main_arg5 (by decide)).trans (w1_arg5 m ρ c)

theorem w2_arg6 : W2 m ρ c (Proc.devRef .tc main_arg6) = (m ((c.tc : Thread nD τ).loc main_arg6)) :=
  (W2_of_ne m ρ c main_arg6 (by decide)).trans (w1_arg6 m ρ c)

theorem w2_arg7 : W2 m ρ c (Proc.devRef .tc main_arg7) = (m ((c.tc : Thread nD τ).loc main_arg7)) :=
  (W2_of_ne m ρ c main_arg7 (by decide)).trans (w1_arg7 m ρ c)

theorem w2_arg8 : W2 m ρ c (Proc.devRef .tc main_arg8) = (m ((c.tc : Thread nD τ).loc main_arg8)) :=
  (W2_of_ne m ρ c main_arg8 (by decide)).trans (w1_arg8 m ρ c)

theorem w2_arg9 : W2 m ρ c (Proc.devRef .tc main_arg9) = (m ((c.tc : Thread nD τ).loc main_arg9)) :=
  (W2_of_ne m ρ c main_arg9 (by decide)).trans (w1_arg9 m ρ c)

theorem w2_arg10 : W2 m ρ c (Proc.devRef .tc main_arg10) = (m ((c.tc : Thread nD τ).loc main_arg10)) :=
  (W2_of_ne m ρ c main_arg10 (by decide)).trans (w1_arg10 m ρ c)

theorem w2_arg11 : W2 m ρ c (Proc.devRef .tc main_arg11) = (m ((c.tc : Thread nD τ).loc main_arg11)) :=
  (W2_of_ne m ρ c main_arg11 (by decide)).trans (w1_arg11 m ρ c)

theorem w2_arg12 : W2 m ρ c (Proc.devRef .tc main_arg12) = (m ((c.tc : Thread nD τ).loc main_arg12)) :=
  (W2_of_ne m ρ c main_arg12 (by decide)).trans (w1_arg12 m ρ c)

theorem w2_arg13 : W2 m ρ c (Proc.devRef .tc main_arg13) = (m ((c.tc : Thread nD τ).loc main_arg13)) :=
  (W2_of_ne m ρ c main_arg13 (by decide)).trans (w1_arg13 m ρ c)

theorem w2_arg14 : W2 m ρ c (Proc.devRef .tc main_arg14) = (m ((c.tc : Thread nD τ).loc main_arg14)) :=
  (W2_of_ne m ρ c main_arg14 (by decide)).trans (w1_arg14 m ρ c)

theorem w2_arg15 : W2 m ρ c (Proc.devRef .tc main_arg15) = (m ((c.tc : Thread nD τ).loc main_arg15)) :=
  (W2_of_ne m ρ c main_arg15 (by decide)).trans (w1_arg15 m ρ c)

/-! ### After the second host stretch -/

set_option maxHeartbeats 4000000 in
theorem w3_v27 : W3 m ρ c (Proc.devRef .tc main_v27) = (aggr128 (hs1 (m ((c.tc : Thread nD τ).loc main_arg0)) (m ((c.tc : Thread nD τ).loc main_arg1)) (m ((c.tc : Thread nD τ).loc main_arg2))) (srcV (m ((c.tc : Thread nD τ).loc main_arg1))) (dstV (m ((c.tc : Thread nD τ).loc main_arg1)))) := by
  have h : W3 m ρ c (Proc.devRef .tc main_v27) = aggr128 (W2 m ρ c (Proc.devRef .tc main_v17)) (W2 m ρ c (Proc.devRef .tc main_v1)) (W2 m ρ c (Proc.devRef .tc main_v3)) := by
    show StableHlo.after (hostOps1 (F := Ideal)) (W2 m ρ c) (Proc.devRef .tc main_v27) = _
    generalize W2 m ρ c = W
    after_results <;> rfl
  rw [h, w2_v17 m ρ c, w2_v1 m ρ c, w2_v3 m ρ c]

set_option maxHeartbeats 4000000 in
theorem w3_v17 : W3 m ρ c (Proc.devRef .tc main_v17) = (hs1 (m ((c.tc : Thread nD τ).loc main_arg0)) (m ((c.tc : Thread nD τ).loc main_arg1)) (m ((c.tc : Thread nD τ).loc main_arg2))) := by
  have h : W3 m ρ c (Proc.devRef .tc main_v17) = W2 m ρ c (Proc.devRef .tc main_v17) := by
    show StableHlo.after (hostOps1 (F := Ideal)) (W2 m ρ c) (Proc.devRef .tc main_v17) = _
    generalize W2 m ρ c = W
    after_results <;> rfl
  rw [h, w2_v17 m ρ c]

set_option maxHeartbeats 4000000 in
theorem w3_v16 : W3 m ρ c (Proc.devRef .tc main_v16) = (dis2V (m ((c.tc : Thread nD τ).loc main_arg1))) := by
  have h : W3 m ρ c (Proc.devRef .tc main_v16) = W2 m ρ c (Proc.devRef .tc main_v16) := by
    show StableHlo.after (hostOps1 (F := Ideal)) (W2 m ρ c) (Proc.devRef .tc main_v16) = _
    generalize W2 m ρ c = W
    after_results <;> rfl
  rw [h, w2_v16 m ρ c]

set_option maxHeartbeats 4000000 in
theorem w3_v1 : W3 m ρ c (Proc.devRef .tc main_v1) = (srcV (m ((c.tc : Thread nD τ).loc main_arg1))) := by
  have h : W3 m ρ c (Proc.devRef .tc main_v1) = W2 m ρ c (Proc.devRef .tc main_v1) := by
    show StableHlo.after (hostOps1 (F := Ideal)) (W2 m ρ c) (Proc.devRef .tc main_v1) = _
    generalize W2 m ρ c = W
    after_results <;> rfl
  rw [h, w2_v1 m ρ c]

set_option maxHeartbeats 4000000 in
theorem w3_v3 : W3 m ρ c (Proc.devRef .tc main_v3) = (dstV (m ((c.tc : Thread nD τ).loc main_arg1))) := by
  have h : W3 m ρ c (Proc.devRef .tc main_v3) = W2 m ρ c (Proc.devRef .tc main_v3) := by
    show StableHlo.after (hostOps1 (F := Ideal)) (W2 m ρ c) (Proc.devRef .tc main_v3) = _
    generalize W2 m ρ c = W
    after_results <;> rfl
  rw [h, w2_v3 m ρ c]

set_option maxHeartbeats 4000000 in
theorem w3_v28 : W3 m ρ c (Proc.devRef .tc main_v28) = (row128 (m ((c.tc : Thread nD τ).loc main_arg3))) := by
  have h : W3 m ρ c (Proc.devRef .tc main_v28) = row128 (W2 m ρ c (Proc.devRef .tc main_arg3)) := by
    show StableHlo.after (hostOps1 (F := Ideal)) (W2 m ρ c) (Proc.devRef .tc main_v28) = _
    generalize W2 m ρ c = W
    after_results <;> rfl
  rw [h, w2_arg3 m ρ c]

set_option maxHeartbeats 4000000 in
theorem w3_v29 : W3 m ρ c (Proc.devRef .tc main_v29) = (row128 (m ((c.tc : Thread nD τ).loc main_arg8))) := by
  have h : W3 m ρ c (Proc.devRef .tc main_v29) = row128 (W2 m ρ c (Proc.devRef .tc main_arg8)) := by
    show StableHlo.after (hostOps1 (F := Ideal)) (W2 m ρ c) (Proc.devRef .tc main_v29) = _
    generalize W2 m ρ c = W
    after_results <;> rfl
  rw [h, w2_arg8 m ρ c]

set_option maxHeartbeats 4000000 in
theorem w3_v30 : W3 m ρ c (Proc.devRef .tc main_v30) = (row128 (m ((c.tc : Thread nD τ).loc main_arg9))) := by
  have h : W3 m ρ c (Proc.devRef .tc main_v30) = row128 (W2 m ρ c (Proc.devRef .tc main_arg9)) := by
    show StableHlo.after (hostOps1 (F := Ideal)) (W2 m ρ c) (Proc.devRef .tc main_v30) = _
    generalize W2 m ρ c = W
    after_results <;> rfl
  rw [h, w2_arg9 m ρ c]

set_option maxHeartbeats 4000000 in
theorem w3_v31 : W3 m ρ c (Proc.devRef .tc main_v31) = (row128 (m ((c.tc : Thread nD τ).loc main_arg10))) := by
  have h : W3 m ρ c (Proc.devRef .tc main_v31) = row128 (W2 m ρ c (Proc.devRef .tc main_arg10)) := by
    show StableHlo.after (hostOps1 (F := Ideal)) (W2 m ρ c) (Proc.devRef .tc main_v31) = _
    generalize W2 m ρ c = W
    after_results <;> rfl
  rw [h, w2_arg10 m ρ c]

set_option maxHeartbeats 4000000 in
theorem w3_v32 : W3 m ρ c (Proc.devRef .tc main_v32) = (row128 (m ((c.tc : Thread nD τ).loc main_arg11))) := by
  have h : W3 m ρ c (Proc.devRef .tc main_v32) = row128 (W2 m ρ c (Proc.devRef .tc main_arg11)) := by
    show StableHlo.after (hostOps1 (F := Ideal)) (W2 m ρ c) (Proc.devRef .tc main_v32) = _
    generalize W2 m ρ c = W
    after_results <;> rfl
  rw [h, w2_arg11 m ρ c]

set_option maxHeartbeats 4000000 in
theorem w3_arg4 : W3 m ρ c (Proc.devRef .tc main_arg4) = (m ((c.tc : Thread nD τ).loc main_arg4)) := by
  have h : W3 m ρ c (Proc.devRef .tc main_arg4) = W2 m ρ c (Proc.devRef .tc main_arg4) := by
    show StableHlo.after (hostOps1 (F := Ideal)) (W2 m ρ c) (Proc.devRef .tc main_arg4) = _
    generalize W2 m ρ c = W
    after_results <;> rfl
  rw [h, w2_arg4 m ρ c]

set_option maxHeartbeats 4000000 in
theorem w3_arg5 : W3 m ρ c (Proc.devRef .tc main_arg5) = (m ((c.tc : Thread nD τ).loc main_arg5)) := by
  have h : W3 m ρ c (Proc.devRef .tc main_arg5) = W2 m ρ c (Proc.devRef .tc main_arg5) := by
    show StableHlo.after (hostOps1 (F := Ideal)) (W2 m ρ c) (Proc.devRef .tc main_arg5) = _
    generalize W2 m ρ c = W
    after_results <;> rfl
  rw [h, w2_arg5 m ρ c]

set_option maxHeartbeats 4000000 in
theorem w3_arg6 : W3 m ρ c (Proc.devRef .tc main_arg6) = (m ((c.tc : Thread nD τ).loc main_arg6)) := by
  have h : W3 m ρ c (Proc.devRef .tc main_arg6) = W2 m ρ c (Proc.devRef .tc main_arg6) := by
    show StableHlo.after (hostOps1 (F := Ideal)) (W2 m ρ c) (Proc.devRef .tc main_arg6) = _
    generalize W2 m ρ c = W
    after_results <;> rfl
  rw [h, w2_arg6 m ρ c]

set_option maxHeartbeats 4000000 in
theorem w3_arg7 : W3 m ρ c (Proc.devRef .tc main_arg7) = (m ((c.tc : Thread nD τ).loc main_arg7)) := by
  have h : W3 m ρ c (Proc.devRef .tc main_arg7) = W2 m ρ c (Proc.devRef .tc main_arg7) := by
    show StableHlo.after (hostOps1 (F := Ideal)) (W2 m ρ c) (Proc.devRef .tc main_arg7) = _
    generalize W2 m ρ c = W
    after_results <;> rfl
  rw [h, w2_arg7 m ρ c]

set_option maxHeartbeats 4000000 in
theorem w3_arg12 : W3 m ρ c (Proc.devRef .tc main_arg12) = (m ((c.tc : Thread nD τ).loc main_arg12)) := by
  have h : W3 m ρ c (Proc.devRef .tc main_arg12) = W2 m ρ c (Proc.devRef .tc main_arg12) := by
    show StableHlo.after (hostOps1 (F := Ideal)) (W2 m ρ c) (Proc.devRef .tc main_arg12) = _
    generalize W2 m ρ c = W
    after_results <;> rfl
  rw [h, w2_arg12 m ρ c]

set_option maxHeartbeats 4000000 in
theorem w3_arg13 : W3 m ρ c (Proc.devRef .tc main_arg13) = (m ((c.tc : Thread nD τ).loc main_arg13)) := by
  have h : W3 m ρ c (Proc.devRef .tc main_arg13) = W2 m ρ c (Proc.devRef .tc main_arg13) := by
    show StableHlo.after (hostOps1 (F := Ideal)) (W2 m ρ c) (Proc.devRef .tc main_arg13) = _
    generalize W2 m ρ c = W
    after_results <;> rfl
  rw [h, w2_arg13 m ρ c]

set_option maxHeartbeats 4000000 in
theorem w3_arg14 : W3 m ρ c (Proc.devRef .tc main_arg14) = (m ((c.tc : Thread nD τ).loc main_arg14)) := by
  have h : W3 m ρ c (Proc.devRef .tc main_arg14) = W2 m ρ c (Proc.devRef .tc main_arg14) := by
    show StableHlo.after (hostOps1 (F := Ideal)) (W2 m ρ c) (Proc.devRef .tc main_arg14) = _
    generalize W2 m ρ c = W
    after_results <;> rfl
  rw [h, w2_arg14 m ρ c]

set_option maxHeartbeats 4000000 in
theorem w3_arg15 : W3 m ρ c (Proc.devRef .tc main_arg15) = (m ((c.tc : Thread nD τ).loc main_arg15)) := by
  have h : W3 m ρ c (Proc.devRef .tc main_arg15) = W2 m ρ c (Proc.devRef .tc main_arg15) := by
    show StableHlo.after (hostOps1 (F := Ideal)) (W2 m ρ c) (Proc.devRef .tc main_arg15) = _
    generalize W2 m ρ c = W
    after_results <;> rfl
  rw [h, w2_arg15 m ρ c]

/-! ### After launch 1 -/

theorem w4_v33 : W4 m ρ c (Proc.devRef .tc main_v33) = (hs2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) := by
  refine (W4_arr m ρ c 9).trans ((Cert.KernelIdeal.Region1.arr (V3 m ρ) c).trans ?_)
  show Cert.Spec.R1w (W3 m ρ c (Proc.devRef .tc main_v27)) (W3 m ρ c (Proc.devRef .tc main_v17)) (W3 m ρ c (Proc.devRef .tc main_v16)) (W3 m ρ c (Proc.devRef .tc main_v28)) (W3 m ρ c (Proc.devRef .tc main_v29)) (W3 m ρ c (Proc.devRef .tc main_v30)) (W3 m ρ c (Proc.devRef .tc main_v31)) (W3 m ρ c (Proc.devRef .tc main_v32)) (W3 m ρ c (Proc.devRef .tc main_arg4)) = _
  rw [w3_v27 m ρ c, w3_v17 m ρ c, w3_v16 m ρ c, w3_v28 m ρ c, w3_v29 m ρ c, w3_v30 m ρ c, w3_v31 m ρ c, w3_v32 m ρ c, w3_arg4 m ρ c]
  unfold hs2
  with_reducible rfl

theorem w4_v1 : W4 m ρ c (Proc.devRef .tc main_v1) = (srcV (m ((c.tc : Thread nD τ).loc main_arg1))) :=
  (W4_of_ne m ρ c main_v1 (by decide)).trans (w3_v1 m ρ c)

theorem w4_v3 : W4 m ρ c (Proc.devRef .tc main_v3) = (dstV (m ((c.tc : Thread nD τ).loc main_arg1))) :=
  (W4_of_ne m ρ c main_v3 (by decide)).trans (w3_v3 m ρ c)

theorem w4_v16 : W4 m ρ c (Proc.devRef .tc main_v16) = (dis2V (m ((c.tc : Thread nD τ).loc main_arg1))) :=
  ((W4_arr m ρ c 2).trans (((dat1 (V3 m ρ) c).arrAt_in 2 rfl _).trans (A_eq1 (V3 m ρ) c 2))).trans (w3_v16 m ρ c)

theorem w4_arg5 : W4 m ρ c (Proc.devRef .tc main_arg5) = (m ((c.tc : Thread nD τ).loc main_arg5)) :=
  (W4_of_ne m ρ c main_arg5 (by decide)).trans (w3_arg5 m ρ c)

theorem w4_arg6 : W4 m ρ c (Proc.devRef .tc main_arg6) = (m ((c.tc : Thread nD τ).loc main_arg6)) :=
  (W4_of_ne m ρ c main_arg6 (by decide)).trans (w3_arg6 m ρ c)

theorem w4_arg7 : W4 m ρ c (Proc.devRef .tc main_arg7) = (m ((c.tc : Thread nD τ).loc main_arg7)) :=
  (W4_of_ne m ρ c main_arg7 (by decide)).trans (w3_arg7 m ρ c)

theorem w4_arg12 : W4 m ρ c (Proc.devRef .tc main_arg12) = (m ((c.tc : Thread nD τ).loc main_arg12)) :=
  (W4_of_ne m ρ c main_arg12 (by decide)).trans (w3_arg12 m ρ c)

theorem w4_arg13 : W4 m ρ c (Proc.devRef .tc main_arg13) = (m ((c.tc : Thread nD τ).loc main_arg13)) :=
  (W4_of_ne m ρ c main_arg13 (by decide)).trans (w3_arg13 m ρ c)

theorem w4_arg14 : W4 m ρ c (Proc.devRef .tc main_arg14) = (m ((c.tc : Thread nD τ).loc main_arg14)) :=
  (W4_of_ne m ρ c main_arg14 (by decide)).trans (w3_arg14 m ρ c)

theorem w4_arg15 : W4 m ρ c (Proc.devRef .tc main_arg15) = (m ((c.tc : Thread nD τ).loc main_arg15)) :=
  (W4_of_ne m ρ c main_arg15 (by decide)).trans (w3_arg15 m ρ c)

/-! ### After the third host stretch -/

set_option maxHeartbeats 4000000 in
theorem w5_v43 : W5 m ρ c (Proc.devRef .tc main_v43) = (aggr128 (hs2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) (srcV (m ((c.tc : Thread nD τ).loc main_arg1))) (dstV (m ((c.tc : Thread nD τ).loc main_arg1)))) := by
  have h : W5 m ρ c (Proc.devRef .tc main_v43) = aggr128 (W4 m ρ c (Proc.devRef .tc main_v33)) (W4 m ρ c (Proc.devRef .tc main_v1)) (W4 m ρ c (Proc.devRef .tc main_v3)) := by
    show StableHlo.after (hostOps2 (F := Ideal)) (W4 m ρ c) (Proc.devRef .tc main_v43) = _
    generalize W4 m ρ c = W
    after_results <;> rfl
  rw [h, w4_v33 m ρ c, w4_v1 m ρ c, w4_v3 m ρ c]

set_option maxHeartbeats 4000000 in
theorem w5_v33 : W5 m ρ c (Proc.devRef .tc main_v33) = (hs2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) := by
  have h : W5 m ρ c (Proc.devRef .tc main_v33) = W4 m ρ c (Proc.devRef .tc main_v33) := by
    show StableHlo.after (hostOps2 (F := Ideal)) (W4 m ρ c) (Proc.devRef .tc main_v33) = _
    generalize W4 m ρ c = W
    after_results <;> rfl
  rw [h, w4_v33 m ρ c]

set_option maxHeartbeats 4000000 in
theorem w5_v16 : W5 m ρ c (Proc.devRef .tc main_v16) = (dis2V (m ((c.tc : Thread nD τ).loc main_arg1))) := by
  have h : W5 m ρ c (Proc.devRef .tc main_v16) = W4 m ρ c (Proc.devRef .tc main_v16) := by
    show StableHlo.after (hostOps2 (F := Ideal)) (W4 m ρ c) (Proc.devRef .tc main_v16) = _
    generalize W4 m ρ c = W
    after_results <;> rfl
  rw [h, w4_v16 m ρ c]

set_option maxHeartbeats 4000000 in
theorem w5_v1 : W5 m ρ c (Proc.devRef .tc main_v1) = (srcV (m ((c.tc : Thread nD τ).loc main_arg1))) := by
  have h : W5 m ρ c (Proc.devRef .tc main_v1) = W4 m ρ c (Proc.devRef .tc main_v1) := by
    show StableHlo.after (hostOps2 (F := Ideal)) (W4 m ρ c) (Proc.devRef .tc main_v1) = _
    generalize W4 m ρ c = W
    after_results <;> rfl
  rw [h, w4_v1 m ρ c]

set_option maxHeartbeats 4000000 in
theorem w5_v3 : W5 m ρ c (Proc.devRef .tc main_v3) = (dstV (m ((c.tc : Thread nD τ).loc main_arg1))) := by
  have h : W5 m ρ c (Proc.devRef .tc main_v3) = W4 m ρ c (Proc.devRef .tc main_v3) := by
    show StableHlo.after (hostOps2 (F := Ideal)) (W4 m ρ c) (Proc.devRef .tc main_v3) = _
    generalize W4 m ρ c = W
    after_results <;> rfl
  rw [h, w4_v3 m ρ c]

set_option maxHeartbeats 4000000 in
theorem w5_v44 : W5 m ρ c (Proc.devRef .tc main_v44) = (row128 (m ((c.tc : Thread nD τ).loc main_arg5))) := by
  have h : W5 m ρ c (Proc.devRef .tc main_v44) = row128 (W4 m ρ c (Proc.devRef .tc main_arg5)) := by
    show StableHlo.after (hostOps2 (F := Ideal)) (W4 m ρ c) (Proc.devRef .tc main_v44) = _
    generalize W4 m ρ c = W
    after_results <;> rfl
  rw [h, w4_arg5 m ρ c]

set_option maxHeartbeats 4000000 in
theorem w5_v45 : W5 m ρ c (Proc.devRef .tc main_v45) = (row128 (m ((c.tc : Thread nD τ).loc main_arg12))) := by
  have h : W5 m ρ c (Proc.devRef .tc main_v45) = row128 (W4 m ρ c (Proc.devRef .tc main_arg12)) := by
    show StableHlo.after (hostOps2 (F := Ideal)) (W4 m ρ c) (Proc.devRef .tc main_v45) = _
    generalize W4 m ρ c = W
    after_results <;> rfl
  rw [h, w4_arg12 m ρ c]

set_option maxHeartbeats 4000000 in
theorem w5_v46 : W5 m ρ c (Proc.devRef .tc main_v46) = (row128 (m ((c.tc : Thread nD τ).loc main_arg13))) := by
  have h : W5 m ρ c (Proc.devRef .tc main_v46) = row128 (W4 m ρ c (Proc.devRef .tc main_arg13)) := by
    show StableHlo.after (hostOps2 (F := Ideal)) (W4 m ρ c) (Proc.devRef .tc main_v46) = _
    generalize W4 m ρ c = W
    after_results <;> rfl
  rw [h, w4_arg13 m ρ c]

set_option maxHeartbeats 4000000 in
theorem w5_v47 : W5 m ρ c (Proc.devRef .tc main_v47) = (row128 (m ((c.tc : Thread nD τ).loc main_arg14))) := by
  have h : W5 m ρ c (Proc.devRef .tc main_v47) = row128 (W4 m ρ c (Proc.devRef .tc main_arg14)) := by
    show StableHlo.after (hostOps2 (F := Ideal)) (W4 m ρ c) (Proc.devRef .tc main_v47) = _
    generalize W4 m ρ c = W
    after_results <;> rfl
  rw [h, w4_arg14 m ρ c]

set_option maxHeartbeats 4000000 in
theorem w5_v48 : W5 m ρ c (Proc.devRef .tc main_v48) = (row128 (m ((c.tc : Thread nD τ).loc main_arg15))) := by
  have h : W5 m ρ c (Proc.devRef .tc main_v48) = row128 (W4 m ρ c (Proc.devRef .tc main_arg15)) := by
    show StableHlo.after (hostOps2 (F := Ideal)) (W4 m ρ c) (Proc.devRef .tc main_v48) = _
    generalize W4 m ρ c = W
    after_results <;> rfl
  rw [h, w4_arg15 m ρ c]

set_option maxHeartbeats 4000000 in
theorem w5_arg6 : W5 m ρ c (Proc.devRef .tc main_arg6) = (m ((c.tc : Thread nD τ).loc main_arg6)) := by
  have h : W5 m ρ c (Proc.devRef .tc main_arg6) = W4 m ρ c (Proc.devRef .tc main_arg6) := by
    show StableHlo.after (hostOps2 (F := Ideal)) (W4 m ρ c) (Proc.devRef .tc main_arg6) = _
    generalize W4 m ρ c = W
    after_results <;> rfl
  rw [h, w4_arg6 m ρ c]

set_option maxHeartbeats 4000000 in
theorem w5_arg7 : W5 m ρ c (Proc.devRef .tc main_arg7) = (m ((c.tc : Thread nD τ).loc main_arg7)) := by
  have h : W5 m ρ c (Proc.devRef .tc main_arg7) = W4 m ρ c (Proc.devRef .tc main_arg7) := by
    show StableHlo.after (hostOps2 (F := Ideal)) (W4 m ρ c) (Proc.devRef .tc main_arg7) = _
    generalize W4 m ρ c = W
    after_results <;> rfl
  rw [h, w4_arg7 m ρ c]

/-! ### After launch 2 -/

theorem w6_v49 : W6 m ρ c (Proc.devRef .tc main_v49) = (hs3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine (W6_arr m ρ c 9).trans ((Cert.KernelIdeal.Region2.arr (V5 m ρ) c).trans ?_)
  show Cert.Spec.R2w (W5 m ρ c (Proc.devRef .tc main_v43)) (W5 m ρ c (Proc.devRef .tc main_v33)) (W5 m ρ c (Proc.devRef .tc main_v16)) (W5 m ρ c (Proc.devRef .tc main_v44)) (W5 m ρ c (Proc.devRef .tc main_v45)) (W5 m ρ c (Proc.devRef .tc main_v46)) (W5 m ρ c (Proc.devRef .tc main_v47)) (W5 m ρ c (Proc.devRef .tc main_v48)) (W5 m ρ c (Proc.devRef .tc main_arg6)) = _
  rw [w5_v43 m ρ c, w5_v33 m ρ c, w5_v16 m ρ c, w5_v44 m ρ c, w5_v45 m ρ c, w5_v46 m ρ c, w5_v47 m ρ c, w5_v48 m ρ c, w5_arg6 m ρ c]
  unfold hs3
  with_reducible rfl

theorem w6_v1 : W6 m ρ c (Proc.devRef .tc main_v1) = (srcV (m ((c.tc : Thread nD τ).loc main_arg1))) :=
  (W6_of_ne m ρ c main_v1 (by decide)).trans (w5_v1 m ρ c)

theorem w6_v3 : W6 m ρ c (Proc.devRef .tc main_v3) = (dstV (m ((c.tc : Thread nD τ).loc main_arg1))) :=
  (W6_of_ne m ρ c main_v3 (by decide)).trans (w5_v3 m ρ c)

theorem w6_v16 : W6 m ρ c (Proc.devRef .tc main_v16) = (dis2V (m ((c.tc : Thread nD τ).loc main_arg1))) :=
  ((W6_arr m ρ c 2).trans (((dat2 (V5 m ρ) c).arrAt_in 2 rfl _).trans (A_eq2 (V5 m ρ) c 2))).trans (w5_v16 m ρ c)

theorem w6_arg7 : W6 m ρ c (Proc.devRef .tc main_arg7) = (m ((c.tc : Thread nD τ).loc main_arg7)) :=
  (W6_of_ne m ρ c main_arg7 (by decide)).trans (w5_arg7 m ρ c)

/-! ### After the last host stretch -/

set_option maxHeartbeats 4000000 in
theorem w7_v59 : W7 m ρ c (Proc.devRef .tc main_v59) = (aggr40 (hs3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (srcV (m ((c.tc : Thread nD τ).loc main_arg1))) (dstV (m ((c.tc : Thread nD τ).loc main_arg1)))) := by
  have h : W7 m ρ c (Proc.devRef .tc main_v59) = aggr40 (W6 m ρ c (Proc.devRef .tc main_v49)) (W6 m ρ c (Proc.devRef .tc main_v1)) (W6 m ρ c (Proc.devRef .tc main_v3)) := by
    show StableHlo.after (hostOps3 (F := Ideal)) (W6 m ρ c) (Proc.devRef .tc main_v59) = _
    generalize W6 m ρ c = W
    after_results <;> rfl
  rw [h, w6_v49 m ρ c, w6_v1 m ρ c, w6_v3 m ρ c]

set_option maxHeartbeats 4000000 in
theorem w7_v49 : W7 m ρ c (Proc.devRef .tc main_v49) = (hs3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  have h : W7 m ρ c (Proc.devRef .tc main_v49) = W6 m ρ c (Proc.devRef .tc main_v49) := by
    show StableHlo.after (hostOps3 (F := Ideal)) (W6 m ρ c) (Proc.devRef .tc main_v49) = _
    generalize W6 m ρ c = W
    after_results <;> rfl
  rw [h, w6_v49 m ρ c]

set_option maxHeartbeats 4000000 in
theorem w7_v16 : W7 m ρ c (Proc.devRef .tc main_v16) = (dis2V (m ((c.tc : Thread nD τ).loc main_arg1))) := by
  have h : W7 m ρ c (Proc.devRef .tc main_v16) = W6 m ρ c (Proc.devRef .tc main_v16) := by
    show StableHlo.after (hostOps3 (F := Ideal)) (W6 m ρ c) (Proc.devRef .tc main_v16) = _
    generalize W6 m ρ c = W
    after_results <;> rfl
  rw [h, w6_v16 m ρ c]

set_option maxHeartbeats 4000000 in
theorem w7_v60 : W7 m ρ c (Proc.devRef .tc main_v60) = (row40 (m ((c.tc : Thread nD τ).loc main_arg7))) := by
  have h : W7 m ρ c (Proc.devRef .tc main_v60) = row40 (W6 m ρ c (Proc.devRef .tc main_arg7)) := by
    show StableHlo.after (hostOps3 (F := Ideal)) (W6 m ρ c) (Proc.devRef .tc main_v60) = _
    generalize W6 m ρ c = W
    after_results <;> rfl
  rw [h, w6_arg7 m ρ c]

/-- After the last launch the result buffer holds the kernel's result function of the sixteen argument arrays. -/
theorem value : W8 m ρ c (Proc.devRef .tc main_v61) = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W8_arr m ρ c 4).trans ((Cert.KernelIdeal.Region3.arr (V7 m ρ) c).trans ?_)
  show Cert.Spec.R3w (W7 m ρ c (Proc.devRef .tc main_v59)) (W7 m ρ c (Proc.devRef .tc main_v49)) (W7 m ρ c (Proc.devRef .tc main_v16)) (W7 m ρ c (Proc.devRef .tc main_v60)) = _
  rw [w7_v59 m ρ c, w7_v49 m ρ c, w7_v16 m ρ c, w7_v60 m ρ c]
  unfold kernelValue
  with_reducible rfl

end Cert.KernelIdeal.Fold

end
-- ==== Proof.RefIdx.lean ====
/-
  The reference program read at an index: each stage of the three graph-convolution layers, the batch normalisation with
  rectifier between them, and the final row-wise log-softmax, as a scalar expression in the earlier stages at explicit
  coordinates.
-/
import proofs.«151626_j17386027614906_2_alg».proof.Proof.RefRead
import proofs.«151626_j17386027614906_2_alg».proof.Proof.Spec

noncomputable section

open scoped BigOperators

namespace Cert.RefIdx

open Cert.ReferenceIdeal Cert.ReferenceIdeal.ReadP Idealize.ShloMosaic Idealize.ShloMosaic.ValueIdx

/-- The f32 one. -/
abbrev one : EReal := Ideal.ofBits .f32 0x3F800000#32

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x40, .f32⟩ : BufTy).Contents (Elt Ideal))
  (x7 : (⟨S40, .f32⟩ : BufTy).Contents (Elt Ideal))
  (x8 x9 x10 x11 x12 x13 x14 x15 : (⟨S128, .f32⟩ : BufTy).Contents (Elt Ideal))
  (p : Fin 50000) (k : Fin 128) (q : Fin 40) (e : Fin 800000)

/-- Layer aggregate at a coordinate: the scattered sum, plus the node's own row over its degree, plus the bias. -/
theorem agg1_apply :
    val_main_v53 (F := Ideal) x0 x1 x2 x3 (ix2 p k)
      = (val_main_v44 (F := Ideal) x0 x1 x2 (ix2 p k)
          + val_main_v4 (F := Ideal) x0 x2 (ix2 p k) * Ideal.div one (val_main_v15 (F := Ideal) x1 (ix1 p)))
        + x3 (ix1 k) := by
  rw [val_main_v53_apply, val_main_v50_apply, val_main_v49_apply, val_main_v52_apply, val_main_v51_apply, val_main_v48_apply, val_main_v47_apply, val_main_v46_apply, val_main_v45_apply, val_main_cst_10_apply]
  have h1 : idx_main_v47 (idx_main_v48 (ix2 p k)) = ix1 p := by
    funext a; match a with | ⟨0, _⟩ => rfl
  have h2 : idx_main_v51 (idx_main_v52 (ix2 p k)) = ix1 k := by
    funext a; match a with | ⟨0, _⟩ => rfl
  rw [h1, h2]
  rfl

/-- Layer aggregate at a coordinate: the scattered sum, plus the node's own row over its degree, plus the bias. -/
theorem agg2_apply :
    val_main_v119 (F := Ideal) x0 x1 x2 x3 x4 x5 x8 x9 x10 x11 (ix2 p k)
      = (val_main_v110 (F := Ideal) x0 x1 x2 x3 x4 x8 x9 x10 x11 (ix2 p k)
          + val_main_v70 (F := Ideal) x0 x1 x2 x3 x4 x8 x9 x10 x11 (ix2 p k) * Ideal.div one (val_main_v81 (F := Ideal) x1 (ix1 p)))
        + x5 (ix1 k) := by
  rw [val_main_v119_apply, val_main_v116_apply, val_main_v115_apply, val_main_v118_apply, val_main_v117_apply, val_main_v114_apply, val_main_v113_apply, val_main_v112_apply, val_main_v111_apply, val_main_cst_24_apply]
  have h1 : idx_main_v113 (idx_main_v114 (ix2 p k)) = ix1 p := by
    funext a; match a with | ⟨0, _⟩ => rfl
  have h2 : idx_main_v117 (idx_main_v118 (ix2 p k)) = ix1 k := by
    funext a; match a with | ⟨0, _⟩ => rfl
  rw [h1, h2]
  rfl

/-- Layer aggregate at a coordinate: the scattered sum, plus the node's own row over its degree, plus the bias. -/
theorem agg3_apply :
    val_main_v185 (F := Ideal) x0 x1 x2 x3 x4 x5 x6 x7 x8 x9 x10 x11 x12 x13 x14 x15 (ix2 p q)
      = (val_main_v176 (F := Ideal) x0 x1 x2 x3 x4 x5 x6 x8 x9 x10 x11 x12 x13 x14 x15 (ix2 p q)
          + val_main_v136 (F := Ideal) x0 x1 x2 x3 x4 x5 x6 x8 x9 x10 x11 x12 x13 x14 x15 (ix2 p q) * Ideal.div one (val_main_v147 (F := Ideal) x1 (ix1 p)))
        + x7 (ix1 q) := by
  rw [val_main_v185_apply, val_main_v182_apply, val_main_v181_apply, val_main_v184_apply, val_main_v183_apply, val_main_v180_apply, val_main_v179_apply, val_main_v178_apply, val_main_v177_apply, val_main_cst_38_apply]
  have h1 : idx_main_v179 (idx_main_v180 (ix2 p q)) = ix1 p := by
    funext a; match a with | ⟨0, _⟩ => rfl
  have h2 : idx_main_v183 (idx_main_v184 (ix2 p q)) = ix1 q := by
    funext a; match a with | ⟨0, _⟩ => rfl
  rw [h1, h2]
  rfl

/-- The hidden activation at a coordinate: batch normalisation with the running statistics, then the rectifier. -/
theorem hid1_apply :
    val_main_v69 (F := Ideal) x0 x1 x2 x3 x8 x9 x10 x11 (ix2 p k)
      = Cert.Spec.bnrelu (val_main_v53 (F := Ideal) x0 x1 x2 x3 (ix2 p k)) (x10 (ix1 k)) (x11 (ix1 k)) (x8 (ix1 k)) (x9 (ix1 k)) := by
  rw [val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_cst_11_apply, val_main_v56_apply, val_main_v55_apply, val_main_v54_apply, val_main_call0_v0_apply, val_main_call0_cst_apply]
  have h0 : idx_main_v66 (idx_main_v67 (ix2 p k)) = ix1 k := by
    funext a; match a with | ⟨0, _⟩ => rfl
  have h1 : idx_main_v63 (idx_main_v64 (ix2 p k)) = ix1 k := by
    funext a; match a with | ⟨0, _⟩ => rfl
  have h2 : idx_main_v60 (idx_main_v61 (ix2 p k)) = ix1 k := by
    funext a; match a with | ⟨0, _⟩ => rfl
  have h3 : idx_main_v54 (idx_main_v55 (ix2 p k)) = ix1 k := by
    funext a; match a with | ⟨0, _⟩ => rfl
  rw [h0, h1, h2, h3]
  rfl

/-- The hidden activation at a coordinate: batch normalisation with the running statistics, then the rectifier. -/
theorem hid2_apply :
    val_main_v135 (F := Ideal) x0 x1 x2 x3 x4 x5 x8 x9 x10 x11 x12 x13 x14 x15 (ix2 p k)
      = Cert.Spec.bnrelu (val_main_v119 (F := Ideal) x0 x1 x2 x3 x4 x5 x8 x9 x10 x11 (ix2 p k)) (x14 (ix1 k)) (x15 (ix1 k)) (x12 (ix1 k)) (x13 (ix1 k)) := by
  rw [val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_cst_25_apply, val_main_v122_apply, val_main_v121_apply, val_main_v120_apply, val_main_call1_v0_apply, val_main_call1_cst_apply]
  have h0 : idx_main_v132 (idx_main_v133 (ix2 p k)) = ix1 k := by
    funext a; match a with | ⟨0, _⟩ => rfl
  have h1 : idx_main_v129 (idx_main_v130 (ix2 p k)) = ix1 k := by
    funext a; match a with | ⟨0, _⟩ => rfl
  have h2 : idx_main_v126 (idx_main_v127 (ix2 p k)) = ix1 k := by
    funext a; match a with | ⟨0, _⟩ => rfl
  have h3 : idx_main_v120 (idx_main_v121 (ix2 p k)) = ix1 k := by
    funext a; match a with | ⟨0, _⟩ => rfl
  rw [h0, h1, h2, h3]
  rfl

/-- The layer's matrix product at a coordinate. -/
theorem dot1_apply :
    val_main_v4 (F := Ideal) x0 x2 (ix2 p k) = ∑ j : Fin 128, x0 (ix2 p j) * x2 (ix2 j k) := by
  rw [val_main_v4_apply]
  refine Finset.sum_congr rfl fun j _ => ?_
  have hl : lidx_main_v4 (ix2 p k) j = ix2 p j := by
    funext a; match a with | ⟨0, _⟩ => rfl | ⟨1, _⟩ => rfl
  have hr : ridx_main_v4 (ix2 p k) j = ix2 j k := by
    funext a; match a with | ⟨0, _⟩ => rfl | ⟨1, _⟩ => rfl
  rw [hl, hr]

/-- The layer's matrix product at a coordinate. -/
theorem dot2_apply :
    val_main_v70 (F := Ideal) x0 x1 x2 x3 x4 x8 x9 x10 x11 (ix2 p k) = ∑ j : Fin 128, val_main_v69 (F := Ideal) x0 x1 x2 x3 x8 x9 x10 x11 (ix2 p j) * x4 (ix2 j k) := by
  rw [val_main_v70_apply]
  refine Finset.sum_congr rfl fun j _ => ?_
  have hl : lidx_main_v70 (ix2 p k) j = ix2 p j := by
    funext a; match a with | ⟨0, _⟩ => rfl | ⟨1, _⟩ => rfl
  have hr : ridx_main_v70 (ix2 p k) j = ix2 j k := by
    funext a; match a with | ⟨0, _⟩ => rfl | ⟨1, _⟩ => rfl
  rw [hl, hr]

/-- The layer's matrix product at a coordinate. -/
theorem dot3_apply :
    val_main_v136 (F := Ideal) x0 x1 x2 x3 x4 x5 x6 x8 x9 x10 x11 x12 x13 x14 x15 (ix2 p q) = ∑ j : Fin 128, val_main_v135 (F := Ideal) x0 x1 x2 x3 x4 x5 x8 x9 x10 x11 x12 x13 x14 x15 (ix2 p j) * x6 (ix2 j q) := by
  rw [val_main_v136_apply]
  refine Finset.sum_congr rfl fun j _ => ?_
  have hl : lidx_main_v136 (ix2 p q) j = ix2 p j := by
    funext a; match a with | ⟨0, _⟩ => rfl | ⟨1, _⟩ => rfl
  have hr : ridx_main_v136 (ix2 p q) j = ix2 j q := by
    funext a; match a with | ⟨0, _⟩ => rfl | ⟨1, _⟩ => rfl
  rw [hl, hr]

/-- An edge's message at a coordinate: the gathered row times the product of the two gathered inverse-square-root degrees. -/
theorem msg1_apply :
    val_main_v41 (F := Ideal) x0 x1 x2 (ix2 e k)
      = val_main_v38 (F := Ideal) x0 x1 x2 (ix2 e k) * (val_main_v23 (F := Ideal) x1 (ix1 e) * val_main_v30 (F := Ideal) x1 (ix1 e)) := by
  rw [val_main_v41_apply, val_main_v40_apply, val_main_v39_apply, val_main_v31_apply]
  have h1 : idx_main_v39 (idx_main_v40 (ix2 e k)) = ix1 e := by
    funext a; match a with | ⟨0, _⟩ => rfl
  rw [h1]
  rfl

/-- An edge's message at a coordinate: the gathered row times the product of the two gathered inverse-square-root degrees. -/
theorem msg2_apply :
    val_main_v107 (F := Ideal) x0 x1 x2 x3 x4 x8 x9 x10 x11 (ix2 e k)
      = val_main_v104 (F := Ideal) x0 x1 x2 x3 x4 x8 x9 x10 x11 (ix2 e k) * (val_main_v89 (F := Ideal) x1 (ix1 e) * val_main_v96 (F := Ideal) x1 (ix1 e)) := by
  rw [val_main_v107_apply, val_main_v106_apply, val_main_v105_apply, val_main_v97_apply]
  have h1 : idx_main_v105 (idx_main_v106 (ix2 e k)) = ix1 e := by
    funext a; match a with | ⟨0, _⟩ => rfl
  rw [h1]
  rfl

/-- An edge's message at a coordinate: the gathered row times the product of the two gathered inverse-square-root degrees. -/
theorem msg3_apply :
    val_main_v173 (F := Ideal) x0 x1 x2 x3 x4 x5 x6 x8 x9 x10 x11 x12 x13 x14 x15 (ix2 e q)
      = val_main_v170 (F := Ideal) x0 x1 x2 x3 x4 x5 x6 x8 x9 x10 x11 x12 x13 x14 x15 (ix2 e q) * (val_main_v155 (F := Ideal) x1 (ix1 e) * val_main_v162 (F := Ideal) x1 (ix1 e)) := by
  rw [val_main_v173_apply, val_main_v172_apply, val_main_v171_apply, val_main_v163_apply]
  have h1 : idx_main_v171 (idx_main_v172 (ix2 e q)) = ix1 e := by
    funext a; match a with | ⟨0, _⟩ => rfl
  rw [h1]
  rfl

/-- The first layer's scatter starts from zero. -/
theorem zero1_apply : val_main_v42 (F := Ideal) (ix2 p k) = 0 := by
  rw [val_main_v42_apply, val_main_cst_9_apply, Ideal.ofBits_def, Ideal.ofBits_zero_f32]

/-- The second layer's scatter starts from zero. -/
theorem zero2_apply : val_main_v108 (F := Ideal) (ix2 p k) = 0 := by
  rw [val_main_v108_apply, val_main_cst_23_apply, Ideal.ofBits_def, Ideal.ofBits_zero_f32]

/-- The third layer's scatter starts from zero. -/
theorem zero3_apply : val_main_v174 (F := Ideal) (ix2 p q) = 0 := by
  rw [val_main_v174_apply, val_main_cst_37_apply, Ideal.ofBits_def, Ideal.ofBits_zero_f32]

/-- The degree count starts from zero. -/
theorem zero0_apply : val_main_v5 (F := Ideal) (ix1 p) = 0 := by
  rw [val_main_v5_apply, val_main_cst_apply, Ideal.ofBits_def, Ideal.ofBits_zero_f32]

/-- Every edge contributes one to the degree count. -/
theorem ones_apply : val_main_v12 (F := Ideal) (ix1 e) = one := by
  rw [val_main_v12_apply, val_main_cst_1_apply, Ideal.ofBits_def]

/-- The inverse square root of the degree. -/
theorem dis_apply : val_main_v16 (F := Ideal) x1 (ix1 p) = Ideal.rsqrt (val_main_v15 (F := Ideal) x1 (ix1 p)) := by
  rw [val_main_v16_apply, Ideal.hostUnary_rsqrt_def]

/-- The degree: the count of incoming edges plus one for the self loop. -/
theorem deg_apply : val_main_v15 (F := Ideal) x1 (ix1 p) = val_main_v13 (F := Ideal) x1 (ix1 p) + one := by
  rw [val_main_v15_apply, val_main_v14_apply, val_main_cst_2_apply, Ideal.ofBits_def, Ideal.addf_def]

/-- The second row of the edge list, read through the slice, the reshape and the broadcast to a column. -/
theorem dst_idx : idx_main_v2 (idx_main_v3 (ix1 e)) = ix2 1 e := by
  funext a
  match a with
  | ⟨0, _⟩ => rfl
  | ⟨1, _⟩ => exact Fin.ext (Nat.mod_eq_of_lt e.isLt)

/-- The scatter's index column is the edge's destination as stored. -/
theorem raw_apply : val_main_v43 (F := Ideal) x1 (ix2 e 0) = x1 (ix2 1 e) := by
  rw [val_main_v43_apply, val_main_v3_apply, val_main_v2_apply]
  have h : idx_main_v43 (ix2 e (0 : Fin 1)) = ix1 e := by
    funext a; match a with | ⟨0, _⟩ => rfl
  rw [h, dst_idx]

/-- The gather's index column is the destination with a negative value wrapped around by the node count. -/
theorem dstn_apply :
    val_main_v29 (F := Ideal) x1 (ix2 e 0)
      = (if (x1 (ix2 1 e)).slt 0#32 then x1 (ix2 1 e) + 50000#32 else x1 (ix2 1 e)) := by
  rw [val_main_v29_apply, val_main_v28_apply, val_main_v25_apply, val_main_v27_apply, val_main_v24_apply,
    val_main_v26_apply, val_main_c_5_apply, val_main_c_6_apply, val_main_v3_apply, val_main_v2_apply]
  have h : idx_main_v29 (ix2 e (0 : Fin 1)) = ix1 e := by
    funext a; match a with | ⟨0, _⟩ => rfl
  rw [h, dst_idx]
  show (if BitVec.ofBool ((x1 (ix2 1 e)).slt 0#32) = 1 then _ else _) = _
  generalize (x1 (ix2 1 e)).slt 0#32 = b
  cases b <;> rfl

/-- A destination that is not negative is gathered at as stored. -/
theorem dstn_of_nonneg (h : 0 ≤ (x1 (ix2 1 e)).toInt) : val_main_v29 (F := Ideal) x1 (ix2 e 0) = x1 (ix2 1 e) := by
  rw [dstn_apply]
  have hlt : (x1 (ix2 1 e)).slt 0#32 = false := by
    simp only [BitVec.slt, BitVec.toInt_zero, decide_eq_false_iff_not, Int.not_lt]
    exact h
  rw [hlt]
  rfl

/-- The f32 pattern of minus infinity is the bottom of the extended reals: sign bit set, exponent all ones, fraction zero. -/
theorem negInf_eq : Ideal.ofBits .f32 0xFF800000#32 = (⊥ : EReal) := by
  have h1 : ((0xFF800000#32 : BitVec 32).extractLsb' (8 + 23) 1 == 1#1) = true := by decide
  have h2 : ((0xFF800000#32 : BitVec 32).extractLsb' 23 8).toNat = 2 ^ 8 - 1 := by decide
  have h3 : ((0xFF800000#32 : BitVec 32).extractLsb' 0 23).toNat = 0 := by decide
  show Ideal.ieee 8 23 (0xFF800000#32 : BitVec 32) = ⊥
  unfold Ideal.ieee
  simp only [h1, h2, h3, if_true]

/-- The source index over row `p` whose reduced coordinate is `c` is `(p, c)`. -/
theorem lift_eq (hR : S50000x40.Reduces [1] S50000) (c : Fin (S50000x40.size 1)) :
    hR.lift (ix1 p) c = ix2 p (Fin.mk c.val c.isLt : Fin 40) := by
  funext a
  apply Fin.ext
  rw [hR.lift_val]
  unfold Shape.Reduces.liftVal
  match a with
  | ⟨0, h0⟩ =>
    have e1 : ¬ ((⟨0, h0⟩ : Fin S50000x40.rank).val = (1 : Fin S50000x40.rank).val) := Nat.zero_ne_one
    have e2 : (⟨0, h0⟩ : Fin S50000x40.rank).val < (1 : Fin S50000x40.rank).val := Nat.zero_lt_one
    rw [dif_neg e1, dif_pos e2]
  | ⟨1, h1⟩ =>
    have e1 : (⟨1, h1⟩ : Fin S50000x40.rank).val = (1 : Fin S50000x40.rank).val := rfl
    rw [dif_pos e1]

/-- The row maximum the final stage starts from: the fold of `max` over the row's 40 entries from minus infinity. -/
theorem rowmax_apply :
    val_main_call2_v0 (F := Ideal) x0 x1 x2 x3 x4 x5 x6 x7 x8 x9 x10 x11 x12 x13 x14 x15 (ix1 p) = Cert.Spec.rowMax (fun c : Fin 40 => val_main_v185 (F := Ideal) x0 x1 x2 x3 x4 x5 x6 x7 x8 x9 x10 x11 x12 x13 x14 x15 (ix2 p c)) := by
  unfold val_main_call2_v0 Cert.Spec.rowMax Cert.Spec.negInfF
  generalize val_main_v185 (F := Ideal) x0 x1 x2 x3 x4 x5 x6 x7 x8 x9 x10 x11 x12 x13 x14 x15 = y
  have hR : S50000x40.Reduces [1] S50000 := by decide
  rw [Host.reduce_eq_fold_single FloatOps.maximumf _ _ Gen.reducesTo_S50000x40_S50000_d1 hR Gen.h_S_ (ix1 p)]
  have hp : ∀ c : Fin (S50000x40.size 1), y (hR.lift (ix1 p) c) = y (ix2 p (Fin.mk c.val c.isLt : Fin 40)) :=
    fun c => congrArg y (lift_eq p hR c)
  refine (Finset.fold_congr (g := fun c : Fin (S50000x40.size 1) => y (ix2 p (Fin.mk c.val c.isLt : Fin 40)))
    (fun c _ => hp c)).trans ?_
  rfl

/-- The final stage at a coordinate: the row-wise log-softmax of the last aggregate. -/
theorem out_apply :
    val_main_v186 (F := Ideal) x0 x1 x2 x3 x4 x5 x6 x7 x8 x9 x10 x11 x12 x13 x14 x15 (ix2 p q) = Cert.Spec.lsm (fun c : Fin 40 => val_main_v185 (F := Ideal) x0 x1 x2 x3 x4 x5 x6 x7 x8 x9 x10 x11 x12 x13 x14 x15 (ix2 p c)) q := by
  have hm : ∀ c : Fin 40, val_main_call2_v4 (F := Ideal) x0 x1 x2 x3 x4 x5 x6 x7 x8 x9 x10 x11 x12 x13 x14 x15 (ix2 p c) = Cert.Spec.rowMax (fun c : Fin 40 => val_main_v185 (F := Ideal) x0 x1 x2 x3 x4 x5 x6 x7 x8 x9 x10 x11 x12 x13 x14 x15 (ix2 p c)) := by
    intro c
    rw [val_main_call2_v4_apply, val_main_call2_v3_apply, val_main_call2_v2_apply, val_main_call2_v1_apply,
      val_main_call2_cst_0_apply]
    have h : idx_main_call2_v3 (idx_main_call2_v4 (ix2 p c)) = ix1 p := by
      funext a; match a with | ⟨0, _⟩ => rfl
    rw [h, rowmax_apply, Ideal.ofBits_def, Ideal.maximumf_def, negInf_eq]
    exact max_eq_right bot_le
  have h5 : ∀ c : Fin 40, val_main_call2_v5 (F := Ideal) x0 x1 x2 x3 x4 x5 x6 x7 x8 x9 x10 x11 x12 x13 x14 x15 (ix2 p c)
      = val_main_v185 (F := Ideal) x0 x1 x2 x3 x4 x5 x6 x7 x8 x9 x10 x11 x12 x13 x14 x15 (ix2 p c) - Cert.Spec.rowMax (fun c : Fin 40 => val_main_v185 (F := Ideal) x0 x1 x2 x3 x4 x5 x6 x7 x8 x9 x10 x11 x12 x13 x14 x15 (ix2 p c)) := by
    intro c
    rw [val_main_call2_v5_apply, hm c, Ideal.subf_def]
  have hs : ∀ c : Fin 40, val_main_call2_v6 (F := Ideal) x0 x1 x2 x3 x4 x5 x6 x7 x8 x9 x10 x11 x12 x13 x14 x15 (idx_main_call2_v7 (ix1 p) c)
      = Ideal.exp (val_main_v185 (F := Ideal) x0 x1 x2 x3 x4 x5 x6 x7 x8 x9 x10 x11 x12 x13 x14 x15 (ix2 p c) - Cert.Spec.rowMax (fun c : Fin 40 => val_main_v185 (F := Ideal) x0 x1 x2 x3 x4 x5 x6 x7 x8 x9 x10 x11 x12 x13 x14 x15 (ix2 p c))) := by
    intro c
    have h : idx_main_call2_v7 (ix1 p) c = ix2 p c := by
      funext a; match a with | ⟨0, _⟩ => rfl | ⟨1, _⟩ => rfl
    rw [h, val_main_call2_v6_apply, h5 c, Ideal.hostUnary_exp_def]
  have h8 : idx_main_call2_v8 (idx_main_call2_v10 (ix2 p q)) = ix1 p := by
    funext a; match a with | ⟨0, _⟩ => rfl
  rw [val_main_v186_apply, h5 q, val_main_call2_v10_apply, val_main_call2_v9_apply, val_main_call2_v8_apply, h8,
    val_main_call2_v7_apply, val_main_call2_cst_1_apply, Finset.sum_congr rfl (fun c _ => hs c),
    Ideal.ofBits_def, Ideal.ofBits_zero_f32, zero_add, Ideal.hostUnary_log_def, Ideal.subf_def]
  rfl

end Cert.RefIdx

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.LibGraphIdx.lean ====
/-
  The host's row gather and row scatter-add of this graph convolution, read at an index.

  The index array has one start index per edge, shape [E, 1]. A gather of rows reads, for edge `e`, the row whose number
  is the edge's start index read signed, negatives taken to 0, clamped to the last row; it reads the same row of a matrix
  [N, D] and of a vector [N]. An accumulating scatter of rows adds edge `e`'s update row into the row whose number is the
  edge's start index read signed, when that number is a row's, and drops it otherwise; so the entry (p, q) of the result
  is the operand's entry plus the sum, over the edges whose start index is `p`, of the updates' entries (e, q).
-/
import Idealize.ShloMosaic.PureOps.Ideal
import Idealize.ShloMosaic.PureOps
import Idealize.ShloMosaic.Lib.ValueIdx
import proofs.«151626_j17386027614906_2_alg».proof.Proof.LibScatterAddFinite

noncomputable section

open scoped BigOperators

namespace Cert.GraphIdx

open Idealize.ShloMosaic Idealize.ShloMosaic.ValueIdx

variable {N E D : Nat}

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gathers -/

/-- The dimension numbers of a gather of rows of an [N, D] matrix by an [E, 1] index array. -/
abbrev gd2 (wf : GatherDims.WF ⟨2, ![N, D]⟩ ⟨2, ![E, 1]⟩ ⟨2, ![E, D]⟩ [1] [0] [] [0] [] 1 ![1, D]) : GatherDims ⟨2, ![N, D]⟩ ⟨2, ![E, 1]⟩ ⟨2, ![E, D]⟩ :=
  { offsetDims := [1], collapsedSliceDims := [0], operandBatchingDims := [], startIndicesBatchingDims := [],
    startIndexMap := [0], indexVectorDim := 1, sliceSizes := ![1, D], wf := wf }

/-- The operand index a row gather of a matrix reads at result index (e, q): (the edge's row, q). -/
theorem gd2_operandIdx (wf : GatherDims.WF ⟨2, ![N, D]⟩ ⟨2, ![E, 1]⟩ ⟨2, ![E, D]⟩ [1] [0] [] [0] [] 1 ![1, D]) (hN : 0 < N) {w : Nat} (idx : IVec ⟨2, ![E, 1]⟩ w) (e : Fin E) (q : Fin D) :
    (gd2 (N := N) (E := E) (D := D) wf).operandIdx (ix2 e q) idx = ix2 (rowOf hN idx e) q := by
  funext a
  apply Fin.ext
  match a with
  | ⟨0, _⟩ =>
    show (gd2 wf).start (ix2 e q) idx 0 + (gd2 wf).batchCoord (ix2 e q) 0 + (gd2 wf).offCoord (ix2 e q) 0 = min (idx (ix2 e 0)).toInt.toNat (N - 1)
    have h1 : (gd2 wf).batchCoord (ix2 e q) 0 = 0 :=
      (gd2 wf).batchCoord_eq_zero _ _ (show (0 : Fin 2) ∉ ([] : List (Fin 2)) by decide)
    have h2 : (gd2 wf).offCoord (ix2 e q) 0 = 0 :=
      (gd2 wf).offCoord_eq_zero _ _ (show (0 : Fin 2) ∉ ([1] : List (Fin 2)) by decide)
    have h3 : (gd2 wf).start (ix2 e q) idx 0 = min (idx (ix2 e 0)).toInt.toNat (N - 1) := by
      unfold GatherDims.start
      rw [dif_pos (show (0 : Fin 2) ∈ ([0] : List (Fin 2)) by decide)]
      have hs : ∀ hh, (gd2 wf).siIdx (ix2 e q) ⟨List.idxOf (0 : Fin 2) ([0] : List (Fin 2)), hh⟩ = ix2 e 0 := by
        intro hh
        funext b
        apply Fin.ext
        match b with
        | ⟨0, _⟩ => rfl
        | ⟨1, _⟩ => rfl
      rw [hs]
      rfl
    omega
  | ⟨1, _⟩ =>
    show (gd2 wf).start (ix2 e q) idx 1 + (gd2 wf).batchCoord (ix2 e q) 1 + (gd2 wf).offCoord (ix2 e q) 1 = q.val
    have h1 : (gd2 wf).batchCoord (ix2 e q) 1 = 0 :=
      (gd2 wf).batchCoord_eq_zero _ _ (show (1 : Fin 2) ∉ ([] : List (Fin 2)) by decide)
    have h0 : (gd2 wf).start (ix2 e q) idx 1 = 0 := by
      unfold GatherDims.start
      rw [dif_neg (show (1 : Fin 2) ∉ ([0] : List (Fin 2)) by decide)]
    have h3 : (gd2 wf).offCoord (ix2 e q) 1 = q.val := by
      unfold GatherDims.offCoord
      have hm : (1 : Fin 2) ∈ (gd2 wf).sKept := (show (1 : Fin 2) ∈ ([1] : List (Fin 2)) by decide)
      rw [dif_pos hm]
      rfl
    omega

/-- A gather of rows of a matrix reads, at (e, q), the matrix at (the edge's row, q). -/
theorem gather2_apply {α : Type} (wf : GatherDims.WF ⟨2, ![N, D]⟩ ⟨2, ![E, 1]⟩ ⟨2, ![E, D]⟩ [1] [0] [] [0] [] 1 ![1, D]) (hN : 0 < N) {w : Nat}
    (x : (⟨2, ![N, D]⟩ : Shape).Idx → α) (idx : IVec ⟨2, ![E, 1]⟩ w) (e : Fin E) (q : Fin D) :
    Host.gather (gd2 wf) x idx (ix2 e q) = x (ix2 (rowOf hN idx e) q) := by
  rw [Cert.ScatterAddFinite.gather_apply, gd2_operandIdx wf hN]

/-- The dimension numbers of a gather of entries of an [N] vector by an [E, 1] index array. -/
abbrev gd1 (wf : GatherDims.WF ⟨1, ![N]⟩ ⟨2, ![E, 1]⟩ ⟨1, ![E]⟩ [] [0] [] [0] [] 1 ![1]) : GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The operand index a gather of a vector's entries reads at result index e: the edge's row. -/
theorem gd1_operandIdx (wf : GatherDims.WF ⟨1, ![N]⟩ ⟨2, ![E, 1]⟩ ⟨1, ![E]⟩ [] [0] [] [0] [] 1 ![1]) (hN : 0 < N) {w : Nat} (idx : IVec ⟨2, ![E, 1]⟩ w) (e : Fin E) :
    (gd1 (N := N) (E := E) wf).operandIdx (ix1 e) idx = ix1 (rowOf hN idx e) := by
  funext a
  apply Fin.ext
  match a with
  | ⟨0, _⟩ =>
    show (gd1 wf).start (ix1 e) idx 0 + (gd1 wf).batchCoord (ix1 e) 0 + (gd1 wf).offCoord (ix1 e) 0 = min (idx (ix2 e 0)).toInt.toNat (N - 1)
    have h1 : (gd1 wf).batchCoord (ix1 e) 0 = 0 :=
      (gd1 wf).batchCoord_eq_zero _ _ (show (0 : Fin 1) ∉ ([] : List (Fin 1)) by decide)
    have h2 : (gd1 wf).offCoord (ix1 e) 0 = 0 :=
      (gd1 wf).offCoord_eq_zero _ _ (show (0 : Fin 1) ∉ ([] : List (Fin 1)) by decide)
    have h3 : (gd1 wf).start (ix1 e) idx 0 = min (idx (ix2 e 0)).toInt.toNat (N - 1) := by
      unfold GatherDims.start
      rw [dif_pos (show (0 : Fin 1) ∈ ([0] : List (Fin 1)) by decide)]
      have hs : ∀ hh, (gd1 wf).siIdx (ix1 e) ⟨List.idxOf (0 : Fin 1) ([0] : List (Fin 1)), hh⟩ = ix2 e 0 := by
        intro hh
        funext b
        apply Fin.ext
        match b with
        | ⟨0, _⟩ => rfl
        | ⟨1, _⟩ => rfl
      rw [hs]
      rfl
    omega

/-- A gather of entries of a vector reads, at e, the vector at the edge's row: the SAME row as the matrix gather's. -/
theorem gather1_apply {α : Type} (wf : GatherDims.WF ⟨1, ![N]⟩ ⟨2, ![E, 1]⟩ ⟨1, ![E]⟩ [] [0] [] [0] [] 1 ![1]) (hN : 0 < N) {w : Nat}
    (x : (⟨1, ![N]⟩ : Shape).Idx → α) (idx : IVec ⟨2, ![E, 1]⟩ w) (e : Fin E) :
    Host.gather (gd1 wf) x idx (ix1 e) = x (ix1 (rowOf hN idx e)) := by
  rw [Cert.ScatterAddFinite.gather_apply, gd1_operandIdx wf hN]

/-! ## The accumulating scatters -/

/-- The dimension numbers of an accumulating scatter of [E, D] update rows into an [N, D] matrix by an [E, 1] index array. -/
abbrev sd2 (wf : ScatterDims.WF ⟨2, ![N, D]⟩ ⟨2, ![E, 1]⟩ ⟨2, ![E, D]⟩ [1] [0] [0] 1) : ScatterDims ⟨2, ![N, D]⟩ ⟨2, ![E, 1]⟩ ⟨2, ![E, D]⟩ :=
  { updateWindowDims := [1], insertedWindowDims := [0], scatterDimsToOperandDims := [0], indexVectorDim := 1, wf := wf }

theorem sd2_start0 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 0 = (idx (ix2 e 0)).toInt := by
  unfold ScatterDims.start
  rw [dif_pos (show (0 : Fin 2) ∈ ([0] : List (Fin 2)) by decide)]
  have hs : ∀ hh, (sd2 wf).siIdx (ix2 e q) ⟨List.idxOf (0 : Fin 2) ([0] : List (Fin 2)), hh⟩ = ix2 e 0 := by
    intro hh
    funext b
    apply Fin.ext
    match b with
    | ⟨0, _⟩ => rfl
    | ⟨1, _⟩ => rfl
  rw [hs]

theorem sd2_start1 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 1 = 0 := by
  unfold ScatterDims.start
  rw [dif_neg (show (1 : Fin 2) ∉ ([0] : List (Fin 2)) by decide)]

theorem sd2_window0 (wf : ScatterDims.WF ⟨2, ![N, D]⟩ ⟨2, ![E, 1]⟩ ⟨2, ![E, D]⟩ [1] [0] [0] 1) (e : Fin E) (q : Fin D) : (sd2 (N := N) wf).window (ix2 e q) 0 = 0 := by
  unfold ScatterDims.window
  have hm : (0 : Fin 2) ∉ (sd2 wf).sKept := (show (0 : Fin 2) ∉ ([1] : List (Fin 2)) by decide)
  rw [dif_neg hm]

theorem sd2_window1 (wf : ScatterDims.WF ⟨2, ![N, D]⟩ ⟨2, ![E, 1]⟩ ⟨2, ![E, D]⟩ [1] [0] [0] 1) (e : Fin E) (q : Fin D) : (sd2 (N := N) wf).window (ix2 e q) 1 = q.val := by
  unfold ScatterDims.window
  have hm : (1 : Fin 2) ∈ (sd2 wf).sKept := (show (1 : Fin 2) ∈ ([1] : List (Fin 2)) by decide)
  rw [dif_pos hm]
  rfl

/-- Update index (e, q) lands on (p, q') exactly when edge e's start index, read signed, is p, and q = q'. -/
theorem sd2_lands (wf : ScatterDims.WF ⟨2, ![N, D]⟩ ⟨2, ![E, 1]⟩ ⟨2, ![E, D]⟩ [1] [0] [0] 1) {w : Nat} (idx : IVec ⟨2, ![E, 1]⟩ w) (e : Fin E) (q : Fin D) (p : Fin N) (q' : Fin D) :
    (sd2 wf).resultIdx? (ix2 e q) idx = some (ix2 p q') ↔ (idx (ix2 e 0)).toInt = (p.val : Int) ∧ q = q' := by
  have s0 := sd2_start0 (N := N) wf idx e q
  have s1 := sd2_start1 (N := N) wf idx e q
  have w0 := sd2_window0 (N := N) wf e q
  have w1 := sd2_window1 (N := N) wf e q
  have hp := p.isLt
  have hq := q.isLt
  unfold ScatterDims.resultIdx?
  split
  · rename_i h
    rw [Option.some.injEq]
    constructor
    · intro hf
      have h0 := congrArg (fun f => (f 0).val) hf
      have h1 := congrArg (fun f => (f 1).val) hf
      have a0 := h 0
      simp only [s0, w0] at h0 a0
      simp only [s1, w1] at h1
      refine ⟨?_, Fin.ext ?_⟩
      · change ((idx (ix2 e 0)).toInt + ((0 : Nat) : Int)).toNat = p.val at h0
        omega
      · change ((0 : Int) + (q.val : Int)).toNat = q'.val at h1
        omega
    · rintro ⟨hi, rfl⟩
      funext a
      apply Fin.ext
      match a with
      | ⟨0, _⟩ =>
        show ((sd2 wf).start (ix2 e q) idx 0 + ((sd2 wf).window (ix2 e q) 0 : Int)).toNat = p.val
        rw [s0, w0]; omega
      | ⟨1, _⟩ =>
        show ((sd2 wf).start (ix2 e q) idx 1 + ((sd2 wf).window (ix2 e q) 1 : Int)).toNat = q.val
        rw [s1, w1]; omega
  · rename_i h
    constructor
    · intro hf; exact absurd hf (by simp)
    · rintro ⟨hi, rfl⟩
      exfalso
      apply h
      intro a
      match a with
      | ⟨0, _⟩ =>
        show 0 ≤ (sd2 wf).start (ix2 e q) idx 0 + ((sd2 wf).window (ix2 e q) 0 : Int) ∧ (sd2 wf).start (ix2 e q) idx 0 + ((sd2 wf).window (ix2 e q) 0 : Int) < (N : Int)
        rw [s0, w0]; omega
      | ⟨1, _⟩ =>
        show 0 ≤ (sd2 wf).start (ix2 e q) idx 1 + ((sd2 wf).window (ix2 e q) 1 : Int) ∧ (sd2 wf).start (ix2 e q) idx 1 + ((sd2 wf).window (ix2 e q) 1 : Int) < (D : Int)
        rw [s1, w1]; omega

/-- An accumulating scatter of rows, at (p, q): the operand's entry plus the sum, over the edges whose start index is p,
    of the updates' entries (e, q). -/
theorem scatterAdd2_apply (wf : ScatterDims.WF ⟨2, ![N, D]⟩ ⟨2, ![E, 1]⟩ ⟨2, ![E, D]⟩ [1] [0] [0] 1) {w : Nat} {φ : FTy} (x : FVec Ideal ⟨2, ![N, D]⟩ φ) (idx : IVec ⟨2, ![E, 1]⟩ w)
    (upd : FVec Ideal ⟨2, ![E, D]⟩ φ) (p : Fin N) (q : Fin D) :
    Host.scatterAdd (F := Ideal) (sd2 wf) x idx upd (ix2 p q)
      = x (ix2 p q) + ∑ e ∈ Finset.univ.filter (fun e : Fin E => (idx (ix2 e 0)).toInt = (p.val : Int)), upd (ix2 e q) := by
  classical
  rw [Cert.ScatterAddFinite.scatterAdd_apply]
  congr 1
  rw [Finset.sum_filter, sum_idx2, Finset.sum_filter]
  refine Finset.sum_congr rfl fun e _ => ?_
  by_cases hL : (idx (ix2 e 0)).toInt = (p.val : Int)
  · rw [if_pos hL]
    have : ∀ b : Fin D, (if (sd2 wf).resultIdx? (ix2 e b) idx = some (ix2 p q) then upd (ix2 e b) else 0)
        = if b = q then upd (ix2 e b) else 0 := by
      intro b
      by_cases hb : b = q
      · rw [if_pos hb, if_pos ((sd2_lands wf idx e b p q).2 ⟨hL, hb⟩)]
      · rw [if_neg hb, if_neg (fun h => hb ((sd2_lands wf idx e b p q).1 h).2)]
    rw [Finset.sum_congr rfl (fun b _ => this b), Finset.sum_ite_eq' Finset.univ q, if_pos (Finset.mem_univ q)]
  · rw [if_neg hL]
    refine Finset.sum_eq_zero fun b _ => ?_
    rw [if_neg (fun h => hL ((sd2_lands wf idx e b p q).1 h).1)]

/-- The dimension numbers of an accumulating scatter of [E] updates into an [N] vector by an [E, 1] index array. -/
abbrev sd1 (wf : ScatterDims.WF ⟨1, ![N]⟩ ⟨2, ![E, 1]⟩ ⟨1, ![E]⟩ [] [0] [0] 1) : ScatterDims ⟨1, ![N]⟩ ⟨2, ![E, 1]⟩ ⟨1, ![E]⟩ :=
  { updateWindowDims := [], insertedWindowDims := [0], scatterDimsToOperandDims := [0], indexVectorDim := 1, wf := wf }

theorem sd1_start0 (wf : ScatterDims.WF ⟨1, ![N]⟩ ⟨2, ![E, 1]⟩ ⟨1, ![E]⟩ [] [0] [0] 1) {w : Nat} (idx : IVec ⟨2, ![E, 1]⟩ w) (e : Fin E) :
    (sd1 (N := N) wf).start (ix1 e) idx 0 = (idx (ix2 e 0)).toInt := by
  unfold ScatterDims.start
  rw [dif_pos (show (0 : Fin 1) ∈ ([0] : List (Fin 1)) by decide)]
  have hs : ∀ hh, (sd1 wf).siIdx (ix1 e) ⟨List.idxOf (0 : Fin 1) ([0] : List (Fin 1)), hh⟩ = ix2 e 0 := by
    intro hh
    funext b
    apply Fin.ext
    match b with
    | ⟨0, _⟩ => rfl
    | ⟨1, _⟩ => rfl
  rw [hs]

theorem sd1_window0 (wf : ScatterDims.WF ⟨1, ![N]⟩ ⟨2, ![E, 1]⟩ ⟨1, ![E]⟩ [] [0] [0] 1) (e : Fin E) : (sd1 (N := N) wf).window (ix1 e) 0 = 0 := by
  unfold ScatterDims.window
  have hm : (0 : Fin 1) ∉ (sd1 wf).sKept := (show (0 : Fin 1) ∉ ([] : List (Fin 1)) by decide)
  rw [dif_neg hm]

/-- Update index e lands on p exactly when edge e's start index, read signed, is p. -/
theorem sd1_lands (wf : ScatterDims.WF ⟨1, ![N]⟩ ⟨2, ![E, 1]⟩ ⟨1, ![E]⟩ [] [0] [0] 1) {w : Nat} (idx : IVec ⟨2, ![E, 1]⟩ w) (e : Fin E) (p : Fin N) :
    (sd1 wf).resultIdx? (ix1 e) idx = some (ix1 p) ↔ (idx (ix2 e 0)).toInt = (p.val : Int) := by
  have s0 := sd1_start0 (N := N) wf idx e
  have w0 := sd1_window0 (N := N) wf e
  have hp := p.isLt
  unfold ScatterDims.resultIdx?
  split
  · rename_i h
    rw [Option.some.injEq]
    constructor
    · intro hf
      have h0 := congrArg (fun f => (f 0).val) hf
      have a0 := h 0
      simp only [s0, w0] at h0 a0
      change ((idx (ix2 e 0)).toInt + ((0 : Nat) : Int)).toNat = p.val at h0
      omega
    · intro hi
      funext a
      apply Fin.ext
      match a with
      | ⟨0, _⟩ =>
        show ((sd1 wf).start (ix1 e) idx 0 + ((sd1 wf).window (ix1 e) 0 : Int)).toNat = p.val
        rw [s0, w0]; omega
  · rename_i h
    constructor
    · intro hf; exact absurd hf (by simp)
    · intro hi
      exfalso
      apply h
      intro a
      match a with
      | ⟨0, _⟩ =>
        show 0 ≤ (sd1 wf).start (ix1 e) idx 0 + ((sd1 wf).window (ix1 e) 0 : Int) ∧ (sd1 wf).start (ix1 e) idx 0 + ((sd1 wf).window (ix1 e) 0 : Int) < (N : Int)
        rw [s0, w0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- An accumulating scatter into a vector, at p: the operand's entry plus the sum of the updates of the edges whose
    start index is p. -/
theorem scatterAdd1_apply (wf : ScatterDims.WF ⟨1, ![N]⟩ ⟨2, ![E, 1]⟩ ⟨1, ![E]⟩ [] [0] [0] 1) {w : Nat} {φ : FTy} (x : FVec Ideal ⟨1, ![N]⟩ φ) (idx : IVec ⟨2, ![E, 1]⟩ w)
    (upd : FVec Ideal ⟨1, ![E]⟩ φ) (p : Fin N) :
    Host.scatterAdd (F := Ideal) (sd1 wf) x idx upd (ix1 p)
      = x (ix1 p) + ∑ e ∈ Finset.univ.filter (fun e : Fin E => (idx (ix2 e 0)).toInt = (p.val : Int)), upd (ix1 e) := by
  classical
  rw [Cert.ScatterAddFinite.scatterAdd_apply]
  congr 1
  rw [Finset.sum_filter, ← Equiv.sum_comp (idxEquiv1 (n := E)).symm, Finset.sum_filter]
  refine Finset.sum_congr rfl fun e _ => ?_
  show (if (sd1 wf).resultIdx? (ix1 e) idx = some (ix1 p) then upd (ix1 e) else 0) = _
  by_cases hL : (idx (ix2 e 0)).toInt = (p.val : Int)
  · rw [if_pos hL, if_pos ((sd1_lands wf idx e p).2 hL)]
  · rw [if_neg hL, if_neg (fun h => hL ((sd1_lands wf idx e p).1 h))]

end Cert.GraphIdx

end
-- ==== Proof.LibLayerAlgebra.lean ====
/-
  The one law that joins the two programs' graph convolutions, on the extended reals.

  A node's aggregate in the kernel is `c · (Σ_e h_e · d_e + h · c) + b`, with `c` the node's inverse-square-root degree, a
  nonnegative REAL; in the reference it is `Σ_e h_e · (d_e · c) + h · c² + b`. The rows `h` may hold infinities, so the
  law cannot go through the reals: it needs that multiplication by a nonnegative real distributes over sums of extended
  reals (true, because such a factor never turns an infinity's sign), and that multiplication is commutative and
  associative (always true).
-/
import Mathlib.Data.EReal.Operations
import Mathlib.Data.EReal.Inv
import Mathlib.Algebra.BigOperators.Group.Finset.Basic

open scoped BigOperators

namespace Cert.Alg

/-- A nonnegative real factor distributes over a finite sum of extended reals. -/
theorem coe_mul_sum {ι : Type} (c : ℝ) (hc : 0 ≤ c) (S : Finset ι) (f : ι → EReal) :
    (c : EReal) * ∑ e ∈ S, f e = ∑ e ∈ S, (c : EReal) * f e := by
  classical
  induction S using Finset.induction_on with
  | empty => simp
  | insert a S ha ih =>
    rw [Finset.sum_insert ha, Finset.sum_insert ha,
      EReal.left_distrib_of_nonneg_of_ne_top (EReal.coe_nonneg.2 hc) (EReal.coe_ne_top c), ih]

/-- The kernel's aggregate is the reference's: the factor `c` moved inside the sum and onto each edge's weight, and the
    self loop's `c · c` named. -/
theorem layer {ι : Type} (c : ℝ) (hc : 0 ≤ c) (S : Finset ι) (h d dd : ι → EReal)
    (hdd : ∀ e ∈ S, dd e = (c : EReal)) (hi b inv : EReal) (hinv : inv = ((c * c : ℝ) : EReal)) :
    (c : EReal) * ((0 + ∑ e ∈ S, h e * d e) + hi * (c : EReal)) + b
      = ((0 + ∑ e ∈ S, h e * (d e * dd e)) + hi * inv) + b := by
  rw [zero_add, zero_add, EReal.left_distrib_of_nonneg_of_ne_top (EReal.coe_nonneg.2 hc) (EReal.coe_ne_top c),
    coe_mul_sum c hc, hinv, EReal.coe_mul]
  congr 2
  · refine Finset.sum_congr rfl fun e he => ?_
    rw [hdd e he]
    exact (mul_left_comm (c : EReal) (h e) (d e)).trans (congrArg (h e * ·) (mul_comm (c : EReal) (d e)))
  · exact mul_left_comm (c : EReal) hi (c : EReal)

end Cert.Alg
-- ==== Proof.LibGcnLayer.lean ====
/-
  One graph-convolution layer's aggregate, the kernel's spelling against the reference's, at an entry.

  Both programs gather the rows of the previous activation at the edges' sources and add them into the rows of the
  edges' destinations. The kernel gathers rows already scaled by the source's inverse-square-root degree and scales the
  sum by the destination's once; the reference scales each gathered row by both. An edge whose start index is a row's
  number has that row as its destination, so inside the sum the destination's factor is the row's own; and the factor is
  a nonnegative real, so it moves through the sum of extended reals.
-/
import proofs.«151626_j17386027614906_2_alg».proof.Proof.Spec
import proofs.«151626_j17386027614906_2_alg».proof.Proof.LibGraphIdx
import proofs.«151626_j17386027614906_2_alg».proof.Proof.LibLayerAlgebra

noncomputable section

open scoped BigOperators

namespace Cert.LayerCore

open Idealize.ShloMosaic Idealize.ShloMosaic.ValueIdx Cert.GraphIdx

variable {N E D : Nat}

/-- The layer law at entry `(p, k)`, any sizes `N` (nodes), `E` (edges), `D` (width). Given: the kernel's rows `hs` are the
    rows `h` times `disv` row by row; `disv` at each row is a nonnegative real whose square is `one / degv` there; an edge
    whose raw start index is a row's number has that row as its clamped destination row; and the reference's messages
    `Msg` are the gathered rows of `h` times `disv` at the edge's source row times `disv` at its destination row. Then the
    kernel's aggregate `disv p · (scatter-add of the gathered `hs` + hs) + b` is the reference's
    `scatter-add of Msg + h · (one / degv p) + b`. Both scatters start from arrays that are 0 everywhere. -/
theorem layer (hN : 0 < N)
    (wfS wfS' : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (idxRaw idxSrc idxDst : IVec ⟨2, ![E, 1]⟩ 32)
    (h hs zK zR : FVec Ideal ⟨2, ![N, D]⟩ .f32) (Msg : FVec Ideal ⟨2, ![E, D]⟩ .f32)
    (disv degv : FVec Ideal ⟨1, ![N]⟩ .f32) (one : EReal)
    (hzK : ∀ i, zK i = 0) (hzR : ∀ i, zR i = 0)
    (Hhs : ∀ (r : Fin N) (k : Fin D), hs (ix2 r k) = h (ix2 r k) * disv (ix1 r))
    (Hdis : ∀ r : Fin N, ∃ c : ℝ, 0 ≤ c ∧ disv (ix1 r) = (c : EReal) ∧ Ideal.div one (degv (ix1 r)) = ((c * c : ℝ) : EReal))
    (Hdst : ∀ (e : Fin E) (p : Fin N), (idxRaw (ix2 e 0)).toInt = (p.val : Int) → rowOf hN idxDst e = p)
    (HMsg : ∀ (e : Fin E) (k : Fin D), Msg (ix2 e k)
      = h (ix2 (rowOf hN idxSrc e) k) * (disv (ix1 (rowOf hN idxSrc e)) * disv (ix1 (rowOf hN idxDst e))))
    (p : Fin N) (k : Fin D) (b : EReal) :
    Cert.Spec.aggK (disv (ix1 p))
        (Host.scatterAdd (F := Ideal) (sd2 wfS) zK idxRaw (Host.gather (gd2 wfG) hs idxSrc) (ix2 p k)) (hs (ix2 p k)) b
      = (Host.scatterAdd (F := Ideal) (sd2 wfS') zR idxRaw Msg (ix2 p k)
          + h (ix2 p k) * Ideal.div one (degv (ix1 p))) + b := by
  obtain ⟨c, hc, hcd, hinv⟩ := Hdis p
  rw [scatterAdd2_apply wfS, scatterAdd2_apply wfS', hzK, hzR, Hhs p k, hcd]
  unfold Cert.Spec.aggK
  have e1 : ∀ e : Fin E, Host.gather (gd2 wfG) hs idxSrc (ix2 e k)
      = h (ix2 (rowOf hN idxSrc e) k) * disv (ix1 (rowOf hN idxSrc e)) := by
    intro e; rw [gather2_apply wfG hN, Hhs]
  rw [Finset.sum_congr rfl (fun e _ => e1 e), Finset.sum_congr rfl (fun e _ => HMsg e k)]
  exact Cert.Alg.layer c hc _ (fun e => h (ix2 (rowOf hN idxSrc e) k)) (fun e => disv (ix1 (rowOf hN idxSrc e)))
    (fun e => disv (ix1 (rowOf hN idxDst e)))
    (fun e he => by rw [Hdst e p (Finset.mem_filter.1 he).2, hcd]) (h (ix2 p k)) b _ hinv

end Cert.LayerCore

end
-- ==== Proof.LibDegree.lean ====
/-
  A node's degree with its self loop is a positive natural number, so its inverse square root is a nonnegative real
  whose square is the degree's reciprocal: the two facts that let the kernel's factor `dis` pass through sums of extended
  reals and meet the reference's `1 / deg`.
-/
import Idealize.ShloMosaic.PureOps.Ideal
import Idealize.ShloMosaic.PureOps.Ideal.Laws
import proofs.«151626_j17386027614906_2_alg».proof.Proof.LibScatterAddFinite

noncomputable section

namespace Cert.Degree

open Idealize.ShloMosaic

/-- The f32 pattern of 1.0 is the real 1. -/
theorem ofBits_one : Ideal.ofBits .f32 0x3F800000#32 = ((1 : ℝ) : EReal) := by
  simp [Ideal.ofBits, Ideal.ieee]
  rw [← EReal.coe_mul, ← EReal.coe_one]
  congr 1
  norm_num

/-- For a count `n` of incoming edges: `rsqrt (n + 1)` is a nonnegative real `c` and `1 / (n + 1) = c · c`. -/
theorem dis_real (cnt one : EReal) (hcnt : ∃ n : ℕ, cnt = ((n : ℝ) : EReal)) (hone : one = ((1 : ℝ) : EReal)) :
    ∃ c : ℝ, 0 ≤ c ∧ Ideal.rsqrt (cnt + one) = (c : EReal) ∧ Ideal.div one (cnt + one) = ((c * c : ℝ) : EReal) := by
  obtain ⟨n, rfl⟩ := hcnt
  subst hone
  have hpos : (0 : ℝ) < (n : ℝ) + 1 := by positivity
  rw [← EReal.coe_add]
  refine ⟨(Real.sqrt ((n : ℝ) + 1))⁻¹, by positivity, ?_, ?_⟩
  · rw [Ideal.rsqrt_coe, if_neg (not_lt.2 hpos.le), if_neg hpos.ne']
  · rw [Ideal.div_coe hpos.ne', ← EReal.coe_mul]
    congr 1
    rw [← mul_inv, Real.mul_self_sqrt hpos.le]
    ring

end Cert.Degree

end
-- ==== Proof.LibColumns.lean ====
/-
  Keep-dims columns and bias rows read at an index, at any element type.
  A vector [a] laid out as a column [a, 1] — by a shape cast (a kernel's `keepdims` reduction) or by the host's
  `broadcast_in_dim` along axis 0 — reads, at (p, u), the vector at p.  A column [a, 1] broadcast by the host to
  [a, b] along axes (0, 1) reads, at (p, q), the column at (p, 0).  A vector [n] laid out as a row [1, n] by the host's
  `broadcast_in_dim` along axis 1 reads, at (u, k), the vector at k — the same array as the shape cast [n] → [1, n].
  (The row forms [1, b] → [a, b] are the library's; the column broadcast [a, 1] → [a, b] of a kernel is
  LibBroadcast2's.)
-/
import Idealize.ShloMosaic.Lib.Pipeline.Value
import Idealize.ShloMosaic.Lib.ValueIdx
import Idealize.ShloMosaic.Lib.ValueLayout

noncomputable section

namespace LibColumns

open Idealize.ShloMosaic Idealize.ShloMosaic.ValueIdx

variable {α : Type}

/-- An [a] vector cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a] vector broadcast by the host along axis 0 to a column [a, 1] reads, at (p, u), the vector at p. -/
theorem broadcastInDim_a_a1_apply {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column [a, 1] broadcast by the host along axes (0, 1) to [a, b] reads, at (p, q), the column at (p, 0). -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- An [n] vector broadcast by the host along axis 1 to a row [1, n] reads, at (u, k), the vector at k. -/
theorem broadcastInDim_n_1n_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun ax => ?_
  match ax with
  | ⟨0, _⟩ =>
    show k.val = if n = 1 then 0 else k.val
    split
    · have := k.isLt; omega
    · rfl

/-- The host's row of a vector is the vector's cast to one row. -/
theorem broadcastInDim_row_eq_shapeCast {n : ℕ} (h : (⟨1, ![n]⟩ : Shape).BroadcastsInDim ⟨2, ![1, n]⟩ ![1])
    (hc : (⟨1, ![n]⟩ : Shape).ShapeCasts ⟨2, ![1, n]⟩) (v : (⟨1, ![n]⟩ : Shape).Idx → α) :
    broadcastInDim ⟨2, ![1, n]⟩ ![1] h v = shapeCast ⟨2, ![1, n]⟩ v hc := by
  funext j
  obtain ⟨u, k, rfl⟩ : ∃ (u : Fin 1) (k : Fin n), j = ix2 u k := ⟨j 0, j 1, eq_ix2 j⟩
  rw [broadcastInDim_n_1n_apply, shapeCast_a_1a_apply]

end LibColumns

end
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.Bridge.lean ====
/-
  The idealized kernel's result is the idealized reference's, entry by entry.

  Both compute three graph-convolution layers over the same graph. The graph's data — each edge's source row, its
  destination row, each node's degree and its inverse square root — are the SAME terms of the edge list in the two
  programs. Layer by layer: the kernel's rows are the reference's product rows times `dis`; so the kernel's aggregate
  `dis · (Σ gathered + own) + b` is the reference's `Σ gathered · (dis_src · dis_dst) + own / deg + b` (the layer law);
  the batch normalisation, the rectifier and the next product are the same functions of it; and at the end both take the
  same row-wise log-softmax.
-/
import proofs.«151626_j17386027614906_2_alg».proof.Proof.RefRead
import proofs.«151626_j17386027614906_2_alg».proof.Proof.RefIdx
import proofs.«151626_j17386027614906_2_alg».proof.Proof.KernelTerms
import proofs.«151626_j17386027614906_2_alg».proof.Proof.LibGcnLayer
import proofs.«151626_j17386027614906_2_alg».proof.Proof.LibDegree
import proofs.«151626_j17386027614906_2_alg».proof.Proof.LibColumns
import proofs.«151626_j17386027614906_2_alg».proof.Proof.LibReshapeRead

set_option maxRecDepth 16384

noncomputable section

open scoped BigOperators

namespace Cert.Bridge

open Idealize.ShloMosaic Idealize.ShloMosaic.ValueIdx Cert.GraphIdx Cert.RefIdx
open Cert.ReferenceIdeal Cert.ReferenceIdeal.ReadP

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x40, .f32⟩ : BufTy).Contents (Elt Ideal))
  (x7 : (⟨S40, .f32⟩ : BufTy).Contents (Elt Ideal))
  (x8 x9 x10 x11 x12 x13 x14 x15 : (⟨S128, .f32⟩ : BufTy).Contents (Elt Ideal))

/-! ## The graph's data are the same terms in the two programs -/

theorem raw_eq : Cert.KernelIdeal.Fold.rawIdx (Cert.KernelIdeal.Fold.dstV x1) = val_main_v43 (F := Ideal) x1 := rfl
theorem src_eq : Cert.KernelIdeal.Fold.normIdx (Cert.KernelIdeal.Fold.srcV x1) = val_main_v37 (F := Ideal) x1 := rfl
theorem deg_eq : Cert.KernelIdeal.Fold.degV x1 = val_main_v15 (F := Ideal) x1 := rfl

theorem v22_eq : val_main_v22 (F := Ideal) x1 = val_main_v37 (F := Ideal) x1 := rfl
theorem v88_eq : val_main_v88 (F := Ideal) x1 = val_main_v37 (F := Ideal) x1 := rfl
theorem v103_eq : val_main_v103 (F := Ideal) x1 = val_main_v37 (F := Ideal) x1 := rfl
theorem v154_eq : val_main_v154 (F := Ideal) x1 = val_main_v37 (F := Ideal) x1 := rfl
theorem v169_eq : val_main_v169 (F := Ideal) x1 = val_main_v37 (F := Ideal) x1 := rfl
theorem v95_eq : val_main_v95 (F := Ideal) x1 = val_main_v29 (F := Ideal) x1 := rfl
theorem v161_eq : val_main_v161 (F := Ideal) x1 = val_main_v29 (F := Ideal) x1 := rfl
theorem v11_eq : val_main_v11 (F := Ideal) x1 = val_main_v29 (F := Ideal) x1 := rfl
theorem v109_eq : val_main_v109 (F := Ideal) x1 = val_main_v43 (F := Ideal) x1 := rfl
theorem v175_eq : val_main_v175 (F := Ideal) x1 = val_main_v43 (F := Ideal) x1 := rfl
theorem v81_eq : val_main_v81 (F := Ideal) x1 = val_main_v15 (F := Ideal) x1 := rfl
theorem v147_eq : val_main_v147 (F := Ideal) x1 = val_main_v15 (F := Ideal) x1 := rfl
theorem v82_eq : val_main_v82 (F := Ideal) x1 = val_main_v16 (F := Ideal) x1 := rfl
theorem v148_eq : val_main_v148 (F := Ideal) x1 = val_main_v16 (F := Ideal) x1 := rfl

/-- The kernel's column `dis` at row `r` is the reference's vector `dis` at `r`. -/
theorem dis_eq (r : Fin 50000) :
    Cert.KernelIdeal.Fold.dis2V x1 (ix2 r (0 : Fin 1)) = val_main_v16 (F := Ideal) x1 (ix1 r) := by
  unfold Cert.KernelIdeal.Fold.dis2V
  rw [LibColumns.shapeCast_a_a1_apply]
  rfl

/-! ## The degrees are positive naturals; an edge that lands on a row has that row as its destination -/

theorem dis_facts (r : Fin 50000) : ∃ c : ℝ, 0 ≤ c ∧ val_main_v16 (F := Ideal) x1 (ix1 r) = (c : EReal)
    ∧ Ideal.div one (val_main_v15 (F := Ideal) x1 (ix1 r)) = ((c * c : ℝ) : EReal) := by
  rw [dis_apply, deg_apply]
  refine Cert.Degree.dis_real _ _ ?_ Cert.Degree.ofBits_one
  show ∃ n : ℕ, Host.scatterAdd (F := Ideal) scatter_S50000_S800000x1_S800000_n_0_0_1 (val_main_v5 (F := Ideal))
    (val_main_v11 (F := Ideal) x1) (val_main_v12 (F := Ideal)) (ix1 r) = _
  refine Cert.ScatterAddFinite.scatterAdd_zero_one_nat _ _ _ _ (fun i => ?_) (fun j => ?_) _
  · obtain ⟨p, rfl⟩ : ∃ p : Fin 50000, i = ix1 p := ⟨i 0, eq_ix1 i⟩
    exact zero0_apply p
  · obtain ⟨e, rfl⟩ : ∃ e : Fin 800000, j = ix1 e := ⟨j 0, eq_ix1 j⟩
    rw [ones_apply]
    exact Cert.Degree.ofBits_one.trans EReal.coe_one

theorem dst_facts (e : Fin 800000) (p : Fin 50000)
    (h : (val_main_v43 (F := Ideal) x1 (ix2 e 0)).toInt = (p.val : Int)) :
    rowOf (N := 50000) (by decide) (val_main_v29 (F := Ideal) x1) e = p := by
  rw [raw_apply] at h
  refine rowOf_eq _ _ e p ?_
  rw [dstn_of_nonneg x1 e (by omega)]
  exact h

/-! ## The layer law at the three layers -/

theorem layer1 (hs : Cert.KernelIdeal.Fold.A128)
    (Hhs : ∀ (r : Fin 50000) (k : Fin 128), hs (ix2 r k) = val_main_v4 (F := Ideal) x0 x2 (ix2 r k) * val_main_v16 (F := Ideal) x1 (ix1 r))
    (p : Fin 50000) (k : Fin 128) (b : EReal) :
    Cert.Spec.aggK (val_main_v16 (F := Ideal) x1 (ix1 p)) (Cert.KernelIdeal.Fold.aggr128 hs (Cert.KernelIdeal.Fold.srcV x1) (Cert.KernelIdeal.Fold.dstV x1) (ix2 p k)) (hs (ix2 p k)) b
      = (val_main_v44 (F := Ideal) x0 x1 x2 (ix2 p k)
          + val_main_v4 (F := Ideal) x0 x2 (ix2 p k) * Ideal.div one (val_main_v15 (F := Ideal) x1 (ix1 p))) + b := by
  refine Cert.LayerCore.layer (N := 50000) (E := 800000) (D := 128) (by decide) _ _ _
    (val_main_v43 (F := Ideal) x1) (val_main_v37 (F := Ideal) x1) (val_main_v29 (F := Ideal) x1)
    (val_main_v4 (F := Ideal) x0 x2) hs _ (val_main_v42 (F := Ideal)) (val_main_v41 (F := Ideal) x0 x1 x2)
    (val_main_v16 (F := Ideal) x1) (val_main_v15 (F := Ideal) x1) one ?_ ?_ Hhs (dis_facts x1) (dst_facts x1) ?_ p k b
  · intro i
    show Ideal.ofBits .f32 0x00000000#32 = 0
    exact Ideal.ofBits_zero_f32
  · intro i
    obtain ⟨r, j, rfl⟩ : ∃ (r : Fin 50000) (j : Fin 128), i = ix2 r j := ⟨i 0, i 1, eq_ix2 i⟩
    exact zero1_apply r j
  · intro e j
    rw [msg1_apply]
    show Host.gather (gd2 _) (val_main_v4 (F := Ideal) x0 x2) (val_main_v37 (F := Ideal) x1) (ix2 e j)
      * (Host.gather (gd1 _) (val_main_v16 (F := Ideal) x1) (val_main_v37 (F := Ideal) x1) (ix1 e)
        * Host.gather (gd1 _) (val_main_v16 (F := Ideal) x1) (val_main_v29 (F := Ideal) x1) (ix1 e)) = _
    rw [gather2_apply _ (by decide), gather1_apply _ (by decide), gather1_apply _ (by decide)]

theorem layer2 (hs : Cert.KernelIdeal.Fold.A128)
    (Hhs : ∀ (r : Fin 50000) (k : Fin 128), hs (ix2 r k) = val_main_v70 (F := Ideal) x0 x1 x2 x3 x4 x8 x9 x10 x11 (ix2 r k) * val_main_v16 (F := Ideal) x1 (ix1 r))
    (p : Fin 50000) (k : Fin 128) (b : EReal) :
    Cert.Spec.aggK (val_main_v16 (F := Ideal) x1 (ix1 p)) (Cert.KernelIdeal.Fold.aggr128 hs (Cert.KernelIdeal.Fold.srcV x1) (Cert.KernelIdeal.Fold.dstV x1) (ix2 p k)) (hs (ix2 p k)) b
      = (val_main_v110 (F := Ideal) x0 x1 x2 x3 x4 x8 x9 x10 x11 (ix2 p k)
          + val_main_v70 (F := Ideal) x0 x1 x2 x3 x4 x8 x9 x10 x11 (ix2 p k) * Ideal.div one (val_main_v15 (F := Ideal) x1 (ix1 p))) + b := by
  refine Cert.LayerCore.layer (N := 50000) (E := 800000) (D := 128) (by decide) _ _ _
    (val_main_v43 (F := Ideal) x1) (val_main_v37 (F := Ideal) x1) (val_main_v29 (F := Ideal) x1)
    (val_main_v70 (F := Ideal) x0 x1 x2 x3 x4 x8 x9 x10 x11) hs _ (val_main_v108 (F := Ideal)) (val_main_v107 (F := Ideal) x0 x1 x2 x3 x4 x8 x9 x10 x11)
    (val_main_v16 (F := Ideal) x1) (val_main_v15 (F := Ideal) x1) one ?_ ?_ Hhs (dis_facts x1) (dst_facts x1) ?_ p k b
  · intro i
    show Ideal.ofBits .f32 0x00000000#32 = 0
    exact Ideal.ofBits_zero_f32
  · intro i
    obtain ⟨r, j, rfl⟩ : ∃ (r : Fin 50000) (j : Fin 128), i = ix2 r j := ⟨i 0, i 1, eq_ix2 i⟩
    exact zero2_apply r j
  · intro e j
    rw [msg2_apply]
    show Host.gather (gd2 _) (val_main_v70 (F := Ideal) x0 x1 x2 x3 x4 x8 x9 x10 x11) (val_main_v37 (F := Ideal) x1) (ix2 e j)
      * (Host.gather (gd1 _) (val_main_v16 (F := Ideal) x1) (val_main_v37 (F := Ideal) x1) (ix1 e)
        * Host.gather (gd1 _) (val_main_v16 (F := Ideal) x1) (val_main_v29 (F := Ideal) x1) (ix1 e)) = _
    rw [gather2_apply _ (by decide), gather1_apply _ (by decide), gather1_apply _ (by decide)]

theorem layer3 (hs : Cert.KernelIdeal.Fold.A40)
    (Hhs : ∀ (r : Fin 50000) (k : Fin 40), hs (ix2 r k) = val_main_v136 (F := Ideal) x0 x1 x2 x3 x4 x5 x6 x8 x9 x10 x11 x12 x13 x14 x15 (ix2 r k) * val_main_v16 (F := Ideal) x1 (ix1 r))
    (p : Fin 50000) (k : Fin 40) (b : EReal) :
    Cert.Spec.aggK (val_main_v16 (F := Ideal) x1 (ix1 p)) (Cert.KernelIdeal.Fold.aggr40 hs (Cert.KernelIdeal.Fold.srcV x1) (Cert.KernelIdeal.Fold.dstV x1) (ix2 p k)) (hs (ix2 p k)) b
      = (val_main_v176 (F := Ideal) x0 x1 x2 x3 x4 x5 x6 x8 x9 x10 x11 x12 x13 x14 x15 (ix2 p k)
          + val_main_v136 (F := Ideal) x0 x1 x2 x3 x4 x5 x6 x8 x9 x10 x11 x12 x13 x14 x15 (ix2 p k) * Ideal.div one (val_main_v15 (F := Ideal) x1 (ix1 p))) + b := by
  refine Cert.LayerCore.layer (N := 50000) (E := 800000) (D := 40) (by decide) _ _ _
    (val_main_v43 (F := Ideal) x1) (val_main_v37 (F := Ideal) x1) (val_main_v29 (F := Ideal) x1)
    (val_main_v136 (F := Ideal) x0 x1 x2 x3 x4 x5 x6 x8 x9 x10 x11 x12 x13 x14 x15) hs _ (val_main_v174 (F := Ideal)) (val_main_v173 (F := Ideal) x0 x1 x2 x3 x4 x5 x6 x8 x9 x10 x11 x12 x13 x14 x15)
    (val_main_v16 (F := Ideal) x1) (val_main_v15 (F := Ideal) x1) one ?_ ?_ Hhs (dis_facts x1) (dst_facts x1) ?_ p k b
  · intro i
    show Ideal.ofBits .f32 0x00000000#32 = 0
    exact Ideal.ofBits_zero_f32
  · intro i
    obtain ⟨r, j, rfl⟩ : ∃ (r : Fin 50000) (j : Fin 40), i = ix2 r j := ⟨i 0, i 1, eq_ix2 i⟩
    exact zero3_apply r j
  · intro e j
    rw [msg3_apply]
    show Host.gather (gd2 _) (val_main_v136 (F := Ideal) x0 x1 x2 x3 x4 x5 x6 x8 x9 x10 x11 x12 x13 x14 x15) (val_main_v37 (F := Ideal) x1) (ix2 e j)
      * (Host.gather (gd1 _) (val_main_v16 (F := Ideal) x1) (val_main_v37 (F := Ideal) x1) (ix1 e)
        * Host.gather (gd1 _) (val_main_v16 (F := Ideal) x1) (val_main_v29 (F := Ideal) x1) (ix1 e)) = _
    rw [gather2_apply _ (by decide), gather1_apply _ (by decide), gather1_apply _ (by decide)]

/-! ## Layer by layer: the kernel's rows are the reference's product rows times `dis` -/

theorem row128_apply (v : (⟨S128, .f32⟩ : BufTy).Contents (Elt Ideal)) (k : Fin 128) : Cert.KernelIdeal.Fold.row128 v (ix2 (0 : Fin 1) k) = v (ix1 k) := by
  unfold Cert.KernelIdeal.Fold.row128
  exact Cert.DistSeams.vec_to_row_apply _ _ _ _

theorem row40_apply (v : (⟨S40, .f32⟩ : BufTy).Contents (Elt Ideal)) (k : Fin 40) : Cert.KernelIdeal.Fold.row40 v (ix2 (0 : Fin 1) k) = v (ix1 k) := by
  unfold Cert.KernelIdeal.Fold.row40
  exact Cert.DistSeams.vec_to_row_apply _ _ _ _

theorem rows1 (r : Fin 50000) (k : Fin 128) : Cert.KernelIdeal.Fold.hs1 x0 x1 x2 (ix2 r k) = val_main_v4 (F := Ideal) x0 x2 (ix2 r k) * val_main_v16 (F := Ideal) x1 (ix1 r) := by
  show (∑ j : Fin 128, x0 (ix2 r j) * x2 (ix2 j k)) * Cert.KernelIdeal.Fold.dis2V x1 (ix2 r (0 : Fin 1)) = _
  rw [dis_eq, dot1_apply]

theorem hidden1 (p : Fin 50000) (k : Fin 128) :
    Cert.Spec.hid (Cert.KernelIdeal.Fold.aggr128 (Cert.KernelIdeal.Fold.hs1 x0 x1 x2) (Cert.KernelIdeal.Fold.srcV x1) (Cert.KernelIdeal.Fold.dstV x1)) (Cert.KernelIdeal.Fold.hs1 x0 x1 x2) (Cert.KernelIdeal.Fold.dis2V x1)
      (Cert.KernelIdeal.Fold.row128 x3) (Cert.KernelIdeal.Fold.row128 x8) (Cert.KernelIdeal.Fold.row128 x9) (Cert.KernelIdeal.Fold.row128 x10) (Cert.KernelIdeal.Fold.row128 x11) p k
      = val_main_v69 (F := Ideal) x0 x1 x2 x3 x8 x9 x10 x11 (ix2 p k) := by
  unfold Cert.Spec.hid
  rw [dis_eq, row128_apply, row128_apply, row128_apply, row128_apply, row128_apply,
    layer1 x0 x1 x2 (Cert.KernelIdeal.Fold.hs1 x0 x1 x2) (rows1 x0 x1 x2) p k, ← agg1_apply, ← hid1_apply]

theorem rows2 (r : Fin 50000) (k : Fin 128) : Cert.KernelIdeal.Fold.hs2 x0 x1 x2 x3 x4 x8 x9 x10 x11 (ix2 r k) = val_main_v70 (F := Ideal) x0 x1 x2 x3 x4 x8 x9 x10 x11 (ix2 r k) * val_main_v16 (F := Ideal) x1 (ix1 r) := by
  unfold Cert.KernelIdeal.Fold.hs2 Cert.Spec.R1w
  show (∑ j : Fin 128, _ * x4 (ix2 j k)) * Cert.KernelIdeal.Fold.dis2V x1 (ix2 r (0 : Fin 1)) = _
  rw [dis_eq, dot2_apply]
  refine congrArg (· * val_main_v16 (F := Ideal) x1 (ix1 r)) ?_
  exact Finset.sum_congr rfl fun j _ => congrArg (· * x4 (ix2 j k)) (hidden1 x0 x1 x2 x3 x8 x9 x10 x11 r j)

theorem hidden2 (p : Fin 50000) (k : Fin 128) :
    Cert.Spec.hid (Cert.KernelIdeal.Fold.aggr128 (Cert.KernelIdeal.Fold.hs2 x0 x1 x2 x3 x4 x8 x9 x10 x11) (Cert.KernelIdeal.Fold.srcV x1) (Cert.KernelIdeal.Fold.dstV x1)) (Cert.KernelIdeal.Fold.hs2 x0 x1 x2 x3 x4 x8 x9 x10 x11) (Cert.KernelIdeal.Fold.dis2V x1)
      (Cert.KernelIdeal.Fold.row128 x5) (Cert.KernelIdeal.Fold.row128 x12) (Cert.KernelIdeal.Fold.row128 x13) (Cert.KernelIdeal.Fold.row128 x14) (Cert.KernelIdeal.Fold.row128 x15) p k
      = val_main_v135 (F := Ideal) x0 x1 x2 x3 x4 x5 x8 x9 x10 x11 x12 x13 x14 x15 (ix2 p k) := by
  unfold Cert.Spec.hid
  rw [dis_eq, row128_apply, row128_apply, row128_apply, row128_apply, row128_apply,
    layer2 x0 x1 x2 x3 x4 x8 x9 x10 x11 (Cert.KernelIdeal.Fold.hs2 x0 x1 x2 x3 x4 x8 x9 x10 x11) (rows2 x0 x1 x2 x3 x4 x8 x9 x10 x11) p k, ← v81_eq, ← agg2_apply, ← hid2_apply]

theorem rows3 (r : Fin 50000) (q : Fin 40) : Cert.KernelIdeal.Fold.hs3 x0 x1 x2 x3 x4 x5 x6 x8 x9 x10 x11 x12 x13 x14 x15 (ix2 r q) = val_main_v136 (F := Ideal) x0 x1 x2 x3 x4 x5 x6 x8 x9 x10 x11 x12 x13 x14 x15 (ix2 r q) * val_main_v16 (F := Ideal) x1 (ix1 r) := by
  unfold Cert.KernelIdeal.Fold.hs3 Cert.Spec.R2w
  show (∑ j : Fin 128, _ * x6 (ix2 j q)) * Cert.KernelIdeal.Fold.dis2V x1 (ix2 r (0 : Fin 1)) = _
  rw [dis_eq, dot3_apply]
  refine congrArg (· * val_main_v16 (F := Ideal) x1 (ix1 r)) ?_
  exact Finset.sum_congr rfl fun j _ => congrArg (· * x6 (ix2 j q)) (hidden2 x0 x1 x2 x3 x4 x5 x8 x9 x10 x11 x12 x13 x14 x15 r j)

/-- The last aggregate, entry by entry. -/
theorem agg3 (p : Fin 50000) (q : Fin 40) :
    Cert.Spec.aggK (Cert.KernelIdeal.Fold.dis2V x1 (ix2 p (0 : Fin 1))) (Cert.KernelIdeal.Fold.aggr40 (Cert.KernelIdeal.Fold.hs3 x0 x1 x2 x3 x4 x5 x6 x8 x9 x10 x11 x12 x13 x14 x15) (Cert.KernelIdeal.Fold.srcV x1) (Cert.KernelIdeal.Fold.dstV x1) (ix2 p q)) (Cert.KernelIdeal.Fold.hs3 x0 x1 x2 x3 x4 x5 x6 x8 x9 x10 x11 x12 x13 x14 x15 (ix2 p q))
      (Cert.KernelIdeal.Fold.row40 x7 (ix2 (0 : Fin 1) q)) = val_main_v185 (F := Ideal) x0 x1 x2 x3 x4 x5 x6 x7 x8 x9 x10 x11 x12 x13 x14 x15 (ix2 p q) := by
  rw [dis_eq, row40_apply, layer3 x0 x1 x2 x3 x4 x5 x6 x8 x9 x10 x11 x12 x13 x14 x15 (Cert.KernelIdeal.Fold.hs3 x0 x1 x2 x3 x4 x5 x6 x8 x9 x10 x11 x12 x13 x14 x15) (rows3 x0 x1 x2 x3 x4 x5 x6 x8 x9 x10 x11 x12 x13 x14 x15) p q, ← v147_eq, ← agg3_apply]

/-- THE BRIDGE: the kernel's result function is the reference's last stage. -/
theorem kernel_eq_reference :
    Cert.KernelIdeal.Fold.kernelValue x0 x1 x2 x3 x4 x5 x6 x7 x8 x9 x10 x11 x12 x13 x14 x15 = val_main_v186 (F := Ideal) x0 x1 x2 x3 x4 x5 x6 x7 x8 x9 x10 x11 x12 x13 x14 x15 := by
  funext i
  obtain ⟨p, q, rfl⟩ : ∃ (p : Fin 50000) (q : Fin 40), i = ix2 p q := ⟨i 0, i 1, eq_ix2 i⟩
  rw [out_apply]
  show Cert.Spec.lsm (fun k => Cert.Spec.aggK (Cert.KernelIdeal.Fold.dis2V x1 (ix2 p (0 : Fin 1)))
      (Cert.KernelIdeal.Fold.aggr40 (Cert.KernelIdeal.Fold.hs3 x0 x1 x2 x3 x4 x5 x6 x8 x9 x10 x11 x12 x13 x14 x15) (Cert.KernelIdeal.Fold.srcV x1) (Cert.KernelIdeal.Fold.dstV x1) (ix2 p k)) (Cert.KernelIdeal.Fold.hs3 x0 x1 x2 x3 x4 x5 x6 x8 x9 x10 x11 x12 x13 x14 x15 (ix2 p k)) (Cert.KernelIdeal.Fold.row40 x7 (ix2 (0 : Fin 1) k))) q = _
  exact congrArg (fun a => Cert.Spec.lsm a q) (funext fun k => agg3 x0 x1 x2 x3 x4 x5 x6 x7 x8 x9 x10 x11 x12 x13 x14 x15 p k)

end Cert.Bridge

end
-- ==== Proof.lean ====
/-
  The proof of `Cert.Claim`: the three frames, the idealization's ledger (empty) and the algebraic claim.

  The word-level kernel's and the idealized kernel's frames are their generated frame certificates. The reference's
  frame is its run with the result dropped. The algebraic claim: the idealized kernel ends with its result buffer at the
  fold of its segments (its run, with the result named), which is one function of the argument arrays (the boundaries,
  launch by launch); the idealized reference ends with its result at its last stage of its own arguments (its run); the
  arguments agree, and that function IS the last stage, entry by entry (the bridge: the layer law three times, then the
  same log-softmax).
-/
import proofs.«151626_j17386027614906_2_alg».proof.Defs
import proofs.«151626_j17386027614906_2_alg».proof.Proof.Gen.Kernel
import proofs.«151626_j17386027614906_2_alg».proof.Proof.Gen.Kernel.Skeleton
import proofs.«151626_j17386027614906_2_alg».proof.Proof.Gen.Kernel.Launch
import proofs.«151626_j17386027614906_2_alg».proof.Proof.Gen.Kernel.Points
import proofs.«151626_j17386027614906_2_alg».proof.Proof.Gen.Kernel.Frame
import proofs.«151626_j17386027614906_2_alg».proof.Proof.Gen.KernelIdeal
import proofs.«151626_j17386027614906_2_alg».proof.Proof.Gen.KernelIdeal.Skeleton
import proofs.«151626_j17386027614906_2_alg».proof.Proof.Gen.KernelIdeal.Launch
import proofs.«151626_j17386027614906_2_alg».proof.Proof.Gen.KernelIdeal.Points
import proofs.«151626_j17386027614906_2_alg».proof.Proof.Gen.KernelIdeal.Frame
import proofs.«151626_j17386027614906_2_alg».proof.Proof.Gen.ReferenceIdeal
import proofs.«151626_j17386027614906_2_alg».proof.Proof.Gen.Pre_finite_inputs
import proofs.«151626_j17386027614906_2_alg».proof.Proof.KernelRun
import proofs.«151626_j17386027614906_2_alg».proof.Proof.Fold
import proofs.«151626_j17386027614906_2_alg».proof.Proof.Bridge
import proofs.«151626_j17386027614906_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same result array: the kernel's fold
    of its segments, read as one function of the arguments, is the reference's last stage of the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v61),
    Cert.KernelIdeal.Result.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact ((Cert.KernelIdeal.Fold.value m ρ c).trans (Cert.Bridge.kernel_eq_reference _ _ _ _ _ _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
